-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S10000 : Shape := ⟨1, ![10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256x256 .f32) (main_arg10 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S10000x256 .f32) (main_arg1 : IVec S2x320000 32) (main_arg2 : IVec S10000 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S10000x256 : Shape := ⟨2, ![10000, 256]⟩
abbrev S2x320000 : Shape := ⟨2, ![2, 320000]⟩
abbrev S10000 : Shape := ⟨1, ![10000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x1 : Shape := ⟨2, ![10000, 1]⟩
abbrev S1x256 : Shape := ⟨2, ![1, 256]⟩
abbrev S1000x256 : Shape := ⟨2, ![1000, 256]⟩
abbrev S1000x1 : Shape := ⟨2, ![1000, 1]⟩
abbrev S330000x256 : Shape := ⟨2, ![330000, 256]⟩
abbrev S64x256 : Shape := ⟨2, ![64, 256]⟩
abbrev S64 : Shape := ⟨1, ![64]⟩
abbrev S64x1 : Shape := ⟨2, ![64, 1]⟩

abbrev nBuf : Space → Nat
  | .hbm => 85
  | .vmem => 38
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S10000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S10000, .i32⟩
  | .hbm, ⟨16, _⟩ => ⟨S330000, .i32⟩
  | .hbm, ⟨17, _⟩ => ⟨S330000, .i32⟩
  | .hbm, ⟨18, _⟩ => ⟨S_, .f32⟩
  | .hbm, ⟨19, _⟩ => ⟨S330000, .f32⟩
  | .hbm, ⟨20, _⟩ => ⟨S_, .f32⟩
  | .hbm, ⟨21, _⟩ => ⟨S10000, .f32⟩
  | .hbm, ⟨22, _⟩ => ⟨S330000x1, .i32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .i1⟩
  | .hbm, ⟨27, _⟩ => ⟨S10000, .f32⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000x1, .f32⟩
  | .hbm, ⟨33, _⟩ => ⟨S1x256, .f32⟩
  | .hbm, ⟨34, _⟩ => ⟨S10000x256, .f32⟩
  | .hbm, ⟨35, _⟩ => ⟨S10000x256, .f32⟩
  | .hbm, ⟨36, _⟩ => ⟨S_, .i32⟩
  | .hbm, ⟨37, _⟩ => ⟨S330000, .i32⟩
  | .hbm, ⟨38, _⟩ => ⟨S330000, .i1⟩
  | .hbm, ⟨39, _⟩ => ⟨S_, .i32⟩
  | .hbm, ⟨40, _⟩ => ⟨S330000, .i32⟩
  | .hbm, ⟨41, _⟩ => ⟨S330000, .i32⟩
  | .hbm, ⟨42, _⟩ => ⟨S330000, .i32⟩
  | .hbm, ⟨43, _⟩ => ⟨S330000x1, .i32⟩
  | .hbm, ⟨44, _⟩ => ⟨S330000x256, .f32⟩
  | .hbm, ⟨45, _⟩ => ⟨S_, .f32⟩
  | .hbm, ⟨46, _⟩ => ⟨S10000x256, .f32⟩
  | .hbm, ⟨47, _⟩ => ⟨S330000x1, .i32⟩
  | .hbm, ⟨48, _⟩ => ⟨S10000x256, .f32⟩
  | .hbm, ⟨49, _⟩ => ⟨S1x256, .f32⟩
  | .hbm, ⟨50, _⟩ => ⟨S10000x256, .f32⟩
  | .hbm, ⟨51, _⟩ => ⟨S10000x256, .f32⟩
  | .hbm, ⟨52, _⟩ => ⟨S_, .i32⟩
  | .hbm, ⟨53, _⟩ => ⟨S330000, .i32⟩
  | .hbm, ⟨54, _⟩ => ⟨S330000, .i1⟩
  | .hbm, ⟨55, _⟩ => ⟨S_, .i32⟩
  | .hbm, ⟨56, _⟩ => ⟨S330000, .i32⟩
  | .hbm, ⟨57, _⟩ => ⟨S330000, .i32⟩
  | .hbm, ⟨58, _⟩ => ⟨S330000, .i32⟩
  | .hbm, ⟨59, _⟩ => ⟨S330000x1, .i32⟩
  | .hbm, ⟨60, _⟩ => ⟨S330000x256, .f32⟩
  | .hbm, ⟨61, _⟩ => ⟨S_, .f32⟩
  | .hbm, ⟨62, _⟩ => ⟨S10000x256, .f32⟩
  | .hbm, ⟨63, _⟩ => ⟨S330000x1, .i32⟩
  | .hbm, ⟨64, _⟩ => ⟨S10000x256, .f32⟩
  | .hbm, ⟨65, _⟩ => ⟨S1x256, .f32⟩
  | .hbm, ⟨66, _⟩ => ⟨S10000x256, .f32⟩
  | .hbm, ⟨67, _⟩ => ⟨S_, .f32⟩
  | .hbm, ⟨68, _⟩ => ⟨S64x256, .f32⟩
  | .hbm, ⟨69, _⟩ => ⟨S10000x1, .i32⟩
  | .hbm, ⟨70, _⟩ => ⟨S64x256, .f32⟩
  | .hbm, ⟨71, _⟩ => ⟨S_, .f32⟩
  | .hbm, ⟨72, _⟩ => ⟨S10000, .f32⟩
  | .hbm, ⟨73, _⟩ => ⟨S_, .f32⟩
  | .hbm, ⟨74, _⟩ => ⟨S64, .f32⟩
  | .hbm, ⟨75, _⟩ => ⟨S10000x1, .i32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64x1, .f32⟩
  | .hbm, ⟨81, _⟩ => ⟨S64x256, .f32⟩
  | .hbm, ⟨82, _⟩ => ⟨S64x256, .f32⟩
  | .hbm, ⟨83, _⟩ => ⟨S1x256, .f32⟩
  | .hbm, ⟨84, _⟩ => ⟨S64x256, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S256x256, .f32⟩
  | .local _ .vmem, ⟨9, _⟩ => ⟨S1000x1, .f32⟩
  | .local _ .vmem, ⟨10, _⟩ => ⟨S1000x1, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x1, .f32⟩
  | .local _ .vmem, ⟨16, _⟩ => ⟨S1000x1, .f32⟩
  | .local _ .vmem, ⟨17, _⟩ => ⟨S1x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S256x256, .f32⟩
  | .local _ .vmem, ⟨23, _⟩ => ⟨S1000x1, .f32⟩
  | .local _ .vmem, ⟨24, _⟩ => ⟨S1000x1, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x1, .f32⟩
  | .local _ .vmem, ⟨30, _⟩ => ⟨S1000x1, .f32⟩
  | .local _ .vmem, ⟨31, _⟩ => ⟨S1x256, .f32⟩
  | .local _ .vmem, ⟨32, _⟩ => ⟨S1000x256, .f32⟩
  | .local _ .vmem, ⟨33, _⟩ => ⟨S1000x256, .f32⟩
  | .local _ .vmem, ⟨34, _⟩ => ⟨S64x256, .f32⟩
  | .local _ .vmem, ⟨35, _⟩ => ⟨S256x256, .f32⟩
  | .local _ .vmem, ⟨36, _⟩ => ⟨S1x256, .f32⟩
  | .local _ .vmem, ⟨37, _⟩ => ⟨S64x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem1_0 : DmaSem sig := 35
abbrev cc5_sem2_0 : DmaSem sig := 36
abbrev cc5_sem3_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S64x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  shapeCasts_S10000_S10000x1 : S10000.ShapeCasts S10000x1
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  shapeCasts_S1000x256_S1000x256 : S1000x256.ShapeCasts S1000x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  bcast_S_S10000x256 : S_.BroadcastsInDim S10000x256 (![] : Fin 0 → Fin S10000x256.rank)
  bcast_S_S64x256 : S_.BroadcastsInDim S64x256 (![] : Fin 0 → Fin S64x256.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  broadcasts_S1x256_S64x256 : S1x256.Broadcasts S64x256
  scatter_S10000_S330000x1_S330000_n_0_0_1_wf : ScatterDims.WF S10000 S330000x1 S330000 [] [0] [0] 1
  dot_S1000x256_S256x256_S1000x256_1_0_0_1_n_n_wf : DotDims.WF S1000x256 S256x256 S1000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  scatter_S64x256_S10000x1_S10000x256_1_0_0_1_wf : ScatterDims.WF S64x256 S10000x1 S10000x256 [1] [0] [0] 1
  scatter_S64_S10000x1_S10000_n_0_0_1_wf : ScatterDims.WF S64 S10000x1 S10000 [] [0] [0] 1
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S10000x1.size a
  hwx1_2 : ∀ i : grid1.Coords, EltTy.bits .f32 = 32 ∨ (Rect.block (s := S10000x1) S1000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S10000x256.size a
  hwx1_3 : ∀ i : grid1.Coords, EltTy.bits .f32 = 32 ∨ (Rect.block (s := S10000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S10000x256.size a
  hwx2_0 : ∀ i : grid2.Coords, EltTy.bits .f32 = 32 ∨ (Rect.block (s := S10000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S10000x1.size a
  hwx2_1 : ∀ i : grid2.Coords, EltTy.bits .f32 = 32 ∨ (Rect.block (s := S10000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S10000x256.size a
  hwx2_3 : ∀ i : grid2.Coords, EltTy.bits .f32 = 32 ∨ (Rect.block (s := S10000x256) S1000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S10000x256.size a
  hwx3_0 : ∀ i : grid3.Coords, EltTy.bits .f32 = 32 ∨ (Rect.block (s := S10000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S10000x1.size a
  hwx3_2 : ∀ i : grid3.Coords, EltTy.bits .f32 = 32 ∨ (Rect.block (s := S10000x1) S1000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x256.size a ≤ S10000x256.size a
  hwx3_3 : ∀ i : grid3.Coords, EltTy.bits .f32 = 32 ∨ (Rect.block (s := S10000x256) S1000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S10000x256.size a
  hwx4_0 : ∀ i : grid4.Coords, EltTy.bits .f32 = 32 ∨ (Rect.block (s := S10000x256) S1000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x1.size a ≤ S10000x1.size a
  hwx4_1 : ∀ i : grid4.Coords, EltTy.bits .f32 = 32 ∨ (Rect.block (s := S10000x1) S1000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x256.size a ≤ S10000x256.size a
  hwx4_3 : ∀ i : grid4.Coords, EltTy.bits .f32 = 32 ∨ (Rect.block (s := S10000x256) S1000x256.size (cc4_transform_3 i) (hinb4_3 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S64x256.size a ≤ S64x256.size a
  hwx5_0 : ∀ i : grid5.Coords, EltTy.bits .f32 = 32 ∨ (Rect.block (s := S64x256) S64x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S64x256.size a ≤ S64x256.size a
  hwx5_3 : ∀ i : grid5.Coords, EltTy.bits .f32 = 32 ∨ (Rect.block (s := S64x256) S64x256.size (cc5_transform_3 i) (hinb5_3 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v30) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S1000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S1000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v55) S64x256.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S64x256.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S10000 : Shape := ⟨1, ![10000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S1x256 : Shape := ⟨2, ![1, 256]⟩
abbrev S_ : Shape := ⟨0, ![]⟩
abbrev S330000 : Shape := ⟨1, ![330000]⟩
abbrev S330000x1 : Shape := ⟨2, ![330000, 1]⟩
abbrev S330000x256 : Shape := ⟨2, ![330000, 256]⟩
abbrev S64x256 : Shape := ⟨2, ![64, 256]⟩
abbrev S10000x1 : Shape := ⟨2, ![10000, 1]⟩
abbrev S64 : Shape := ⟨1, ![64]⟩
abbrev S64x1 : Shape := ⟨2, ![64, 1]⟩

abbrev nBuf : Space → Nat
  | .hbm => 160
  | .vmem => 0
  | .smem => 0
  | _ => 0

abbrev hbmTy0_0 (i : Nat) : BufTy := match i % 128 with
  | 0 => ⟨S10000x256, .f32⟩
  | 1 => ⟨S2x320000, .i32⟩
  | 2 => ⟨S10000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S1x320000, .i32⟩
  | 12 => ⟨S320000, .i32⟩
  | 13 => ⟨S1x320000, .i32⟩
  | 14 => ⟨S320000, .i32⟩
  | 15 => ⟨S10000x256, .f32⟩
  | 16 => ⟨S1x256, .f32⟩
  | 17 => ⟨S10000x256, .f32⟩
  | 18 => ⟨S10000x256, .f32⟩
  | 19 => ⟨S_, .f32⟩
  | 20 => ⟨S10000x256, .f32⟩
  | 21 => ⟨S10000x256, .f32⟩
  | 22 => ⟨S10000x256, .f32⟩
  | 23 => ⟨S10000, .i32⟩
  | 24 => ⟨S330000, .i32⟩
  | 25 => ⟨S330000, .i32⟩
  | 26 => ⟨S_, .f32⟩
  | 27 => ⟨S330000, .f32⟩
  | 28 => ⟨S_, .f32⟩
  | 29 => ⟨S10000, .f32⟩
  | 30 => ⟨S330000x1, .i32⟩
  | 31 => ⟨S10000, .f32⟩
  | 32 => ⟨S_, .f32⟩
  | 33 => ⟨S10000, .f32⟩
  | 34 => ⟨S10000, .i1⟩
  | 35 => ⟨S10000, .f32⟩
  | 36 => ⟨S_, .f32⟩
  | 37 => ⟨S_, .f32⟩
  | 38 => ⟨S10000, .f32⟩
  | 39 => ⟨S10000, .f32⟩
  | 40 => ⟨S_, .i32⟩
  | 41 => ⟨S330000, .i32⟩
  | 42 => ⟨S330000, .i1⟩
  | 43 => ⟨S_, .i32⟩
  | 44 => ⟨S330000, .i32⟩
  | 45 => ⟨S330000, .i32⟩
  | 46 => ⟨S330000, .i32⟩
  | 47 => ⟨S330000x1, .i32⟩
  | 48 => ⟨S330000, .f32⟩
  | 49 => ⟨S_, .i32⟩
  | 50 => ⟨S330000, .i32⟩
  | 51 => ⟨S330000, .i1⟩
  | 52 => ⟨S_, .i32⟩
  | 53 => ⟨S330000, .i32⟩
  | 54 => ⟨S330000, .i32⟩
  | 55 => ⟨S330000, .i32⟩
  | 56 => ⟨S330000x1, .i32⟩
  | 57 => ⟨S330000, .f32⟩
  | 58 => ⟨S330000, .f32⟩
  | 59 => ⟨S_, .i32⟩
  | 60 => ⟨S330000, .i32⟩
  | 61 => ⟨S330000, .i1⟩
  | 62 => ⟨S_, .i32⟩
  | 63 => ⟨S330000, .i32⟩
  | 64 => ⟨S330000, .i32⟩
  | 65 => ⟨S330000, .i32⟩
  | 66 => ⟨S330000x1, .i32⟩
  | 67 => ⟨S330000x256, .f32⟩
  | 68 => ⟨S330000x1, .f32⟩
  | 69 => ⟨S330000x256, .f32⟩
  | 70 => ⟨S330000x256, .f32⟩
  | 71 => ⟨S_, .f32⟩
  | 72 => ⟨S10000x256, .f32⟩
  | 73 => ⟨S330000x1, .i32⟩
  | 74 => ⟨S10000x256, .f32⟩
  | 75 => ⟨S1x256, .f32⟩
  | 76 => ⟨S10000x256, .f32⟩
  | 77 => ⟨S10000x256, .f32⟩
  | 78 => ⟨S_, .f32⟩
  | 79 => ⟨S10000x256, .f32⟩
  | 80 => ⟨S10000x256, .f32⟩
  | 81 => ⟨S10000x256, .f32⟩
  | 82 => ⟨S10000, .i32⟩
  | 83 => ⟨S330000, .i32⟩
  | 84 => ⟨S330000, .i32⟩
  | 85 => ⟨S_, .f32⟩
  | 86 => ⟨S330000, .f32⟩
  | 87 => ⟨S_, .f32⟩
  | 88 => ⟨S10000, .f32⟩
  | 89 => ⟨S330000x1, .i32⟩
  | 90 => ⟨S10000, .f32⟩
  | 91 => ⟨S_, .f32⟩
  | 92 => ⟨S10000, .f32⟩
  | 93 => ⟨S10000, .i1⟩
  | 94 => ⟨S10000, .f32⟩
  | 95 => ⟨S_, .f32⟩
  | 96 => ⟨S_, .f32⟩
  | 97 => ⟨S10000, .f32⟩
  | 98 => ⟨S10000, .f32⟩
  | 99 => ⟨S_, .i32⟩
  | 100 => ⟨S330000, .i32⟩
  | 101 => ⟨S330000, .i1⟩
  | 102 => ⟨S_, .i32⟩
  | 103 => ⟨S330000, .i32⟩
  | 104 => ⟨S330000, .i32⟩
  | 105 => ⟨S330000, .i32⟩
  | 106 => ⟨S330000x1, .i32⟩
  | 107 => ⟨S330000, .f32⟩
  | 108 => ⟨S_, .i32⟩
  | 109 => ⟨S330000, .i32⟩
  | 110 => ⟨S330000, .i1⟩
  | 111 => ⟨S_, .i32⟩
  | 112 => ⟨S330000, .i32⟩
  | 113 => ⟨S330000, .i32⟩
  | 114 => ⟨S330000, .i32⟩
  | 115 => ⟨S330000x1, .i32⟩
  | 116 => ⟨S330000, .f32⟩
  | 117 => ⟨S330000, .f32⟩
  | 118 => ⟨S_, .i32⟩
  | 119 => ⟨S330000, .i32⟩
  | 120 => ⟨S330000, .i1⟩
  | 121 => ⟨S_, .i32⟩
  | 122 => ⟨S330000, .i32⟩
  | 123 => ⟨S330000, .i32⟩
  | 124 => ⟨S330000, .i32⟩
  | 125 => ⟨S330000x1, .i32⟩
  | 126 => ⟨S330000x256, .f32⟩
  | 127 => ⟨S330000x1, .f32⟩
  | _ => ⟨S10000x256, .f32⟩

abbrev hbmTy0_1 (i : Nat) : BufTy := match i % 128 with
  | 0 => ⟨S330000x256, .f32⟩
  | 1 => ⟨S330000x256, .f32⟩
  | 2 => ⟨S_, .f32⟩
  | 3 => ⟨S10000x256, .f32⟩
  | 4 => ⟨S330000x1, .i32⟩
  | 5 => ⟨S10000x256, .f32⟩
  | 6 => ⟨S1x256, .f32⟩
  | 7 => ⟨S10000x256, .f32⟩
  | 8 => ⟨S10000x256, .f32⟩
  | 9 => ⟨S_, .f32⟩
  | 10 => ⟨S10000x256, .f32⟩
  | 11 => ⟨S10000x256, .f32⟩
  | 12 => ⟨S_, .f32⟩
  | 13 => ⟨S64x256, .f32⟩
  | 14 => ⟨S10000x1, .i32⟩
  | 15 => ⟨S64x256, .f32⟩
  | 16 => ⟨S_, .f32⟩
  | 17 => ⟨S10000, .f32⟩
  | 18 => ⟨S_, .f32⟩
  | 19 => ⟨S64, .f32⟩
  | 20 => ⟨S10000x1, .i32⟩
  | 21 => ⟨S64, .f32⟩
  | 22 => ⟨S_, .f32⟩
  | 23 => ⟨S64, .f32⟩
  | 24 => ⟨S64, .f32⟩
  | 25 => ⟨S64x1, .f32⟩
  | 26 => ⟨S64x256, .f32⟩
  | 27 => ⟨S64x256, .f32⟩
  | 28 => ⟨S64x256, .f32⟩
  | 29 => ⟨S1x256, .f32⟩
  | 30 => ⟨S64x256, .f32⟩
  | 31 => ⟨S64x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_call3_v0 : Ref sig .tc := ⟨.hbm, 96, rfl⟩
abbrev main_call3_v1 : Ref sig .tc := ⟨.hbm, 97, rfl⟩
abbrev main_v64 : Ref sig .tc := ⟨.hbm, 98, rfl⟩
abbrev main_c_13 : Ref sig .tc := ⟨.hbm, 99, rfl⟩
abbrev main_v65 : Ref sig .tc := ⟨.hbm, 100, rfl⟩
abbrev main_v66 : Ref sig .tc := ⟨.hbm, 101, rfl⟩
abbrev main_c_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_15 : Ref sig .tc := ⟨.hbm, 108, rfl⟩
abbrev main_v72 : Ref sig .tc := ⟨.hbm, 109, rfl⟩
abbrev main_v73 : Ref sig .tc := ⟨.hbm, 110, rfl⟩
abbrev main_c_16 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_17 : Ref sig .tc := ⟨.hbm, 118, rfl⟩
abbrev main_v80 : Ref sig .tc := ⟨.hbm, 119, rfl⟩
abbrev main_v81 : Ref sig .tc := ⟨.hbm, 120, rfl⟩
abbrev main_c_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_19 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_call4_cst : Ref sig .tc := ⟨.hbm, 137, rfl⟩
abbrev main_call4_v0 : Ref sig .tc := ⟨.hbm, 138, rfl⟩
abbrev main_v96 : Ref sig .tc := ⟨.hbm, 139, rfl⟩
abbrev main_cst_20 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_21 : Ref sig .tc := ⟨.hbm, 144, rfl⟩
abbrev main_v100 : Ref sig .tc := ⟨.hbm, 145, rfl⟩
abbrev main_cst_22 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S64x256 : S_.BroadcastsInDim S64x256 (![] : Fin 0 → Fin S64x256.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  dot_S10000x256_S256x256_S10000x256_1_0_0_1_n_n_wf : DotDims.WF S10000x256 S256x256 S10000x256 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  scatter_S64x256_S10000x1_S10000x256_1_0_0_1_wf : ScatterDims.WF S64x256 S10000x1 S10000x256 [1] [0] [0] 1
  scatter_S64_S10000x1_S10000_n_0_0_1_wf : ScatterDims.WF S64 S10000x1 S10000 [] [0] [0] 1
  dot_S64x256_S256x256_S64x256_1_0_0_1_n_n_wf : DotDims.WF S64x256 S256x256 S64x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

class Facts : Prop extends Facts₀ where

variable [Facts]
-- ==== Proof.KerLaunch.lean ====
/-
  The idealized kernel's run with its result kept: the same launch of @main's twelve segments (six host stretches,
  six regions) as the frame, every weakly fair execution terminating without a fault, with the final state read at one
  more buffer — the result array ends at the last segment boundary's contents of it — beside the argument arrays, which
  end as launched.
-/
import proofs.«139987_j50337016709803_2_alg».proof.Proof.Gen.KernelIdeal.Frame

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents of it and every argument array as launched. -/
theorem run_result : θ_run defs (onTc (τ := τ) (main (F := F))) ⟨m, fun _ => 0, ρ⟩ (fun r => ∀ c : Dev nD,
      r.2.mem ((c.tc : Thread nD τ).loc main_v57) = W12 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v57 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Launch

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«139987_j50337016709803_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.LibScatter.lean ====
/-
  General lemmas about the accumulating scatter of whole rows, read at an entry: a table of rows to which update rows
  are added at the rows a column of start indices names, and the same for a vector to which update entries are added.
  The result at an entry is the table's entry plus the sum of the updates whose start index, read as a signed integer,
  names that row; an update whose start index names no row of the table contributes nothing. None mentions a program.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ScatterLib

open Idealize.ShloMosaic Idealize.ShloMosaic.ValueIdx

/-! ## Update rows added into a table -/

/-- The dimension numbers of a scatter of whole rows: a table of N rows of C entries, a column of R start indices,
    R update rows of C entries; the row axis of the table is named by the start index, the column axis is the
    window axis. -/
abbrev rowScatterDims (N C R : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows

variable {N C R : ℕ} (wf : ScatterDims.WF ⟨2, ![N, C]⟩ ⟨2, ![R, 1]⟩ ⟨2, ![R, C]⟩ [1] [0] [0] 1)

/-- On the row axis the window coordinate of an update entry is zero: the row comes from the start index alone. -/
theorem rows_window_zero (r : Fin R) (k' : Fin C) :
    (rowScatterDims N C R wf).window (ix2 r k') (0 : Fin 2) = 0 := by
  unfold ScatterDims.window
  rw [dif_neg (show (0 : Fin 2) ∉ (rowScatterDims N C R wf).sKept from
    (by decide : (0 : Fin 2) ∉ ([1] : List (Fin 2))))]

/-- On the column axis the window coordinate of update entry (r, k') is k'. -/
theorem rows_window_one (r : Fin R) (k' : Fin C) :
    (rowScatterDims N C R wf).window (ix2 r k') (1 : Fin 2) = k'.val := by
  unfold ScatterDims.window
  rw [dif_pos (show (1 : Fin 2) ∈ (rowScatterDims N C R wf).sKept from
    (by decide : (1 : Fin 2) ∈ ([1] : List (Fin 2))))]
  rfl

variable {w : ℕ} (idx : IVec ⟨2, ![R, 1]⟩ w)

/-- On the row axis the window of update entry (r, k') starts at start index r, read as a signed integer. -/
theorem rows_start_zero (r : Fin R) (k' : Fin C) :
    (rowScatterDims N C R wf).start (ix2 r k') idx (0 : Fin 2) = (idx (ix2 r (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 r k')
      ⟨List.idxOf (0 : Fin 2) (rowScatterDims N C R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- On the column axis the window starts at zero. -/
theorem rows_start_one (r : Fin R) (k' : Fin C) :
    (rowScatterDims N C R wf).start (ix2 r k') idx (1 : Fin 2) = 0 := by
  unfold ScatterDims.start
  rw [dif_neg (show (1 : Fin 2) ∉ (rowScatterDims N C R wf).scatterDimsToOperandDims from
    (by decide : (1 : Fin 2) ∉ ([0] : List (Fin 2))))]

/-- WHERE AN UPDATE ENTRY LANDS: update entry (r, k') lands at table entry (b, k) exactly when start index r, read
    as a signed integer, is b, and k' is k. -/
theorem rows_resultIdx_iff (r : Fin R) (k' : Fin C) (b : Fin N) (k : Fin C) :
    (rowScatterDims N C R wf).resultIdx? (ix2 r k') idx = some (ix2 b k) ↔
      (idx (ix2 r (0 : Fin 1))).toInt = (b.val : ℤ) ∧ k' = k := by
  have s0 := rows_start_zero wf idx r k'
  have s1 := rows_start_one wf idx r k'
  have w0 := rows_window_zero wf r k'
  have w1 := rows_window_one wf r k'
  have hN : (⟨2, ![N, C]⟩ : Shape).size (0 : Fin 2) = N := rfl
  have hC : (⟨2, ![N, C]⟩ : Shape).size (1 : Fin 2) = C := rfl
  have hb := b.isLt
  have hk := k.isLt
  have hk' := k'.isLt
  unfold ScatterDims.resultIdx?
  split
  · rename_i h
    have h0 := h (0 : Fin 2)
    rw [s0, w0] at h0
    constructor
    · intro he
      have he' := Option.some.inj he
      have e0 : ((rowScatterDims N C R wf).start (ix2 r k') idx (0 : Fin 2)
          + ((rowScatterDims N C R wf).window (ix2 r k') (0 : Fin 2) : ℕ)).toNat = b.val :=
        congrArg Fin.val (congrFun he' (0 : Fin 2))
      have e1 : ((rowScatterDims N C R wf).start (ix2 r k') idx (1 : Fin 2)
          + ((rowScatterDims N C R wf).window (ix2 r k') (1 : Fin 2) : ℕ)).toNat = k.val :=
        congrArg Fin.val (congrFun he' (1 : Fin 2))
      rw [s0, w0] at e0
      rw [s1, w1] at e1
      exact ⟨by omega, Fin.ext (by omega)⟩
    · rintro ⟨hbe, hke⟩
      refine congrArg some (funext (Fin.forall_fin_two.2 ⟨Fin.ext ?_, Fin.ext ?_⟩))
      · show ((rowScatterDims N C R wf).start (ix2 r k') idx (0 : Fin 2)
          + ((rowScatterDims N C R wf).window (ix2 r k') (0 : Fin 2) : ℕ)).toNat = b.val
        rw [s0, w0]; omega
      · show ((rowScatterDims N C R wf).start (ix2 r k') idx (1 : Fin 2)
          + ((rowScatterDims N C R wf).window (ix2 r k') (1 : Fin 2) : ℕ)).toNat = k.val
        rw [s1, w1, hke]; omega
  · rename_i h
    constructor
    · intro he; exact absurd he (by simp)
    · rintro ⟨hbe, hke⟩
      exfalso; apply h
      refine Fin.forall_fin_two.2 ⟨?_, ?_⟩
      · rw [s0, w0, hN]; omega
      · rw [s1, w1, hC]; omega

/-- The same for an update index not yet split into its coordinates. -/
theorem rows_resultIdx_iff' (j : (⟨2, ![R, C]⟩ : Shape).Idx) (b : Fin N) (k : Fin C) :
    (rowScatterDims N C R wf).resultIdx? j idx = some (ix2 b k) ↔
      (idx (ix2 (j (0 : Fin 2)) (0 : Fin 1))).toInt = (b.val : ℤ) ∧ j (1 : Fin 2) = k := by
  have e : (ix2 (j (0 : Fin 2)) (j (1 : Fin 2)) : (⟨2, ![R, C]⟩ : Shape).Idx) = j := (eq_ix2 j).symm
  have h := rows_resultIdx_iff wf idx (j (0 : Fin 2)) (j (1 : Fin 2)) b k
  rw [e] at h
  exact h

end Rows

/-- THE ROW SCATTER READ AT (b, k): the table's entry plus the sum, over the update rows whose start index, read as
    a signed integer, is b, of their entry in column k. -/
theorem scatterAdd_rows_apply {N C R w : ℕ}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (b : Fin N) (k : Fin C) :
    Ideal.hostScatterAdd (rowScatterDims N C R wf) x idx upd (ix2 b k) = x (ix2 b k)
      + ∑ r ∈ Finset.univ.filter (fun r : Fin R => (idx (ix2 r (0 : Fin 1))).toInt = (b.val : ℤ)), upd (ix2 r k) := by
  unfold Ideal.hostScatterAdd
  congr 1
  refine Finset.sum_nbij' (fun j => ((j (0 : Fin 2)) : Fin R)) (fun r => (ix2 r k : (⟨2, ![R, C]⟩ : Shape).Idx))
    ?_ ?_ ?_ ?_ ?_
  · intro j hj
    have hj' := (rows_resultIdx_iff' wf idx j b k).1 (Finset.mem_filter.1 hj).2
    exact Finset.mem_filter.2 ⟨Finset.mem_univ _, hj'.1⟩
  · intro r hr
    exact Finset.mem_filter.2 ⟨Finset.mem_univ _,
      (rows_resultIdx_iff wf idx r k b k).2 ⟨(Finset.mem_filter.1 hr).2, rfl⟩⟩
  · intro j hj
    have hj' := (rows_resultIdx_iff' wf idx j b k).1 (Finset.mem_filter.1 hj).2
    show ix2 (j (0 : Fin 2)) k = j
    rw [← hj'.2]; exact (eq_ix2 j).symm
  · intro r _; rfl
  · intro j hj
    have hj' := (rows_resultIdx_iff' wf idx j b k).1 (Finset.mem_filter.1 hj).2
    show upd j = upd (ix2 (j (0 : Fin 2)) k)
    rw [← hj'.2]; exact congrArg upd (eq_ix2 j)

/-! ## Update entries added into a vector -/

/-- The dimension numbers of a scatter of single entries into a vector: a vector of N entries, a column of R start
    indices, R update entries; the vector's one axis is named by the start index and there is no window axis. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec

variable {N R : ℕ} (wf : ScatterDims.WF ⟨1, ![N]⟩ ⟨2, ![R, 1]⟩ ⟨1, ![R]⟩ [] [0] [0] 1)

/-- The window coordinate of an update entry is zero: the place comes from the start index alone. -/
theorem vec_window_zero (r : Fin R) :
    (vecScatterDims N R wf).window (ix1 r) (0 : Fin 1) = 0 := by
  unfold ScatterDims.window
  rw [dif_neg (show (0 : Fin 1) ∉ (vecScatterDims N R wf).sKept from
    (by decide : (0 : Fin 1) ∉ ([] : List (Fin 1))))]

variable {w : ℕ} (idx : IVec ⟨2, ![R, 1]⟩ w)

/-- The window of update entry r starts at start index r, read as a signed integer. -/
theorem vec_start_zero (r : Fin R) :
    (vecScatterDims N R wf).start (ix1 r) idx (0 : Fin 1) = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r)
      ⟨List.idxOf (0 : Fin 1) (vecScatterDims N R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- WHERE AN UPDATE ENTRY LANDS: update entry r lands at vector entry b exactly when start index r, read as a signed
    integer, is b. -/
theorem vec_resultIdx_iff (r : Fin R) (b : Fin N) :
    (vecScatterDims N R wf).resultIdx? (ix1 r) idx = some (ix1 b) ↔
      (idx (ix2 r (0 : Fin 1))).toInt = (b.val : ℤ) := by
  have s0 := vec_start_zero wf idx r
  have w0 := vec_window_zero wf r
  have hN : (⟨1, ![N]⟩ : Shape).size (0 : Fin 1) = N := rfl
  have hb := b.isLt
  unfold ScatterDims.resultIdx?
  split
  · rename_i h
    have h0 := h (0 : Fin 1)
    rw [s0, w0] at h0
    constructor
    · intro he
      have he' := Option.some.inj he
      have e0 : ((vecScatterDims N R wf).start (ix1 r) idx (0 : Fin 1)
          + ((vecScatterDims N R wf).window (ix1 r) (0 : Fin 1) : ℕ)).toNat = b.val :=
        congrArg Fin.val (congrFun he' (0 : Fin 1))
      rw [s0, w0] at e0
      omega
    · intro hbe
      refine congrArg some (funext (Fin.forall_fin_one.2 (Fin.ext ?_)))
      show ((vecScatterDims N R wf).start (ix1 r) idx (0 : Fin 1)
          + ((vecScatterDims N R wf).window (ix1 r) (0 : Fin 1) : ℕ)).toNat = b.val
      rw [s0, w0]; omega
  · rename_i h
    constructor
    · intro he; exact absurd he (by simp)
    · intro hbe
      exfalso; apply h
      refine Fin.forall_fin_one.2 ?_
      rw [s0, w0, hN]; omega

/-- The same for an update index not yet split into its coordinate. -/
theorem vec_resultIdx_iff' (j : (⟨1, ![R]⟩ : Shape).Idx) (b : Fin N) :
    (vecScatterDims N R wf).resultIdx? j idx = some (ix1 b) ↔
      (idx (ix2 (j (0 : Fin 1)) (0 : Fin 1))).toInt = (b.val : ℤ) := by
  have e : (ix1 (j (0 : Fin 1)) : (⟨1, ![R]⟩ : Shape).Idx) = j := (eq_ix1 j).symm
  have h := vec_resultIdx_iff wf idx (j (0 : Fin 1)) b
  rw [e] at h
  exact h

end Vec

/-- THE VECTOR SCATTER READ AT b: the vector's entry plus the sum of the update entries whose start index, read as a
    signed integer, is b. -/
theorem scatterAdd_vec_apply {N R w : ℕ}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (b : Fin N) :
    Ideal.hostScatterAdd (vecScatterDims N R wf) x idx upd (ix1 b) = x (ix1 b)
      + ∑ r ∈ Finset.univ.filter (fun r : Fin R => (idx (ix2 r (0 : Fin 1))).toInt = (b.val : ℤ)), upd (ix1 r) := by
  unfold Ideal.hostScatterAdd
  congr 1
  refine Finset.sum_nbij' (fun j => ((j (0 : Fin 1)) : Fin R)) (fun r => (ix1 r : (⟨1, ![R]⟩ : Shape).Idx))
    ?_ ?_ ?_ ?_ ?_
  · intro j hj
    exact Finset.mem_filter.2 ⟨Finset.mem_univ _, (vec_resultIdx_iff' wf idx j b).1 (Finset.mem_filter.1 hj).2⟩
  · intro r hr
    exact Finset.mem_filter.2 ⟨Finset.mem_univ _, (vec_resultIdx_iff wf idx r b).2 (Finset.mem_filter.1 hr).2⟩
  · intro j _
    exact (eq_ix1 j).symm
  · intro r _; rfl
  · intro j _
    exact congrArg upd (eq_ix1 j)

end Cert.ScatterLib

end
-- ==== Proof.LibSageSpec.lean ====
/-
  The mathematics of a two-layer mean-aggregation graph network, as functions of whole arrays over the extended
  reals: rows of a table taken at a column of start indices, update rows summed per destination row, a per-row
  scale, column means, the normalisation of every column followed by the cut at zero, and the two ways the second
  layer may be arranged (the weight applied before or after the aggregation). No program is mentioned.
-/
import proofs.«139987_j50337016709803_2_alg».proof.Proof.LibDense
import proofs.«139987_j50337016709803_2_alg».proof.Proof.LibRows
import proofs.«139987_j50337016709803_2_alg».proof.Proof.LibScatter

noncomputable section

namespace Cert.Sage

open Idealize.ShloMosaic Idealize.ShloMosaic.ValueIdx Cert.DenseLib Cert.RowsLib

/-- A rank-two array of extended reals. -/
abbrev Mat (a b : ℕ) : Type := (⟨2, ![a, b]⟩ : Shape).Idx → EReal
/-- A vector of extended reals. -/
abbrev Vc (a : ℕ) : Type := (⟨1, ![a]⟩ : Shape).Idx → EReal
/-- A column of 32-bit start indices. -/
abbrev ICol (R : ℕ) : Type := IVec ⟨2, ![R, 1]⟩ 32

/-- Every entry is a real number (neither infinity). -/
def IsFin {s : Shape} (X : s.Idx → EReal) : Prop := ∀ i, ∃ r : ℝ, X i = (r : EReal)

variable {N C R : ℕ}

/-- Row `r` of the result is the row of `X` that start index `r` names (clamped into the table). -/
def takeRows (hN : 0 < N) (src : ICol R) (X : Mat N C) : Mat R C :=
  fun i => X (ix2 (rowOf N hN (src (ix2 (n0 := R) (i 0) (0 : Fin 1)))) (n1 := C) (i 1))

/-- Row `b` of the result is the sum of the update rows whose start index, read as a signed integer, is `b`. -/
def segSum (dst : ICol R) (U : Mat R C) : Mat N C :=
  fun i => ∑ r ∈ Finset.univ.filter (fun r : Fin R => (dst (ix2 r (0 : Fin 1))).toInt = (((i 0 : Fin N)).val : ℤ)),
    U (ix2 r (n1 := C) (i 1))

/-- Every row scaled by that row's entry of `d`. -/
def scaleRows (d : Vc N) (X : Mat N C) : Mat N C := fun i => X i * d (ix1 (n := N) (i 0))

/-- The mean aggregation: neighbours' rows taken, summed per destination, scaled by the reciprocal degree. -/
def meanAgg (hN : 0 < N) (src dst : ICol R) (d : Vc N) (X : Mat N C) : Mat N C :=
  scaleRows d (segSum dst (takeRows hN src X))

/-- The column sums (from zero) divided by the constant `cN`. -/
def colMean (cN : EReal) (X : Mat N C) : Vc C :=
  fun j => Ideal.div (0 + ∑ n : Fin N, X (ix2 n (n1 := C) (j 0))) cN

/-- The squared deviation of every entry from its column's value of `mu`. -/
def sqDev (X : Mat N C) (mu : Vc C) : Mat N C :=
  fun i => (X i - mu (ix1 (n := C) (i 1))) * (X i - mu (ix1 (n := C) (i 1)))

/-- Every column centred, scaled by the reciprocal root of its variance plus `eps`, by `gamma`, shifted by `beta`,
    and cut at zero. -/
def bnRelu (eps : EReal) (X : Mat N C) (mu var gamma beta : Vc C) : Mat N C :=
  fun i => max (((X i - mu (ix1 (n := C) (i 1))) * Ideal.rsqrt (var (ix1 (n := C) (i 1)) + eps))
    * gamma (ix1 (n := C) (i 1)) + beta (ix1 (n := C) (i 1))) 0

/-- The one row of a one-row array, as a vector. -/
def rowVec (B : Mat 1 C) : Vc C := fun j => B (ix2 (0 : Fin 1) (n1 := C) (j 0))

/-- A vector laid along every row. -/
def vrows {M : ℕ} (b : Vc C) : Mat M C := rows (M := M) fun c => b (ix1 c)

/-- The first layer before normalisation: aggregated features and own features through their weights, plus the
    bias (the bias added last). -/
def layer1 {K : ℕ} (A X : Mat N K) (Wl Wr : Mat K C) (b : Vc C) : Mat N C :=
  plus (plus (mm A Wl) (mm X Wr)) (vrows b)

/-- The hidden features: the first layer, normalised per column with its own column means and variances, cut at zero. -/
def hidden {K : ℕ} (cN eps : EReal) (A X : Mat N K) (Wl Wr : Mat K C) (b gamma beta : Vc C) : Mat N C :=
  bnRelu eps (layer1 A X Wl Wr b) (colMean cN (layer1 A X Wl Wr b))
    (colMean cN (sqDev (layer1 A X Wl Wr b) (colMean cN (layer1 A X Wl Wr b)))) gamma beta

/-- The second layer with the weight applied BEFORE the aggregation, the bias added last. -/
def outPre {K : ℕ} (hN : 0 < N) (src dst : ICol R) (d : Vc N) (H : Mat N K) (Wl Wr : Mat K C) (b : Vc C) : Mat N C :=
  plus (plus (meanAgg hN src dst d (mm H Wl)) (mm H Wr)) (vrows b)

/-- The second layer with the weight applied AFTER the aggregation, the bias added before the own-feature term. -/
def outPost {K : ℕ} (hN : 0 < N) (src dst : ICol R) (d : Vc N) (H : Mat N K) (Wl Wr : Mat K C) (b : Vc C) : Mat N C :=
  plus (plus (mm (meanAgg hN src dst d H) Wl) (vrows b)) (mm H Wr)

end Cert.Sage

end
-- ==== Proof.LibGatherVec.lean ====
/-
  General lemma: a gather of single entries of a vector at a column of start indices, read at an entry. The
  entry a start index names is the index read as a signed integer and clamped into the vector. None mentions a program.
-/
import Idealize.ShloMosaic.Lib.ValueIdx
import Idealize.ShloMosaic.Lib.Pipeline.Value

noncomputable section

namespace Cert.GatherVecLib

open Idealize.ShloMosaic Idealize.ShloMosaic.ValueIdx

variable {α : Type}

/-- The dimension numbers of a gather of single entries: a vector of N entries, a column of R start indices, a
    result of R entries; the one axis is collapsed and named by the start index, and there is no offset axis. -/
abbrev vecGatherDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The entry a start index names: the word read as a signed integer, clamped into the vector. -/
def entryOf (N : ℕ) (hN : 0 < N) {w : ℕ} (b : BitVec w) : Fin N := ⟨min b.toInt.toNat (N - 1), by omega⟩

/-- THE ENTRY GATHER READ AT r: the vector at the entry that start index r names. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGatherDims N R wf) x idx (ix1 r) = x (ix1 (entryOf N hN (idx (ix2 r (0 : Fin 1))))) := by
  unfold Host.gather
  congr 1
  funext a
  refine Fin.ext ?_
  match a with
  | ⟨0, _⟩ =>
    show (vecGatherDims N R wf).start (ix1 r) idx 0 + (vecGatherDims N R wf).batchCoord (ix1 r) 0
      + (vecGatherDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 r) ⟨List.idxOf (0 : Fin 1) (vecGatherDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.GatherVecLib

end
-- ==== Proof.LibGcn.lean ====
/-
  A two-layer graph convolution with symmetric degree normalisation, a mean over graphs and a linear head, as
  functions of whole arrays over the extended reals, in two arrangements of the normalisation. An edge e carries
  the row of its source node to its destination node. In the first arrangement every carried row is weighted by
  d(source e) · d(destination e) and the weighted rows are summed per destination; in the second every row of the
  table is weighted by its own d before it is carried, the carried rows are summed per destination, and row v of
  the sum is weighted by d(v). The two agree whenever every d is a nonnegative real: on the extended reals the
  product with a nonnegative real distributes over any sum, infinite summands included, and products re-associate.
  No finiteness of the carried rows is needed. No program is mentioned.
-/
import proofs.«139987_j50337016709803_2_alg».proof.Proof.LibSageSpec
import proofs.«139987_j50337016709803_2_alg».proof.Proof.LibGatherVec

noncomputable section

namespace Cert.Gcn

open Idealize.ShloMosaic Idealize.ShloMosaic.ValueIdx Cert.DenseLib Cert.RowsLib Cert.Sage Cert.GatherVecLib

variable {N C R K G : ℕ}

/-- The weight of edge e: d at the node its source index names times d at the node its (wrapped) destination index
    names, each index clamped into the table. -/
def edgeNorm (hN : 0 < N) (srcw dstw : ICol R) (d : Vc N) : Vc R :=
  fun e => d (ix1 (entryOf N hN (srcw (ix2 (n0 := R) (e 0) (0 : Fin 1)))))
    * d (ix1 (entryOf N hN (dstw (ix2 (n0 := R) (e 0) (0 : Fin 1)))))

/-- Every carried row scaled by its edge's weight. -/
def scaleEdges (n : Vc R) (U : Mat R C) : Mat R C := fun i => U i * n (ix1 (n := R) (i 0))

/-- The first arrangement: rows carried along the edges, weighted per edge, summed per destination. -/
def aggEdge (hN : 0 < N) (srcw dst dstw : ICol R) (d : Vc N) (Y : Mat N C) : Mat N C :=
  segSum dst (scaleEdges (edgeNorm hN srcw dstw d) (takeRows hN srcw Y))

/-- The second arrangement: rows weighted per node, carried, summed per destination, weighted per destination. -/
def aggNode (hN : 0 < N) (srcw dst : ICol R) (d : Vc N) (Y : Mat N C) : Mat N C :=
  scaleRows d (segSum dst (takeRows hN srcw (scaleRows d Y)))

/-- The product with a nonnegative real distributes over a finite sum of extended reals. -/
theorem sum_mul_nonneg_real {ι : Type} (s : Finset ι) (f : ι → EReal) (x : EReal) (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-- THE TWO ARRANGEMENTS AGREE where every d is a nonnegative real and, for an edge that lands on node v, the wrapped
    destination index names v: at entry (v, j) both are the sum over the edges e landing on v of
    Y (source e, j) · d (source e) · d v. -/
theorem aggEdge_eq_aggNode (hN : 0 < N) (srcw dst dstw : ICol R) (d : Vc N) (Y : Mat N C)
    (hd : ∀ i, 0 ≤ d i ∧ d i ≠ ⊤)
    (hdw : ∀ (r : Fin R) (v : Fin N), (dst (ix2 r (0 : Fin 1))).toInt = (v.val : ℤ) →
      entryOf N hN (dstw (ix2 r (0 : Fin 1))) = v) :
    aggEdge hN srcw dst dstw d Y = aggNode hN srcw dst d Y := by
  funext i
  obtain ⟨v, j, rfl⟩ : ∃ (v : Fin N) (j : Fin C), i = ix2 v j := ⟨i 0, i 1, eq_ix2 i⟩
  show (∑ r ∈ Finset.univ.filter (fun r : Fin R => (dst (ix2 r (0 : Fin 1))).toInt = ((v : Fin N).val : ℤ)),
      Y (ix2 (rowOf N hN (srcw (ix2 r (0 : Fin 1)))) j)
        * (d (ix1 (entryOf N hN (srcw (ix2 r (0 : Fin 1))))) * d (ix1 (entryOf N hN (dstw (ix2 r (0 : Fin 1)))))))
    = (∑ r ∈ Finset.univ.filter (fun r : Fin R => (dst (ix2 r (0 : Fin 1))).toInt = ((v : Fin N).val : ℤ)),
      Y (ix2 (rowOf N hN (srcw (ix2 r (0 : Fin 1)))) j) * d (ix1 (rowOf N hN (srcw (ix2 r (0 : Fin 1)))))) * d (ix1 v)
  rw [sum_mul_nonneg_real _ _ _ (hd (ix1 v)).1 (hd (ix1 v)).2]
  refine Finset.sum_congr rfl fun r hr => ?_
  rw [hdw r v (Finset.mem_filter.1 hr).2, mul_assoc]
  rfl

/-! ## The network -/

/-- The input layer: product with the weights, bias along every row, cut at zero. -/
def layer0 (X : Mat N K) (W : Mat K C) (b : Vc C) : Mat N C := relu (plus (mm X W) (vrows b))

/-- A convolution in the first arrangement. -/
def convEdge (hN : 0 < N) (srcw dst dstw : ICol R) (d : Vc N) (H : Mat N K) (W : Mat K C) (b : Vc C) : Mat N C :=
  relu (plus (aggEdge hN srcw dst dstw d (mm H W)) (vrows b))

/-- A convolution in the second arrangement. -/
def convNode (hN : 0 < N) (srcw dst : ICol R) (d : Vc N) (H : Mat N K) (W : Mat K C) (b : Vc C) : Mat N C :=
  relu (plus (aggNode hN srcw dst d (mm H W)) (vrows b))

/-- Rows summed per graph, each graph's sum divided by that graph's count. -/
def pool (batch : ICol N) (cnt : Vc G) (H : Mat N C) : Mat G C :=
  fun i => Ideal.div (segSum (N := G) batch H i) (cnt (ix1 (n := G) (i 0)))

/-- The head: product with the weights plus the bias along every row. -/
def head (P : Mat G K) (W : Mat K C) (b : Vc C) : Mat G C := plus (mm P W) (vrows b)

theorem convEdge_eq_convNode (hN : 0 < N) (srcw dst dstw : ICol R) (d : Vc N) (H : Mat N K) (W : Mat K C) (b : Vc C)
    (hd : ∀ i, 0 ≤ d i ∧ d i ≠ ⊤)
    (hdw : ∀ (r : Fin R) (v : Fin N), (dst (ix2 r (0 : Fin 1))).toInt = (v.val : ℤ) →
      entryOf N hN (dstw (ix2 r (0 : Fin 1))) = v) :
    convEdge hN srcw dst dstw d H W b = convNode hN srcw dst d H W b := by
  unfold convEdge convNode
  rw [aggEdge_eq_aggNode hN srcw dst dstw d _ hd hdw]

end Cert.Gcn

end
-- ==== Proof.LibSageHost.lean ====
/-
  The host's spellings of the graph network's stages, each as ONE function of its operands over the extended reals:
  a gather of whole rows is the rows taken at the start indices; update rows added into a broadcast-zero table are
  the update rows summed per destination row; the product with a vector broadcast to a column and along the rows
  scales every row; a sum down the columns from a zero initial value divided by a broadcast constant is the column
  mean; the centred, scaled, shifted array cut at zero is the normalisation; two general dots and a bias row are the
  layers' arrangements. Every dimension record and every shape side condition is an argument, so that any program's
  own records can be plugged in. No program is mentioned.
-/
import proofs.«139987_j50337016709803_2_alg».proof.Proof.LibSageSpec
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx Cert.DenseLib Cert.RowsLib Cert.ScatterLib Cert.LayoutLib

section Host

variable {N C R K : ℕ}

/-- A gather of whole rows is the rows of the table taken at the start indices. -/
theorem gather_eq_takeRows (hN : 0 < N)
    (wf : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wf)
    (X : FVec Ideal ⟨2, ![N, C]⟩ .f32) (s : ICol R) :
    Host.gather g X s = takeRows hN s X := by
  subst hg
  funext i
  obtain ⟨r, c, rfl⟩ : ∃ (r : Fin R) (c : Fin C), i = ix2 r c := ⟨i 0, i 1, eq_ix2 i⟩
  exact gather_rows_apply hN wf X s r c

/-- Update rows added into a zero table are the update rows summed per destination row. -/
theorem scatter_eq_segSum
    (wf : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wf)
    (hb : (⟨0, ![]⟩ : Shape).BroadcastsInDim ⟨2, ![N, C]⟩ (![] : Fin 0 → Fin 2))
    (idx : ICol R) (U : FVec Ideal ⟨2, ![R, C]⟩ .f32) :
    Host.scatterAdd (F := Ideal) sc
        (broadcastInDim ⟨2, ![N, C]⟩ ![] hb (constant (F := Ideal) ⟨0, ![]⟩ .f32 0x00000000#32)) idx U
      = segSum idx U := by
  subst hsc
  funext i
  obtain ⟨b, k, rfl⟩ : ∃ (b : Fin N) (k : Fin C), i = ix2 b k := ⟨i 0, i 1, eq_ix2 i⟩
  refine (scatterAdd_rows_apply wf _ idx U b k).trans ?_
  rw [broadcastInDim_scalar_apply]
  show Ideal.ofBits .f32 0x00000000#32 + _ = _
  rw [Ideal.ofBits_zero_f32, zero_add]
  rfl

/-- The product with a vector broadcast to a column and then along the rows scales every row by its entry. -/
theorem scale_eq
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (d : FVec Ideal ⟨1, ![N]⟩ .f32) (X : FVec Ideal ⟨2, ![N, C]⟩ .f32) :
    mulf X (broadcastInDim ⟨2, ![N, C]⟩ ![0, 1] h2 (broadcastInDim ⟨2, ![N, 1]⟩ ![0] h1 d)) = scaleRows d X := by
  funext i
  obtain ⟨p, q, rfl⟩ : ∃ (p : Fin N) (q : Fin C), i = ix2 p q := ⟨i 0, i 1, eq_ix2 i⟩
  show X (ix2 p q) * broadcastInDim ⟨2, ![N, C]⟩ ![0, 1] h2 (broadcastInDim ⟨2, ![N, 1]⟩ ![0] h1 d) (ix2 p q)
    = X (ix2 p q) * d (ix1 p)
  rw [broadcastInDim_col_apply, broadcastInDim_vecCol_apply]

/-- The whole aggregation: rows taken, added into a zero table, scaled. -/
theorem meanAgg_eq (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfs : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wfs)
    (hb : (⟨0, ![]⟩ : Shape).BroadcastsInDim ⟨2, ![N, C]⟩ (![] : Fin 0 → Fin 2))
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (X : FVec Ideal ⟨2, ![N, C]⟩ .f32) (s t : ICol R) (d : FVec Ideal ⟨1, ![N]⟩ .f32) :
    mulf (Host.scatterAdd (F := Ideal) sc
        (broadcastInDim ⟨2, ![N, C]⟩ ![] hb (constant (F := Ideal) ⟨0, ![]⟩ .f32 0x00000000#32)) t (Host.gather g X s))
      (broadcastInDim ⟨2, ![N, C]⟩ ![0, 1] h2 (broadcastInDim ⟨2, ![N, 1]⟩ ![0] h1 d))
      = meanAgg hN s t d X := by
  rw [gather_eq_takeRows hN wfg g hg, scatter_eq_segSum wfs sc hsc, scale_eq]
  rfl

/-- Two products, the bias row added to the first: the second layer's arrangement. -/
theorem post_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral D none A Wl)
        (broadcastInDim ⟨2, ![N, C]⟩ ![0, 1] h2 (broadcastInDim ⟨2, ![1, C]⟩ ![1] h1 b))) (Host.dotGeneral D none X Wr)
      = plus (plus (mm A Wl) (vrows b)) (mm X Wr) := by
  rw [dotGeneral_eq_mm D hD, dotGeneral_eq_mm D hD, broadcastInDim_eq_rows]
  rfl

/-- The same with the bias added last: the first layer before normalisation. -/
theorem layer1_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral D none A Wl)
        (broadcastInDim ⟨2, ![N, C]⟩ ![0, 1] h2 (broadcastInDim ⟨2, ![1, C]⟩ ![1] h1 b))) (Host.dotGeneral D none X Wr)
      = layer1 A X Wl Wr b := by
  rw [post_eq D hD]
  funext i
  show mm A Wl i + vrows b i + mm X Wr i = mm A Wl i + mm X Wr i + vrows b i
  exact add_right_comm _ _ _

/-- The source index over column `q` with coordinate `k` on the summed axis is `(k, q)`. -/
theorem lift_col (h : (⟨2, ![N, C]⟩ : Shape).Reduces [(0 : Fin 2)] ⟨1, ![C]⟩) (q : Fin C) (k : Fin N) :
    h.lift (ix1 q) k = ix2 k q :=
  funext fun c => Fin.ext (by match c with | ⟨0, _⟩ => rfl | ⟨1, _⟩ => rfl)

/-- A sum down the columns from a zero initial value, divided by a broadcast constant, is the column mean. -/
theorem colMean_eq
    (h' : (⟨2, ![N, C]⟩ : Shape).ReducesTo [(0 : Fin 2)] ⟨1, ![C]⟩)
    (h : (⟨2, ![N, C]⟩ : Shape).Reduces [(0 : Fin 2)] ⟨1, ![C]⟩)
    (hu : 0 < (⟨0, ![]⟩ : Shape).numel)
    (hb : (⟨0, ![]⟩ : Shape).BroadcastsInDim ⟨1, ![C]⟩ (![] : Fin 0 → Fin 1))
    (w : BitVec 32) (X : FVec Ideal ⟨2, ![N, C]⟩ .f32) :
    Host.divf (F := Ideal) (Host.reduceAdd (F := Ideal) X (constant (F := Ideal) ⟨0, ![]⟩ .f32 0x00000000#32) h' hu)
        (broadcastInDim ⟨1, ![C]⟩ ![] hb (constant (F := Ideal) ⟨0, ![]⟩ .f32 w))
      = colMean (Ideal.ofBits .f32 w) X := by
  funext j
  obtain ⟨q, rfl⟩ : ∃ q : Fin C, j = ix1 q := ⟨j 0, eq_ix1 j⟩
  show Ideal.div (Ideal.hostReduceAdd h' X (Ideal.ofBits .f32 0x00000000#32) (ix1 q))
      (broadcastInDim ⟨1, ![C]⟩ ![] hb (constant (F := Ideal) ⟨0, ![]⟩ .f32 w) (ix1 q))
    = Ideal.div (0 + ∑ n : Fin N, X (ix2 n q)) (Ideal.ofBits .f32 w)
  rw [Ideal.hostReduceAdd_single h' h, broadcastInDim_scalar_apply, Ideal.ofBits_zero_f32]
  exact congrArg (fun t => Ideal.div (0 + t) (Ideal.ofBits .f32 w))
    (Finset.sum_congr rfl fun k _ => congrArg X (lift_col h q k))

/-- The squared deviation from a vector laid along every row. -/
theorem sqDev_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (H : FVec Ideal ⟨2, ![N, C]⟩ .f32) (mu : FVec Ideal ⟨1, ![C]⟩ .f32) :
    mulf (subf H (broadcastInDim ⟨2, ![N, C]⟩ ![0, 1] h2 (broadcastInDim ⟨2, ![1, C]⟩ ![1] h1 mu)))
        (subf H (broadcastInDim ⟨2, ![N, C]⟩ ![0, 1] h2 (broadcastInDim ⟨2, ![1, C]⟩ ![1] h1 mu)))
      = sqDev H mu := by
  rw [broadcastInDim_eq_rows]
  funext i
  obtain ⟨p, q, rfl⟩ : ∃ (p : Fin N) (q : Fin C), i = ix2 p q := ⟨i 0, i 1, eq_ix2 i⟩
  rfl

/-- Centred, scaled by the reciprocal root of the variance plus a broadcast constant and by `gamma`, shifted by
    `beta`, cut at zero. -/
theorem bn_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (hb : (⟨0, ![]⟩ : Shape).BroadcastsInDim ⟨1, ![C]⟩ (![] : Fin 0 → Fin 1))
    (hz : (⟨0, ![]⟩ : Shape).BroadcastsInDim ⟨2, ![N, C]⟩ (![] : Fin 0 → Fin 2))
    (w : BitVec 32) (H : FVec Ideal ⟨2, ![N, C]⟩ .f32) (mu var gamma beta : FVec Ideal ⟨1, ![C]⟩ .f32) :
    maximumf
        (addf
          (mulf
            (mulf (subf H (broadcastInDim ⟨2, ![N, C]⟩ ![0, 1] h2 (broadcastInDim ⟨2, ![1, C]⟩ ![1] h1 mu)))
              (broadcastInDim ⟨2, ![N, C]⟩ ![0, 1] h2 (broadcastInDim ⟨2, ![1, C]⟩ ![1] h1
                (Host.rsqrt (F := Ideal)
                  (addf var (broadcastInDim ⟨1, ![C]⟩ ![] hb (constant (F := Ideal) ⟨0, ![]⟩ .f32 w)))))))
            (broadcastInDim ⟨2, ![N, C]⟩ ![0, 1] h2 (broadcastInDim ⟨2, ![1, C]⟩ ![1] h1 gamma)))
          (broadcastInDim ⟨2, ![N, C]⟩ ![0, 1] h2 (broadcastInDim ⟨2, ![1, C]⟩ ![1] h1 beta)))
        (broadcastInDim ⟨2, ![N, C]⟩ ![] hz (constant (F := Ideal) ⟨0, ![]⟩ .f32 0x00000000#32))
      = bnRelu (Ideal.ofBits .f32 w) H mu var gamma beta := by
  rw [maximumf_bcast_zero, broadcastInDim_eq_rows, broadcastInDim_eq_rows, broadcastInDim_eq_rows,
    broadcastInDim_eq_rows]
  funext i
  obtain ⟨p, q, rfl⟩ : ∃ (p : Fin N) (q : Fin C), i = ix2 p q := ⟨i 0, i 1, eq_ix2 i⟩
  show max (((H (ix2 p q) - mu (ix1 q))
      * Ideal.rsqrt (var (ix1 q) + broadcastInDim ⟨1, ![C]⟩ ![] hb (constant (F := Ideal) ⟨0, ![]⟩ .f32 w) (ix1 q)))
      * gamma (ix1 q) + beta (ix1 q)) 0 = _
  rw [broadcastInDim_scalar_apply]
  rfl

end Host

/-! ## The reciprocal degree -/

section Degree

variable {N R : ℕ}

/-- From zero, the float word `w` once for every update row whose start index, read as a signed integer, is `i`:
    with `w` the word of one, the number of edges into node `i`. -/
def countAt (w : BitVec 32) (dst : ICol R) : Vc N :=
  fun i => 0 + ∑ _r ∈ Finset.univ.filter (fun r : Fin R => (dst (ix2 r (0 : Fin 1))).toInt = (((i 0 : Fin N)).val : ℤ)),
    Ideal.ofBits .f32 w

/-- Where the edge count exceeds zero, one over the larger of the count and one; elsewhere zero. -/
def recipDeg (dst : ICol R) : Vc N := fun i =>
  Scalar.select (Ideal.cmp .ogt (countAt (N := N) 0x3F800000#32 dst i) (Ideal.ofBits .f32 0x00000000#32))
    (Ideal.div (Ideal.ofBits .f32 0x3F800000#32)
      (max (countAt (N := N) 0x3F800000#32 dst i) (Ideal.ofBits .f32 0x3F800000#32)))
    (Ideal.ofBits .f32 0x00000000#32)

/-- A broadcast constant added into a broadcast-zero vector at a column of start indices counts, per entry, the
    update rows that land there. -/
theorem scatter_const_eq
    (wf : ScatterDims.WF ⟨1, ![N]⟩ ⟨2, ![R, 1]⟩ ⟨1, ![R]⟩ [] [0] [0] 1)
    (sc : ScatterDims ⟨1, ![N]⟩ ⟨2, ![R, 1]⟩ ⟨1, ![R]⟩) (hsc : sc = vecScatterDims N R wf)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1))
    (w : BitVec 32) (dst : ICol R) :
    Host.scatterAdd (F := Ideal) sc
        (broadcastInDim ⟨1, ![N]⟩ ![] hbN (constant (F := Ideal) ⟨0, ![]⟩ .f32 0x00000000#32)) dst
        (broadcastInDim ⟨1, ![R]⟩ ![] hbR (constant (F := Ideal) ⟨0, ![]⟩ .f32 w))
      = countAt w dst := by
  subst hsc
  funext j
  obtain ⟨p, rfl⟩ : ∃ p : Fin N, j = ix1 p := ⟨j 0, eq_ix1 j⟩
  refine (scatterAdd_vec_apply wf _ dst _ p).trans ?_
  rw [broadcastInDim_scalar_apply]
  show Ideal.ofBits .f32 0x00000000#32 + _ = _
  rw [Ideal.ofBits_zero_f32]
  refine congrArg (fun t => (0 : EReal) + t) (Finset.sum_congr rfl fun r _ => ?_)
  exact broadcastInDim_scalar_apply hbR _ (ix1 r)

/-- The host's reciprocal degree: the count compared with zero selects one over the larger of the count and one,
    or zero. -/
theorem recipDeg_eq
    (wf : ScatterDims.WF ⟨1, ![N]⟩ ⟨2, ![R, 1]⟩ ⟨1, ![R]⟩ [] [0] [0] 1)
    (sc : ScatterDims ⟨1, ![N]⟩ ⟨2, ![R, 1]⟩ ⟨1, ![R]⟩) (hsc : sc = vecScatterDims N R wf)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1))
    (dst : ICol R) :
    select
        (cmpf .ogt
          (Host.scatterAdd (F := Ideal) sc
            (broadcastInDim ⟨1, ![N]⟩ ![] hbN (constant (F := Ideal) ⟨0, ![]⟩ .f32 0x00000000#32)) dst
            (broadcastInDim ⟨1, ![R]⟩ ![] hbR (constant (F := Ideal) ⟨0, ![]⟩ .f32 0x3F800000#32)))
          (broadcastInDim ⟨1, ![N]⟩ ![] hbN (constant (F := Ideal) ⟨0, ![]⟩ .f32 0x00000000#32)))
        (Host.divf (F := Ideal)
          (broadcastInDim ⟨1, ![N]⟩ ![] hbN (constant (F := Ideal) ⟨0, ![]⟩ .f32 0x3F800000#32))
          (maximumf
            (Host.scatterAdd (F := Ideal) sc
              (broadcastInDim ⟨1, ![N]⟩ ![] hbN (constant (F := Ideal) ⟨0, ![]⟩ .f32 0x00000000#32)) dst
              (broadcastInDim ⟨1, ![R]⟩ ![] hbR (constant (F := Ideal) ⟨0, ![]⟩ .f32 0x3F800000#32)))
            (broadcastInDim ⟨1, ![N]⟩ ![] hbN (constant (F := Ideal) ⟨0, ![]⟩ .f32 0x3F800000#32))))
        (broadcastInDim ⟨1, ![N]⟩ ![] hbN (constant (F := Ideal) ⟨0, ![]⟩ .f32 0x00000000#32))
      = recipDeg dst := by
  rw [scatter_const_eq wf sc hsc hbN hbR]
  funext j
  obtain ⟨p, rfl⟩ : ∃ p : Fin N, j = ix1 p := ⟨j 0, eq_ix1 j⟩
  show Scalar.select
      (Ideal.cmp .ogt (countAt (N := N) 0x3F800000#32 dst (ix1 p))
        (broadcastInDim ⟨1, ![N]⟩ ![] hbN (constant (F := Ideal) ⟨0, ![]⟩ .f32 0x00000000#32) (ix1 p)))
      (Ideal.div (broadcastInDim ⟨1, ![N]⟩ ![] hbN (constant (F := Ideal) ⟨0, ![]⟩ .f32 0x3F800000#32) (ix1 p))
        (max (countAt (N := N) 0x3F800000#32 dst (ix1 p))
          (broadcastInDim ⟨1, ![N]⟩ ![] hbN (constant (F := Ideal) ⟨0, ![]⟩ .f32 0x3F800000#32) (ix1 p))))
      (broadcastInDim ⟨1, ![N]⟩ ![] hbN (constant (F := Ideal) ⟨0, ![]⟩ .f32 0x00000000#32) (ix1 p)) = _
  rw [broadcastInDim_scalar_apply, broadcastInDim_scalar_apply]
  rfl

/-- Every entry of the reciprocal degree is zero or one over the larger of that node's edge count and one. -/
theorem recipDeg_cases (dst : ICol R) (i : (⟨1, ![N]⟩ : Shape).Idx) :
    recipDeg (N := N) dst i = Ideal.ofBits .f32 0x00000000#32
      ∨ recipDeg (N := N) dst i = Ideal.div (Ideal.ofBits .f32 0x3F800000#32)
          (max (countAt (N := N) 0x3F800000#32 dst i) (Ideal.ofBits .f32 0x3F800000#32)) := by
  unfold recipDeg Scalar.select
  split
  · exact Or.inr rfl
  · exact Or.inl rfl

end Degree

end Cert.Sage

end
-- ==== Proof.LibSageAlgebra.lean ====
/-
  The algebra of the two-layer mean-aggregation network over the extended reals: where every entry of the operands
  is a real number, the weight may be applied before or after the aggregation; every operation of the network keeps
  all entries real; the column variance is a nonnegative real, so the reciprocal root of the variance plus a positive
  real is again real.
-/
import proofs.«139987_j50337016709803_2_alg».proof.Proof.LibSageSpec
import Idealize.ShloMosaic.PureOps.Ideal

noncomputable section

namespace Cert.Sage

open Idealize.ShloMosaic Idealize.ShloMosaic.ValueIdx Cert.DenseLib Cert.RowsLib

/-! ## Real entries -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array whose entries are all real is the coercion of an array of reals. -/
theorem IsFin.exists_real {s : Shape} {X : s.Idx → EReal} (h : IsFin X) :
    ∃ x : s.Idx → ℝ, X = fun i => (x i : EReal) := by
  choose x hx using h
  exact ⟨x, funext hx⟩

/-! ## The weight before or after the aggregation -/

/-- With real entries, aggregating the products is the product of the aggregate: at entry (n, j) both are the sum,
    over the update rows e sent to n and over k, of H (c e, k) · Wl (k, j) · d n, by distributivity in the reals. -/
theorem meanAgg_mm {N K C R : ℕ} (hN : 0 < N) (src dst : ICol R) (d : Vc N) (H : Mat N K) (Wl : Mat K C)
    (hH : IsFin H) (hW : IsFin Wl) (hd : IsFin d) :
    meanAgg hN src dst d (mm H Wl) = mm (meanAgg hN src dst d H) Wl := by
  obtain ⟨h, rfl⟩ := hH.exists_real
  obtain ⟨w, rfl⟩ := hW.exists_real
  obtain ⟨e, rfl⟩ := hd.exists_real
  funext i
  obtain ⟨n, j, rfl⟩ : ∃ (n : Fin N) (j : Fin C), i = ix2 n j := ⟨i 0, i 1, eq_ix2 i⟩
  show (∑ r ∈ Finset.univ.filter (fun r : Fin R => (dst (ix2 r (0 : Fin 1))).toInt = ((n : Fin N).val : ℤ)),
      ∑ k : Fin K, ((h (ix2 (rowOf N hN (src (ix2 r (0 : Fin 1)))) k) : ℝ) : EReal) * ((w (ix2 k j) : ℝ) : EReal))
        * ((e (ix1 n) : ℝ) : EReal)
    = ∑ k : Fin K, ((∑ r ∈ Finset.univ.filter (fun r : Fin R => (dst (ix2 r (0 : Fin 1))).toInt = ((n : Fin N).val : ℤ)),
      ((h (ix2 (rowOf N hN (src (ix2 r (0 : Fin 1)))) k) : ℝ) : EReal)) * ((e (ix1 n) : ℝ) : EReal))
        * ((w (ix2 k j) : ℝ) : EReal)
  simp only [← EReal.coe_mul, ← coe_sum]
  congr 1
  rw [Finset.sum_comm, Finset.sum_mul]
  refine Finset.sum_congr rfl fun k _ => ?_
  rw [← Finset.sum_mul]
  ring

/-- THE TWO ARRANGEMENTS OF THE SECOND LAYER AGREE where the features, the first weight and the scale are real:
    the aggregate term is the same by distributivity, and the other two terms are added in the other order. -/
theorem outPre_eq_outPost {N K C R : ℕ} (hN : 0 < N) (src dst : ICol R) (d : Vc N) (H : Mat N K) (Wl Wr : Mat K C)
    (b : Vc C) (hH : IsFin H) (hW : IsFin Wl) (hd : IsFin d) :
    outPre hN src dst d H Wl Wr b = outPost hN src dst d H Wl Wr b := by
  funext i
  show (meanAgg hN src dst d (mm H Wl) i + mm H Wr i) + vrows b i
    = (mm (meanAgg hN src dst d H) Wl i + vrows b i) + mm H Wr i
  rw [meanAgg_mm hN src dst d H Wl hH hW hd, add_right_comm]

/-! ## Every operation keeps the entries real -/

theorem real_zero : ∃ r : ℝ, (0 : EReal) = (r : EReal) := ⟨0, EReal.coe_zero.symm⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The greater of two reals, taken in the extended reals, is the greater of them in the reals. -/
theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, coe_max_real a b⟩

theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem isFin_mm {M K N : ℕ} {X : Mat M K} {W : Mat K N} (hX : IsFin X) (hW : IsFin W) : IsFin (mm X W) :=
  fun _ => real_sum _ _ fun _ _ => real_mul (hX _) (hW _)

theorem isFin_plus {s : Shape} {X Y : s.Idx → EReal} (hX : IsFin X) (hY : IsFin Y) : IsFin (plus X Y) :=
  fun i => real_add (hX i) (hY i)

theorem isFin_vrows {M C : ℕ} {b : Vc C} (hb : IsFin b) : IsFin (vrows (M := M) b) := fun _ => hb _

theorem isFin_rowVec {C : ℕ} {B : Mat 1 C} (hB : IsFin B) : IsFin (rowVec B) := fun _ => hB _

theorem isFin_relu {s : Shape} {X : s.Idx → EReal} (hX : IsFin X) : IsFin (relu X) :=
  fun i => real_max (hX i) real_zero

theorem isFin_takeRows {N C R : ℕ} (hN : 0 < N) (src : ICol R) {X : Mat N C} (hX : IsFin X) :
    IsFin (takeRows hN src X) := fun _ => hX _

theorem isFin_segSum {N C R : ℕ} (dst : ICol R) {U : Mat R C} (hU : IsFin U) : IsFin (segSum (N := N) dst U) :=
  fun _ => real_sum _ _ fun _ _ => hU _

theorem isFin_scaleRows {N C : ℕ} {d : Vc N} {X : Mat N C} (hd : IsFin d) (hX : IsFin X) : IsFin (scaleRows d X) :=
  fun i => real_mul (hX i) (hd _)

theorem isFin_meanAgg {N C R : ℕ} (hN : 0 < N) (src dst : ICol R) {d : Vc N} {X : Mat N C} (hd : IsFin d)
    (hX : IsFin X) : IsFin (meanAgg hN src dst d X) :=
  isFin_scaleRows hd (isFin_segSum dst (isFin_takeRows hN src hX))

/-- A column mean over a positive real count: the sum of reals times the reciprocal of the count. -/
theorem isFin_colMean {N C : ℕ} (cN : EReal) (hc : ∃ r : ℝ, 0 < r ∧ cN = (r : EReal)) {X : Mat N C}
    (hX : IsFin X) : IsFin (colMean cN X) := by
  obtain ⟨r, hr, rfl⟩ := hc
  intro j
  show ∃ v : ℝ, Ideal.div (0 + ∑ n : Fin N, X (ix2 n (n1 := C) (j 0))) (r : EReal) = (v : EReal)
  rw [Ideal.div_coe (ne_of_gt hr)]
  exact real_mul (real_add real_zero (real_sum _ _ fun n _ => hX _)) ⟨1 / r, rfl⟩

theorem isFin_layer1 {N K C : ℕ} {A X : Mat N K} {Wl Wr : Mat K C} {b : Vc C} (hA : IsFin A) (hX : IsFin X)
    (hWl : IsFin Wl) (hWr : IsFin Wr) (hb : IsFin b) : IsFin (layer1 A X Wl Wr b) :=
  isFin_plus (isFin_plus (isFin_mm hA hWl) (isFin_mm hX hWr)) (isFin_vrows hb)

/-! ## The variance is a nonnegative real, so the normalisation stays real -/

theorem nn_zero : ∃ r : ℝ, 0 ≤ r ∧ (0 : EReal) = (r : EReal) := ⟨0, le_rfl, EReal.coe_zero.symm⟩

theorem nn_add {x y : EReal} (hx : ∃ r : ℝ, 0 ≤ r ∧ x = (r : EReal)) (hy : ∃ r : ℝ, 0 ≤ r ∧ y = (r : EReal)) :
    ∃ r : ℝ, 0 ≤ r ∧ x + y = (r : EReal) := by
  obtain ⟨a, ha, rfl⟩ := hx
  obtain ⟨b, hb, rfl⟩ := hy
  exact ⟨a + b, add_nonneg ha hb, (EReal.coe_add a b).symm⟩

theorem nn_mul {x y : EReal} (hx : ∃ r : ℝ, 0 ≤ r ∧ x = (r : EReal)) (hy : ∃ r : ℝ, 0 ≤ r ∧ y = (r : EReal)) :
    ∃ r : ℝ, 0 ≤ r ∧ x * y = (r : EReal) := by
  obtain ⟨a, ha, rfl⟩ := hx
  obtain ⟨b, hb, rfl⟩ := hy
  exact ⟨a * b, mul_nonneg ha hb, (EReal.coe_mul a b).symm⟩

/-- The square of a real is a nonnegative real. -/
theorem nn_sq {x : EReal} (hx : ∃ r : ℝ, x = (r : EReal)) : ∃ r : ℝ, 0 ≤ r ∧ x * x = (r : EReal) := by
  obtain ⟨a, rfl⟩ := hx
  exact ⟨a * a, mul_self_nonneg a, (EReal.coe_mul a a).symm⟩

theorem nn_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    rw [Finset.sum_insert ha]
    exact nn_add (h a (Finset.mem_insert_self a s)) (ih fun i hi => h i (Finset.mem_insert_of_mem hi))

theorem isFin_sqDev {N C : ℕ} {X : Mat N C} {mu : Vc C} (hX : IsFin X) (hmu : IsFin mu) : IsFin (sqDev X mu) :=
  fun i => real_mul (real_sub (hX i) (hmu _)) (real_sub (hX i) (hmu _))

theorem sqDev_nonneg {N C : ℕ} {X : Mat N C} {mu : Vc C} (hX : IsFin X) (hmu : IsFin mu) :
    ∀ i, ∃ v : ℝ, 0 ≤ v ∧ sqDev X mu i = (v : EReal) := fun i => nn_sq (real_sub (hX i) (hmu _))

/-- A column mean of nonnegative reals over a positive real count is a nonnegative real. -/
theorem colMean_nonneg {N C : ℕ} (cN : EReal) (hc : ∃ r : ℝ, 0 < r ∧ cN = (r : EReal)) {X : Mat N C}
    (hX : ∀ i, ∃ v : ℝ, 0 ≤ v ∧ X i = (v : EReal)) : ∀ j, ∃ v : ℝ, 0 ≤ v ∧ colMean cN X j = (v : EReal) := by
  obtain ⟨r, hr, rfl⟩ := hc
  intro j
  show ∃ v : ℝ, 0 ≤ v ∧ Ideal.div (0 + ∑ n : Fin N, X (ix2 n (n1 := C) (j 0))) (r : EReal) = (v : EReal)
  rw [Ideal.div_coe (ne_of_gt hr)]
  exact nn_mul (nn_add nn_zero (nn_sum _ _ fun n _ => hX _)) ⟨1 / r, (one_div_pos.mpr hr).le, rfl⟩

/-- The reciprocal root of a nonnegative real plus a positive real is a real: the argument is a positive real. -/
theorem real_rsqrt {x y : EReal} (hx : ∃ v : ℝ, 0 ≤ v ∧ x = (v : EReal)) (hy : ∃ e : ℝ, 0 < e ∧ y = (e : EReal)) :
    ∃ r : ℝ, Ideal.rsqrt (x + y) = (r : EReal) := by
  obtain ⟨v, hv, rfl⟩ := hx
  obtain ⟨e, he, rfl⟩ := hy
  have hpos : 0 < v + e := add_pos_of_nonneg_of_pos hv he
  rw [← EReal.coe_add, Ideal.rsqrt_coe, if_neg (not_lt.mpr hpos.le), if_neg hpos.ne']
  exact ⟨_, rfl⟩

theorem isFin_bnRelu {N C : ℕ} (eps : EReal) (he : ∃ e : ℝ, 0 < e ∧ eps = (e : EReal)) {X : Mat N C}
    {mu var gamma beta : Vc C} (hX : IsFin X) (hmu : IsFin mu)
    (hvar : ∀ j, ∃ v : ℝ, 0 ≤ v ∧ var j = (v : EReal)) (hg : IsFin gamma) (hb : IsFin beta) :
    IsFin (bnRelu eps X mu var gamma beta) :=
  fun i => real_max (real_add (real_mul (real_mul (real_sub (hX i) (hmu _)) (real_rsqrt (hvar _) he)) (hg _))
    (hb _)) real_zero

/-- THE HIDDEN FEATURES ARE REAL where every operand is real, the count is a positive real and eps is a positive
    real: the variance is a mean of squares of reals, a nonnegative real, so variance + eps is a positive real and
    its reciprocal root is real. -/
theorem isFin_hidden {N K C : ℕ} (cN eps : EReal) (hc : ∃ r : ℝ, 0 < r ∧ cN = (r : EReal))
    (he : ∃ e : ℝ, 0 < e ∧ eps = (e : EReal)) (A X : Mat N K) (Wl Wr : Mat K C) (b gamma beta : Vc C)
    (hA : IsFin A) (hX : IsFin X) (hWl : IsFin Wl) (hWr : IsFin Wr) (hb : IsFin b) (hg : IsFin gamma)
    (hbe : IsFin beta) : IsFin (hidden cN eps A X Wl Wr b gamma beta) :=
  have hL := isFin_layer1 hA hX hWl hWr hb
  have hmu := isFin_colMean cN hc hL
  isFin_bnRelu eps he hL hmu (colMean_nonneg cN hc (sqDev_nonneg hL hmu)) hg hbe

/-! ## Three float patterns as reals, and the reciprocal degree -/

/-- The pattern of `50000.0`: exponent field 142, fraction field 4411392, so (2^23 + 4411392) · 2^(142 - 127 - 23)
    = 12800000 / 256 = 50000. -/
theorem lit_50000 : ∃ r : ℝ, 0 < r ∧ Ideal.ofBits .f32 0x47435000#32 = (r : EReal) := by
  refine ⟨50000, by norm_num, ?_⟩
  simp [Ideal.ofBits, Ideal.ieee, -EReal.coe_mul]; norm_num

/-- The pattern nearest `1e-5`: exponent field 110, fraction field 2606508, so 10995116 · 2^(-40), a positive real. -/
theorem lit_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The pattern of `1.0`. -/
theorem lit_one : Ideal.ofBits .f32 0x3F800000#32 = ((1 : ℝ) : EReal) := by
  simp [Ideal.ofBits, Ideal.ieee, -EReal.coe_mul]; norm_num

/-- A reciprocal degree is real: each entry is zero or one over the greater of a real degree and one, and that
    greater value is a real at least one, so not zero. -/
theorem isFin_degInv {N : ℕ} (deg d : Vc N) (one zero : EReal) (h1 : one = ((1 : ℝ) : EReal)) (h0 : zero = 0)
    (hdeg : IsFin deg) (hd : ∀ i, d i = zero ∨ d i = Ideal.div one (max (deg i) one)) : IsFin d := by
  subst h1 h0
  intro i
  rcases hd i with h | h
  · exact ⟨0, by rw [h, EReal.coe_zero]⟩
  · obtain ⟨g, hg⟩ := hdeg i
    rw [h, hg, coe_max_real, Ideal.div_coe (ne_of_gt (lt_of_lt_of_le one_pos (le_max_right g 1)))]
    exact ⟨_, (EReal.coe_mul _ _).symm⟩

end Cert.Sage

end
-- ==== Proof.LibGcnHost.lean ====
/-
  The host's spellings of the graph convolution's stages, each as one function of its operands over the extended
  reals, with every dimension record and shape side condition an argument: an index vector laid as a column of start
  indices, raw or with negative entries wrapped by a constant; the degree as a count of ones added per destination,
  its reciprocal root where positive and zero elsewhere, and that this is always a nonnegative real; that the wrapped
  destination index of an edge landing on node v names v; the two arrangements of the aggregation as the host writes
  them; the mean over graphs. No program is mentioned.
-/
import proofs.«139987_j50337016709803_2_alg».proof.Proof.LibGcn
import proofs.«139987_j50337016709803_2_alg».proof.Proof.LibSageHost
import proofs.«139987_j50337016709803_2_alg».proof.Proof.LibSageAlgebra

noncomputable section

namespace Cert.Gcn

open Idealize.ShloMosaic Idealize.ShloMosaic.ValueIdx Cert.DenseLib Cert.RowsLib Cert.Sage Cert.GatherVecLib
  Cert.ScatterLib Cert.LayoutLib

variable {N C R K G : ℕ}

/-- A vector of 32-bit indices. -/
abbrev IVc (R : ℕ) : Type := IVec ⟨1, ![R]⟩ 32

/-! ## Index columns -/

/-- An index vector laid as a column of start indices. -/
def rawCol (hc : (⟨1, ![R]⟩ : Shape).BroadcastsInDim ⟨2, ![R, 1]⟩ (![0] : Fin 1 → Fin 2)) (v : IVc R) : ICol R :=
  broadcastInDim ⟨2, ![R, 1]⟩ ![0] hc v

/-- The same with every negative entry first increased by the constant n. -/
def wrapCol (hc : (⟨1, ![R]⟩ : Shape).BroadcastsInDim ⟨2, ![R, 1]⟩ (![0] : Fin 1 → Fin 2))
    (hz : (⟨0, ![]⟩ : Shape).BroadcastsInDim ⟨1, ![R]⟩ (![] : Fin 0 → Fin 1)) (n : BitVec 32) (v : IVc R) : ICol R :=
  broadcastInDim ⟨2, ![R, 1]⟩ ![0] hc
    (select (cmpi .slt v (broadcastInDim ⟨1, ![R]⟩ ![] hz (constantI ⟨0, ![]⟩ 32 0#32)))
      (addi v (broadcastInDim ⟨1, ![R]⟩ ![] hz (constantI ⟨0, ![]⟩ 32 n))) v)

theorem rawCol_apply (hc : (⟨1, ![R]⟩ : Shape).BroadcastsInDim ⟨2, ![R, 1]⟩ (![0] : Fin 1 → Fin 2)) (v : IVc R) (r : Fin R) :
    rawCol hc v (ix2 r (0 : Fin 1)) = v (ix1 r) := broadcastInDim_vecCol_apply hc v r 0

theorem wrapCol_apply (hc : (⟨1, ![R]⟩ : Shape).BroadcastsInDim ⟨2, ![R, 1]⟩ (![0] : Fin 1 → Fin 2))
    (hz : (⟨0, ![]⟩ : Shape).BroadcastsInDim ⟨1, ![R]⟩ (![] : Fin 0 → Fin 1)) (n : BitVec 32) (v : IVc R) (r : Fin R) :
    wrapCol hc hz n v (ix2 r (0 : Fin 1))
      = Scalar.select (IntOp.cmpi .slt (v (ix1 r)) 0#32) (IntOp.addi (v (ix1 r)) n) (v (ix1 r)) := by
  unfold wrapCol
  rw [broadcastInDim_vecCol_apply]
  show Scalar.select (IntOp.cmpi .slt (v (ix1 r)) (broadcastInDim ⟨1, ![R]⟩ ![] hz (constantI ⟨0, ![]⟩ 32 0#32) (ix1 r)))
      (IntOp.addi (v (ix1 r)) (broadcastInDim ⟨1, ![R]⟩ ![] hz (constantI ⟨0, ![]⟩ 32 n) (ix1 r))) (v (ix1 r)) = _
  rw [broadcastInDim_scalar_apply, broadcastInDim_scalar_apply]
  rfl

/-- An edge whose raw destination index, read as a signed integer, is the node u has a wrapped destination index
    that names u: the index is not negative, so the wrap leaves it, and it lies inside the table, so the clamp does. -/
theorem wrap_names (hN : 0 < N) (hc : (⟨1, ![R]⟩ : Shape).BroadcastsInDim ⟨2, ![R, 1]⟩ (![0] : Fin 1 → Fin 2))
    (hz : (⟨0, ![]⟩ : Shape).BroadcastsInDim ⟨1, ![R]⟩ (![] : Fin 0 → Fin 1)) (n : BitVec 32) (v : IVc R)
    (r : Fin R) (u : Fin N) (h : (rawCol hc v (ix2 r (0 : Fin 1))).toInt = (u.val : ℤ)) :
    entryOf N hN (wrapCol hc hz n v (ix2 r (0 : Fin 1))) = u := by
  rw [rawCol_apply] at h
  rw [wrapCol_apply]
  have hs : (v (ix1 r)).slt 0#32 = false := by
    rw [Bool.eq_false_iff, ne_eq, BitVec.slt_iff_toInt_lt, h]
    simp
  have hsel : Scalar.select (IntOp.cmpi .slt (v (ix1 r)) 0#32) (IntOp.addi (v (ix1 r)) n) (v (ix1 r)) = v (ix1 r) := by
    unfold Scalar.select IntOp.cmpi
    simp only [hs]
    rfl
  rw [hsel]
  refine Fin.ext ?_
  show min (v (ix1 r)).toInt.toNat (N - 1) = u.val
  rw [h]
  have := u.isLt
  simp only [Int.toNat_natCast]
  omega

/-! ## The degree and its reciprocal root -/

/-- The reciprocal root of the degree where the degree is positive, zero elsewhere. -/
def dinvOf (hbN : (⟨0, ![]⟩ : Shape).BroadcastsInDim ⟨1, ![N]⟩ (![] : Fin 0 → Fin 1)) (deg : Vc N) : Vc N :=
  select (cmpf (F := Ideal) .ogt (deg : FVec Ideal ⟨1, ![N]⟩ .f32)
      (broadcastInDim ⟨1, ![N]⟩ ![] hbN (constant (F := Ideal) ⟨0, ![]⟩ .f32 0x00000000#32)))
    (Host.rsqrt (F := Ideal) (φ := .f32) (deg : FVec Ideal ⟨1, ![N]⟩ .f32))
    (broadcastInDim ⟨1, ![N]⟩ ![] hbN (constant (F := Ideal) ⟨0, ![]⟩ .f32 0x00000000#32))

/-- A count of ones is a nonnegative real. -/
theorem countAt_one_nonneg (dst : ICol R) (i : (⟨1, ![N]⟩ : Shape).Idx) :
    ∃ r : ℝ, 0 ≤ r ∧ countAt (N := N) 0x3F800000#32 dst i = (r : EReal) :=
  nn_add nn_zero (nn_sum _ _ fun _ _ => ⟨1, zero_le_one, lit_one⟩)

/-- THE SCALE IS A NONNEGATIVE REAL: where the degree, a nonnegative real, is positive its reciprocal root is the
    real 1/√deg ≥ 0; elsewhere the scale is zero. -/
theorem dinvOf_nonneg (hbN : (⟨0, ![]⟩ : Shape).BroadcastsInDim ⟨1, ![N]⟩ (![] : Fin 0 → Fin 1)) (deg : Vc N)
    (hdeg : ∀ i, ∃ r : ℝ, 0 ≤ r ∧ deg i = (r : EReal)) (i : (⟨1, ![N]⟩ : Shape).Idx) :
    0 ≤ dinvOf hbN deg i ∧ dinvOf hbN deg i ≠ ⊤ := by
  obtain ⟨r, hr, e⟩ := hdeg i
  show 0 ≤ Scalar.select (Ideal.cmp .ogt (deg i)
        (broadcastInDim ⟨1, ![N]⟩ ![] hbN (constant (F := Ideal) ⟨0, ![]⟩ .f32 0x00000000#32) i))
      (Ideal.rsqrt (deg i)) (broadcastInDim ⟨1, ![N]⟩ ![] hbN (constant (F := Ideal) ⟨0, ![]⟩ .f32 0x00000000#32) i)
    ∧ Scalar.select (Ideal.cmp .ogt (deg i)
        (broadcastInDim ⟨1, ![N]⟩ ![] hbN (constant (F := Ideal) ⟨0, ![]⟩ .f32 0x00000000#32) i))
      (Ideal.rsqrt (deg i)) (broadcastInDim ⟨1, ![N]⟩ ![] hbN (constant (F := Ideal) ⟨0, ![]⟩ .f32 0x00000000#32) i) ≠ ⊤
  rw [broadcastInDim_scalar_apply]
  show 0 ≤ Scalar.select (Ideal.cmp .ogt (deg i) (Ideal.ofBits .f32 0x00000000#32)) (Ideal.rsqrt (deg i)) (Ideal.ofBits .f32 0x00000000#32)
    ∧ Scalar.select (Ideal.cmp .ogt (deg i) (Ideal.ofBits .f32 0x00000000#32)) (Ideal.rsqrt (deg i)) (Ideal.ofBits .f32 0x00000000#32) ≠ ⊤
  rw [Ideal.ofBits_zero_f32, e]
  unfold Scalar.select Ideal.cmp
  by_cases h0 : (0 : EReal) < (r : EReal)
  · have hr0 : 0 < r := EReal.coe_pos.1 h0
    simp only [h0, decide_true, BitVec.ofBool_true, if_true]
    rw [Ideal.rsqrt_coe, if_neg (not_lt.2 hr0.le), if_neg hr0.ne']
    exact ⟨EReal.coe_nonneg.2 (inv_nonneg.2 (Real.sqrt_nonneg r)), EReal.coe_ne_top _⟩
  · simp only [h0, decide_false, BitVec.ofBool_false]
    exact ⟨by simp, by simp⟩

/-! ## The aggregation as the host writes it -/

/-- Rows taken along the edges and added into a zero table: the carried rows summed per destination. -/
theorem hostCarry_eq (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfs : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wfs)
    (hb : (⟨0, ![]⟩ : Shape).BroadcastsInDim ⟨2, ![N, C]⟩ (![] : Fin 0 → Fin 2))
    (Y : FVec Ideal ⟨2, ![N, C]⟩ .f32) (srcw dst : ICol R) :
    Host.scatterAdd (F := Ideal) sc
        (broadcastInDim ⟨2, ![N, C]⟩ ![] hb (constant (F := Ideal) ⟨0, ![]⟩ .f32 0x00000000#32)) dst (Host.gather g Y srcw)
      = segSum dst (takeRows hN srcw Y) := by
  rw [gather_eq_takeRows hN wfg g hg, scatter_eq_segSum wfs sc hsc]

/-- The first arrangement as the host writes it: the scale taken at both ends of every edge and multiplied, laid
    along the carried rows, the weighted rows added into a zero table. -/
theorem hostEdge_eq (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfv : GatherDims.WF ⟨1, ![N]⟩ ⟨2, ![R, 1]⟩ ⟨1, ![R]⟩ [] [0] [] [0] [] 1 ![1])
    (gv : GatherDims ⟨1, ![N]⟩ ⟨2, ![R, 1]⟩ ⟨1, ![R]⟩) (hgv : gv = vecGatherDims N R wfv)
    (wfs : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wfs)
    (hb : (⟨0, ![]⟩ : Shape).BroadcastsInDim ⟨2, ![N, C]⟩ (![] : Fin 0 → Fin 2))
    (h1 : (⟨1, ![R]⟩ : Shape).BroadcastsInDim ⟨2, ![R, 1]⟩ (![0] : Fin 1 → Fin 2))
    (h2 : (⟨2, ![R, 1]⟩ : Shape).BroadcastsInDim ⟨2, ![R, C]⟩ (![0, 1] : Fin 2 → Fin 2))
    (Y : FVec Ideal ⟨2, ![N, C]⟩ .f32) (srcw dst dstw : ICol R) (d : FVec Ideal ⟨1, ![N]⟩ .f32) :
    Host.scatterAdd (F := Ideal) sc
        (broadcastInDim ⟨2, ![N, C]⟩ ![] hb (constant (F := Ideal) ⟨0, ![]⟩ .f32 0x00000000#32)) dst
        (mulf (Host.gather g Y srcw)
          (broadcastInDim ⟨2, ![R, C]⟩ ![0, 1] h2 (broadcastInDim ⟨2, ![R, 1]⟩ ![0] h1
            (mulf (Host.gather gv d srcw) (Host.gather gv d dstw)))))
      = aggEdge hN srcw dst dstw d Y := by
  subst hgv
  rw [gather_eq_takeRows hN wfg g hg, scatter_eq_segSum wfs sc hsc]
  unfold aggEdge
  refine congrArg (segSum dst) (funext fun i => ?_)
  obtain ⟨e, j, rfl⟩ : ∃ (e : Fin R) (j : Fin C), i = ix2 e j := ⟨i 0, i 1, eq_ix2 i⟩
  show takeRows hN srcw Y (ix2 e j)
      * broadcastInDim ⟨2, ![R, C]⟩ ![0, 1] h2 (broadcastInDim ⟨2, ![R, 1]⟩ ![0] h1
          (mulf (Host.gather (vecGatherDims N R wfv) d srcw) (Host.gather (vecGatherDims N R wfv) d dstw))) (ix2 e j)
    = takeRows hN srcw Y (ix2 e j) * edgeNorm hN srcw dstw d (ix1 e)
  rw [broadcastInDim_col_apply, broadcastInDim_vecCol_apply]
  show _ * (Host.gather (vecGatherDims N R wfv) d srcw (ix1 e) * Host.gather (vecGatherDims N R wfv) d dstw (ix1 e)) = _
  rw [gather_vec_apply hN wfv, gather_vec_apply hN wfv]
  rfl

/-- Rows added per graph into a zero table and divided by the graph counts laid along the rows: the mean over graphs. -/
theorem hostPool_eq
    (wfs : ScatterDims.WF ⟨2, ![G, C]⟩ ⟨2, ![N, 1]⟩ ⟨2, ![N, C]⟩ [1] [0] [0] 1)
    (sc : ScatterDims ⟨2, ![G, C]⟩ ⟨2, ![N, 1]⟩ ⟨2, ![N, C]⟩) (hsc : sc = rowScatterDims G C N wfs)
    (hb : (⟨0, ![]⟩ : Shape).BroadcastsInDim ⟨2, ![G, C]⟩ (![] : Fin 0 → Fin 2))
    (h1 : (⟨1, ![G]⟩ : Shape).BroadcastsInDim ⟨2, ![G, 1]⟩ (![0] : Fin 1 → Fin 2))
    (h2 : (⟨2, ![G, 1]⟩ : Shape).BroadcastsInDim ⟨2, ![G, C]⟩ (![0, 1] : Fin 2 → Fin 2))
    (batch : ICol N) (cnt : FVec Ideal ⟨1, ![G]⟩ .f32) (H : FVec Ideal ⟨2, ![N, C]⟩ .f32) :
    Host.divf (F := Ideal)
        (Host.scatterAdd (F := Ideal) sc
          (broadcastInDim ⟨2, ![G, C]⟩ ![] hb (constant (F := Ideal) ⟨0, ![]⟩ .f32 0x00000000#32)) batch H)
        (broadcastInDim ⟨2, ![G, C]⟩ ![0, 1] h2 (broadcastInDim ⟨2, ![G, 1]⟩ ![0] h1 cnt))
      = pool batch cnt H := by
  rw [scatter_eq_segSum wfs sc hsc]
  funext i
  obtain ⟨p, q, rfl⟩ : ∃ (p : Fin G) (q : Fin C), i = ix2 p q := ⟨i 0, i 1, eq_ix2 i⟩
  show Ideal.div (segSum (N := G) batch H (ix2 p q))
      (broadcastInDim ⟨2, ![G, C]⟩ ![0, 1] h2 (broadcastInDim ⟨2, ![G, 1]⟩ ![0] h1 cnt) (ix2 p q))
    = Ideal.div (segSum (N := G) batch H (ix2 p q)) (cnt (ix1 p))
  rw [broadcastInDim_col_apply, broadcastInDim_vecCol_apply]

/-! ## The dense layers as the host writes them -/

/-- Product, bias laid along the rows, cut at zero. -/
theorem hostLayer0_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (hz : (⟨0, ![]⟩ : Shape).BroadcastsInDim ⟨2, ![N, C]⟩ (![] : Fin 0 → Fin 2))
    (X : FVec Ideal ⟨2, ![N, K]⟩ .f32) (W : FVec Ideal ⟨2, ![K, C]⟩ .f32) (b : FVec Ideal ⟨1, ![C]⟩ .f32) :
    maximumf (addf (Host.dotGeneral D none X W)
        (broadcastInDim ⟨2, ![N, C]⟩ ![0, 1] h2 (broadcastInDim ⟨2, ![1, C]⟩ ![1] h1 b)))
      (broadcastInDim ⟨2, ![N, C]⟩ ![] hz (constant (F := Ideal) ⟨0, ![]⟩ .f32 0x00000000#32))
      = layer0 X W b := by
  rw [maximumf_bcast_zero, dotGeneral_eq_mm D hD, broadcastInDim_eq_rows]
  rfl

/-- Bias laid along the rows of an aggregate, cut at zero. -/
theorem hostBiasRelu_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (hz : (⟨0, ![]⟩ : Shape).BroadcastsInDim ⟨2, ![N, C]⟩ (![] : Fin 0 → Fin 2))
    (A : FVec Ideal ⟨2, ![N, C]⟩ .f32) (b : FVec Ideal ⟨1, ![C]⟩ .f32) :
    maximumf (addf A (broadcastInDim ⟨2, ![N, C]⟩ ![0, 1] h2 (broadcastInDim ⟨2, ![1, C]⟩ ![1] h1 b)))
      (broadcastInDim ⟨2, ![N, C]⟩ ![] hz (constant (F := Ideal) ⟨0, ![]⟩ .f32 0x00000000#32))
      = relu (plus A (vrows b)) := by
  rw [maximumf_bcast_zero, broadcastInDim_eq_rows]
  rfl

/-- Product plus the bias laid along the rows. -/
theorem hostHead_eq (D : DotDims ⟨2, ![G, K]⟩ ⟨2, ![K, C]⟩ ⟨2, ![G, C]⟩) (hD : D = DotDims.plain G K C)
    (h1 : (⟨1, ![C]⟩ : Shape).BroadcastsInDim ⟨2, ![1, C]⟩ (![1] : Fin 1 → Fin 2))
    (h2 : (⟨2, ![1, C]⟩ : Shape).BroadcastsInDim ⟨2, ![G, C]⟩ (![0, 1] : Fin 2 → Fin 2))
    (P : FVec Ideal ⟨2, ![G, K]⟩ .f32) (W : FVec Ideal ⟨2, ![K, C]⟩ .f32) (b : FVec Ideal ⟨1, ![C]⟩ .f32) :
    addf (Host.dotGeneral D none P W)
        (broadcastInDim ⟨2, ![G, C]⟩ ![0, 1] h2 (broadcastInDim ⟨2, ![1, C]⟩ ![1] h1 b))
      = head P W b := by
  rw [dotGeneral_eq_mm D hD, broadcastInDim_eq_rows]
  rfl

end Cert.Gcn

end
-- ==== Proof.LibGcnNet.lean ====
/-
  The whole network in the two arrangements, and the host terms both programs share: the two rows of the edge table
  each followed by the nodes' own indices (every node is joined to itself), the degree as ones added per destination,
  the graph sizes as ones added per graph and raised to at least one. The two networks agree for every choice of the
  weights and features: each convolution's two arrangements agree, since the scale is a nonnegative real.
  No program is mentioned.
-/
import proofs.«139987_j50337016709803_2_alg».proof.Proof.LibGcnHost

noncomputable section

namespace Cert.Gcn

open Idealize.ShloMosaic Idealize.ShloMosaic.ValueIdx Cert.DenseLib Cert.RowsLib Cert.Sage Cert.GatherVecLib
  Cert.ScatterLib Cert.LayoutLib

variable {N C R K G E : ℕ}

/-- The one column of a one-column array, as a vector. -/
def colVec (D : Mat N 1) : Vc N := fun i => D (ix2 (n0 := N) (i 0) (0 : Fin 1))

/-- Input layer, two convolutions in the first arrangement, mean over graphs, head. -/
def netEdge (hN : 0 < N) (srcw dst dstw : ICol R) (d : Vc N) (batch : ICol N) (cnt : Vc G)
    (X : Mat N K) (W0 : Mat K C) (b0 : Vc C) (W1 : Mat C C) (b1 : Vc C) (W2 : Mat C C) (b2 : Vc C)
    (W3 : Mat C C) (b3 : Vc C) : Mat G C :=
  head (pool batch cnt (convEdge hN srcw dst dstw d (convEdge hN srcw dst dstw d (layer0 X W0 b0) W1 b1) W2 b2)) W3 b3

/-- The same with the convolutions in the second arrangement. -/
def netNode (hN : 0 < N) (srcw dst : ICol R) (d : Vc N) (batch : ICol N) (cnt : Vc G)
    (X : Mat N K) (W0 : Mat K C) (b0 : Vc C) (W1 : Mat C C) (b1 : Vc C) (W2 : Mat C C) (b2 : Vc C)
    (W3 : Mat C C) (b3 : Vc C) : Mat G C :=
  head (pool batch cnt (convNode hN srcw dst d (convNode hN srcw dst d (layer0 X W0 b0) W1 b1) W2 b2)) W3 b3

/-- THE TWO NETWORKS AGREE where every scale is a nonnegative real and the wrapped destination index of an edge
    landing on a node names that node. -/
theorem netEdge_eq_netNode (hN : 0 < N) (srcw dst dstw : ICol R) (d : Vc N) (batch : ICol N) (cnt : Vc G)
    (X : Mat N K) (W0 : Mat K C) (b0 : Vc C) (W1 : Mat C C) (b1 : Vc C) (W2 : Mat C C) (b2 : Vc C)
    (W3 : Mat C C) (b3 : Vc C)
    (hd : ∀ i, 0 ≤ d i ∧ d i ≠ ⊤)
    (hdw : ∀ (r : Fin R) (v : Fin N), (dst (ix2 r (0 : Fin 1))).toInt = (v.val : ℤ) →
      entryOf N hN (dstw (ix2 r (0 : Fin 1))) = v) :
    netEdge hN srcw dst dstw d batch cnt X W0 b0 W1 b1 W2 b2 W3 b3
      = netNode hN srcw dst d batch cnt X W0 b0 W1 b1 W2 b2 W3 b3 := by
  unfold netEdge netNode
  rw [convEdge_eq_convNode hN srcw dst dstw d _ W1 b1 hd hdw, convEdge_eq_convNode hN srcw dst dstw d _ W2 b2 hd hdw]

/-! ## The host terms both programs share -/

/-- Row `row` of the edge table followed by the nodes' own indices 0, 1, …, N-1. -/
def extIdx (row : ℕ) (hs : (⟨2, ![2, E]⟩ : Shape).Slices ![row, 0] ⟨2, ![1, E]⟩)
    (hcast : (⟨2, ![1, E]⟩ : Shape).ShapeCasts ⟨1, ![E]⟩)
    (hcat : Shape.Concatenates [(⟨1, ![E]⟩ : Shape), ⟨1, ![N]⟩] ⟨1, ![R]⟩ (0 : Fin 1))
    (x1 : IVec ⟨2, ![2, E]⟩ 32) : IVc R :=
  concatenate ⟨1, ![R]⟩ 0
    [⟨⟨1, ![E]⟩, shapeCast _ (extractStridedSlice ⟨2, ![1, E]⟩ ![row, 0] x1 hs) hcast⟩,
     ⟨⟨1, ![N]⟩, iotaInDim ⟨1, ![N]⟩ 32 0⟩] hcat

/-- The degree: from zero, a one added at the destination of every edge. -/
def degOf (sc : ScatterDims ⟨1, ![N]⟩ ⟨2, ![R, 1]⟩ ⟨1, ![R]⟩)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1)) (dst : ICol R) : Vc N :=
  Host.scatterAdd (F := Ideal) sc
    (broadcastInDim ⟨1, ![N]⟩ ![] hbN (constant (F := Ideal) ⟨0, ![]⟩ .f32 0x00000000#32)) dst
    (broadcastInDim ⟨1, ![R]⟩ ![] hbR (constant (F := Ideal) ⟨0, ![]⟩ .f32 0x3F800000#32))

/-- Every degree is a nonnegative real. -/
theorem degOf_nonneg (wf : ScatterDims.WF ⟨1, ![N]⟩ ⟨2, ![R, 1]⟩ ⟨1, ![R]⟩ [] [0] [0] 1)
    (sc : ScatterDims ⟨1, ![N]⟩ ⟨2, ![R, 1]⟩ ⟨1, ![R]⟩) (hsc : sc = vecScatterDims N R wf)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1)) (dst : ICol R)
    (i : (⟨1, ![N]⟩ : Shape).Idx) : ∃ r : ℝ, 0 ≤ r ∧ degOf sc hbN hbR dst i = (r : EReal) := by
  unfold degOf
  rw [scatter_const_eq wf sc hsc hbN hbR]
  exact countAt_one_nonneg dst i

/-- The graph sizes: from zero, a one added at the graph of every node, then raised to at least one. -/
def cntOf (sc : ScatterDims ⟨1, ![G]⟩ ⟨2, ![N, 1]⟩ ⟨1, ![N]⟩)
    (hbG : (⟨0, ![]⟩ : Shape).BroadcastsInDim ⟨1, ![G]⟩ (![] : Fin 0 → Fin 1))
    (hbN : (⟨0, ![]⟩ : Shape).BroadcastsInDim ⟨1, ![N]⟩ (![] : Fin 0 → Fin 1)) (batch : ICol N) : Vc G :=
  maximumf (F := Ideal)
    (Host.scatterAdd (F := Ideal) sc
      (broadcastInDim ⟨1, ![G]⟩ ![] hbG (constant (F := Ideal) ⟨0, ![]⟩ .f32 0x00000000#32)) batch
      (broadcastInDim ⟨1, ![N]⟩ ![] hbN (constant (F := Ideal) ⟨0, ![]⟩ .f32 0x3F800000#32)))
    (broadcastInDim ⟨1, ![G]⟩ ![] hbG (constant (F := Ideal) ⟨0, ![]⟩ .f32 0x3F800000#32))

end Cert.Gcn

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«139987_j50337016709803_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.KerBody.lean ====
/-
  The six kernel bodies, each as ONE function of its three loaded blocks over the extended reals. A change of float
  format is the identity there, a product accumulated into a zero splat is the product, a one-row block broadcast
  down the rows lays its row along every row, and a one-column block broadcast along the rows scales every row by
  its entry. The first body is the input layer on a block of rows; the second and fourth multiply a block of rows
  by a weight matrix and scale every row; the third and fifth scale every row of a block, add the bias and cut at
  zero; the sixth is the head on its one block.
-/
import proofs.«139987_j50337016709803_2_alg».proof.Proof.Gen.KernelIdeal.Skeleton
import proofs.«139987_j50337016709803_2_alg».proof.Proof.LibGcnNet
import proofs.«139987_j50337016709803_2_alg».proof.Proof.LibRowBlocks

noncomputable section

namespace Cert.KernelIdeal.Body

open Cert.KernelIdeal Cert.KernelIdeal.Gen Idealize.ShloMosaic Idealize.ShloMosaic.ValueIdx
  Cert.DenseLib Cert.LayoutLib Cert.Sage Cert.Gcn

/-- A one-column block broadcast along the rows and multiplied in scales every row by the column's entry. -/
theorem mulf_col_eq_scaleRows {M C : ℕ} (X : FVec Ideal ⟨2, ![M, C]⟩ .f32) (D : FVec Ideal ⟨2, ![M, 1]⟩ .f32)
    (h : (⟨2, ![M, 1]⟩ : Shape).Broadcasts ⟨2, ![M, C]⟩) :
    mulf X (broadcastTo ⟨2, ![M, C]⟩ D h) = scaleRows (colVec D) X := by
  funext i
  obtain ⟨p, q, rfl⟩ : ∃ (p : Fin M) (q : Fin C), i = ix2 p q := ⟨i 0, i 1, eq_ix2 i⟩
  show X (ix2 p q) * broadcastTo ⟨2, ![M, C]⟩ D h (ix2 p q) = X (ix2 p q) * D (ix2 p (0 : Fin 1))
  rw [broadcastTo_col_apply]

/-- Body 0: the input layer on a block of a thousand rows. -/
theorem pay0_eq (x : Vec Ideal S1000x256 .f32) (W : Vec Ideal S256x256 .f32) (b : Vec Ideal S1x256 .f32) :
    k0_pay1 (F := Ideal) x W b = layer0 (N := 1000) x W (rowVec b) := by
  unfold k0_pay1
  show maximumf (addf (matmul dot_S1000x256_S256x256_S1000x256_1_0_0_1_n_n none x W (constant S1000x256 .f32 0x00000000#32))
      (broadcastTo S1000x256 (shapeCast S1x256 b shapeCasts_S1x256_S1x256) broadcasts_S1x256_S1000x256))
      (broadcast S1000x256 (Scalar.ofBits (F := Ideal) .f32 0x00000000#32)) = _
  rw [matmul_eq_mm dot_S1000x256_S256x256_S1000x256_1_0_0_1_n_n rfl, shapeCast_self, broadcastTo_eq_rows, maximumf_splat_zero]
  rfl

/-- Bodies 1 and 3: a block of rows times the weights, every row scaled. -/
theorem pay1_eq (x : Vec Ideal S1000x256 .f32) (W : Vec Ideal S256x256 .f32) (d : Vec Ideal S1000x1 .f32) :
    k1_pay1 (F := Ideal) x W d = scaleRows (colVec (N := 1000) d) (mm (M := 1000) x W) := by
  unfold k1_pay1
  show mulf (F := Ideal) (matmul (F := Ideal) dot_S1000x256_S256x256_S1000x256_1_0_0_1_n_n none (shapeCast S1000x256 x shapeCasts_S1000x256_S1000x256) W
      (constant S1000x256 .f32 0x00000000#32))
      (broadcastTo S1000x256 (shapeCast S1000x1 d shapeCasts_S1000x1_S1000x1) broadcasts_S1000x1_S1000x256) = _
  rw [shapeCast_self, shapeCast_self, matmul_eq_mm dot_S1000x256_S256x256_S1000x256_1_0_0_1_n_n rfl, mulf_col_eq_scaleRows]

theorem pay3_eq (x : Vec Ideal S1000x256 .f32) (W : Vec Ideal S256x256 .f32) (d : Vec Ideal S1000x1 .f32) :
    k3_pay1 (F := Ideal) x W d = scaleRows (colVec (N := 1000) d) (mm (M := 1000) x W) := by
  unfold k3_pay1
  show mulf (F := Ideal) (matmul (F := Ideal) dot_S1000x256_S256x256_S1000x256_1_0_0_1_n_n none (shapeCast S1000x256 x shapeCasts_S1000x256_S1000x256) W
      (constant S1000x256 .f32 0x00000000#32))
      (broadcastTo S1000x256 (shapeCast S1000x1 d shapeCasts_S1000x1_S1000x1) broadcasts_S1000x1_S1000x256) = _
  rw [shapeCast_self, shapeCast_self, matmul_eq_mm dot_S1000x256_S256x256_S1000x256_1_0_0_1_n_n rfl, mulf_col_eq_scaleRows]

/-- Bodies 2 and 4: every row of a block scaled, the bias added, the cut at zero. -/
theorem pay2_eq (x : Vec Ideal S1000x256 .f32) (d : Vec Ideal S1000x1 .f32) (b : Vec Ideal S1x256 .f32) :
    k2_pay1 (F := Ideal) x d b = relu (plus (scaleRows (colVec (N := 1000) d) x) (vrows (M := 1000) (rowVec b))) := by
  unfold k2_pay1
  show maximumf (addf (mulf (shapeCast S1000x256 x shapeCasts_S1000x256_S1000x256)
        (broadcastTo S1000x256 (shapeCast S1000x1 d shapeCasts_S1000x1_S1000x1) broadcasts_S1000x1_S1000x256))
      (broadcastTo S1000x256 (shapeCast S1x256 b shapeCasts_S1x256_S1x256) broadcasts_S1x256_S1000x256))
      (broadcast S1000x256 (Scalar.ofBits (F := Ideal) .f32 0x00000000#32)) = _
  rw [shapeCast_self, shapeCast_self, shapeCast_self, mulf_col_eq_scaleRows, broadcastTo_eq_rows, maximumf_splat_zero]
  rfl

theorem pay4_eq (x : Vec Ideal S1000x256 .f32) (d : Vec Ideal S1000x1 .f32) (b : Vec Ideal S1x256 .f32) :
    k4_pay1 (F := Ideal) x d b = relu (plus (scaleRows (colVec (N := 1000) d) x) (vrows (M := 1000) (rowVec b))) := by
  unfold k4_pay1
  show maximumf (addf (mulf (shapeCast S1000x256 x shapeCasts_S1000x256_S1000x256)
        (broadcastTo S1000x256 (shapeCast S1000x1 d shapeCasts_S1000x1_S1000x1) broadcasts_S1000x1_S1000x256))
      (broadcastTo S1000x256 (shapeCast S1x256 b shapeCasts_S1x256_S1x256) broadcasts_S1x256_S1000x256))
      (broadcast S1000x256 (Scalar.ofBits (F := Ideal) .f32 0x00000000#32)) = _
  rw [shapeCast_self, shapeCast_self, shapeCast_self, mulf_col_eq_scaleRows, broadcastTo_eq_rows, maximumf_splat_zero]
  rfl

/-- Body 5: the head on the pooled block. -/
theorem pay5_eq (x : Vec Ideal S64x256 .f32) (W : Vec Ideal S256x256 .f32) (b : Vec Ideal S1x256 .f32) :
    k5_pay1 (F := Ideal) x W b = head (G := 64) x W (rowVec b) := by
  unfold k5_pay1
  show addf (F := Ideal) (matmul (F := Ideal) dot_S64x256_S256x256_S64x256_1_0_0_1_n_n none (shapeCast S64x256 x shapeCasts_S64x256_S64x256) W
      (constant S64x256 .f32 0x00000000#32))
      (broadcastTo S64x256 (shapeCast S1x256 b shapeCasts_S1x256_S1x256) broadcasts_S1x256_S64x256) = _
  rw [shapeCast_self, shapeCast_self, matmul_eq_mm dot_S64x256_S256x256_S64x256_1_0_0_1_n_n rfl, broadcastTo_eq_rows]
  rfl

end Cert.KernelIdeal.Body

end
-- ==== Proof.LibGcnRows.lean ====
/-
  Row locality of the network's stages: row p of the input layer, of a product scaled per row, of a scaled array
  with bias cut at zero, and of the head depends only on row p of the array it is applied to (and on that row's
  scale). So a block of consecutive rows of a result is the same function of that block of rows, which lets a
  result computed block by block be read as one function of the whole array. No program is mentioned.
-/
import proofs.«139987_j50337016709803_2_alg».proof.Proof.LibGcnNet
import proofs.«139987_j50337016709803_2_alg».proof.Proof.LibRowBlocks

noncomputable section

namespace Cert.Gcn

open Idealize.ShloMosaic Idealize.ShloMosaic.ValueIdx Cert.DenseLib Cert.LayoutLib Cert.Sage Cert.RowBlocks

variable {M M' K C : ℕ}

/-- An entry of the input layer is determined by its row of the features. -/
theorem layer0_eq_of_row (X' : Mat M' K) (W' : Mat K C) (b' : Vc C) (X : Mat M K) (W : Mat K C) (b : Vc C)
    (j : (⟨2, ![M', C]⟩ : Shape).Idx) (i : (⟨2, ![M, C]⟩ : Shape).Idx) (hw : W' = W) (hb : b' = b)
    (hq : (j 1).val = (i 1).val)
    (hx : ∀ k : Fin K, X' (ix2 (n0 := M') (j 0) k) = X (ix2 (n0 := M) (i 0) k)) :
    layer0 X' W' b' j = layer0 X W b i := by
  subst hb
  exact congrArg (fun z => max z 0)
    (biased_eq_of_entry (mm X' W') (fun c => b' (ix1 c)) (mm X W) (fun c => b' (ix1 c)) j i rfl hq
      (mm_eq_of_row X' W' X W j i hw hq hx))

/-- An entry of a product scaled per row is determined by its row of the left operand and that row's scale. -/
theorem scaleMm_eq_of_row (X' : Mat M' K) (W' : Mat K C) (d' : Vc M') (X : Mat M K) (W : Mat K C) (d : Vc M)
    (j : (⟨2, ![M', C]⟩ : Shape).Idx) (i : (⟨2, ![M, C]⟩ : Shape).Idx) (hw : W' = W)
    (hq : (j 1).val = (i 1).val) (hd : d' (ix1 (n := M') (j 0)) = d (ix1 (n := M) (i 0)))
    (hx : ∀ k : Fin K, X' (ix2 (n0 := M') (j 0) k) = X (ix2 (n0 := M) (i 0) k)) :
    scaleRows d' (mm X' W') j = scaleRows d (mm X W) i := by
  show mm X' W' j * d' (ix1 (n := M') (j 0)) = mm X W i * d (ix1 (n := M) (i 0))
  rw [mm_eq_of_row X' W' X W j i hw hq hx, hd]

/-- An entry of a scaled array with bias, cut at zero, is determined by that entry, its row's scale and its column's bias. -/
theorem scaleBiasRelu_eq_of_entry (A' : Mat M' C) (d' : Vc M') (b' : Vc C) (A : Mat M C) (d : Vc M) (b : Vc C)
    (j : (⟨2, ![M', C]⟩ : Shape).Idx) (i : (⟨2, ![M, C]⟩ : Shape).Idx) (hb : b' = b)
    (hq : (j 1).val = (i 1).val) (hd : d' (ix1 (n := M') (j 0)) = d (ix1 (n := M) (i 0))) (hx : A' j = A i) :
    relu (plus (scaleRows d' A') (vrows b')) j = relu (plus (scaleRows d A) (vrows b)) i := by
  subst hb
  show max (A' j * d' (ix1 (n := M') (j 0)) + b' (ix1 (n := C) (j 1))) 0
    = max (A i * d (ix1 (n := M) (i 0)) + b' (ix1 (n := C) (i 1))) 0
  have e : (j 1 : Fin C) = i 1 := Fin.ext hq
  rw [hx, hd, e]

/-- An entry of the head is determined by its row of the pooled features. -/
theorem head_eq_of_row (P' : Mat M' K) (W' : Mat K C) (b' : Vc C) (P : Mat M K) (W : Mat K C) (b : Vc C)
    (j : (⟨2, ![M', C]⟩ : Shape).Idx) (i : (⟨2, ![M, C]⟩ : Shape).Idx) (hw : W' = W) (hb : b' = b)
    (hq : (j 1).val = (i 1).val)
    (hx : ∀ k : Fin K, P' (ix2 (n0 := M') (j 0) k) = P (ix2 (n0 := M) (i 0) k)) :
    head P' W' b' j = head P W b i := by
  subst hb
  exact biased_eq_of_entry (mm P' W') (fun c => b' (ix1 c)) (mm P W) (fun c => b' (ix1 c)) j i rfl hq
    (mm_eq_of_row P' W' P W j i hw hq hx)

end Cert.Gcn

end
-- ==== Proof.KerRegion0.lean ====
/-
  Region 0 (the input layer over blocks of a thousand rows), read as one function of the arrays it finds: point t
  of the grid loads rows 1000·t … 1000·t + 999 of the features, the whole weight matrix and the one-row bias, and
  writes back those rows of the result; the ten blocks tile the ten thousand rows, so the result array ends holding
  the input layer of the whole feature array.
-/
import proofs.«139987_j50337016709803_2_alg».proof.Proof.Gen.KernelIdeal.Frame
import proofs.«139987_j50337016709803_2_alg».proof.Proof.KerBody
import proofs.«139987_j50337016709803_2_alg».proof.Proof.LibGcnRows

set_option maxRecDepth 16384

noncomputable section

namespace Cert.KernelIdeal.Region0

open Cert.KernelIdeal Cert.KernelIdeal.Gen Cert.KernelIdeal.Body
open Idealize.ShloMosaic Idealize.ShloMosaic.TcCoe Idealize.ShloMosaic.ValueIdx Idealize.SL.Sem
open Cert.DenseLib Cert.LayoutLib Cert.Sage Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and result blocks move together down the rows, every other
    block index is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every block of rows is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What the array ends holding. -/
abbrev G (c : Dev nD) : Mat 10000 256 := layer0 (N := 10000) (V c main_arg0) (V c main_arg3) (rowVec (V c main_v16))

/-- WHAT POINT t WRITES BACK is block t of the input layer of the whole arrays. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S1000x256) hz, View.ld_unit_zero (S := S256x256) hz, View.ld_unit_zero (S := S1x256) hz]
  rw [pay0_eq]
  obtain ⟨e00, e01, e10, e11, e20, e21, e31, -⟩ := idx_facts t
  funext j
  show layer0 (N := 1000) (iblk0 V c 0 t) (iblk0 V c 1 t) (rowVec (iblk0 V c 2 t)) j
    = layer0 (N := 10000) (V c main_arg0) (V c main_arg3) (rowVec (V c main_v16)) (((cfg0.win 3).blk t).view.emb j)
  refine layer0_eq_of_row _ _ _ _ _ _ j _ ?_ ?_ ?_ ?_
  · funext y
    show V c main_arg3 (((cfg0.win 1).blk t).view.emb y) = V c main_arg3 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  · funext q
    show V c main_v16 (((cfg0.win 2).blk t).view.emb (ix2 (0 : Fin 1) (q 0))) = V c main_v16 (ix2 (0 : Fin 1) (q 0))
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * (q 0).val = (q 0).val; omega
  · show (j 1).val = win0_3.index t (1 : Fin 2) * 256 + 1 * (j 1).val
    omega
  · intro k
    show V c main_arg0 (((cfg0.win 0).blk t).view.emb (ix2 (j 0) k)) = V c main_arg0 (ix2 ((((cfg0.win 3).blk t).view.emb j) 0) k)
    refine congrArg _ (funext fun a => Fin.ext ?_)
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 256 + 1 * k.val = k.val; omega

/-- An index of the array is in point t's block iff each coordinate is in the block's range on its axis. -/
theorem mem_blk (t : Fin cfg0.N) (i : S10000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v17).slice (win0_3.rect t)).set ↔ _
  rw [View.set_slice_whole, Rect.mem_set_unit]
  exact Iff.rfl

/-- The ten blocks tile the array: row r is in the block of point r / 1000. -/
theorem cover (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ := idx_onto ⟨(i 0).val / 1000, by omega⟩
  have q0 : win0_3.index t (0 : Fin 2) = (i 0).val / 1000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 256 ≤ (i 1).val ∧ (i 1).val < win0_3.index t (1 : Fin 2) * 256 + 256; omega

/-- THE RESULT ARRAY after region 0: the input layer of the arrays the region finds. -/
theorem final (c : Dev nD) : (dat0 (F := Ideal) V c).arrAt 3 cfg0.N = G V c :=
  (dat0 (F := Ideal) V c).arrAt_eq_of_cover 3 (G V c) (fun t _ => flushed_eq V c t) (cover)

end Cert.KernelIdeal.Region0

end
-- ==== Proof.KerRegion1.lean ====
/-
  Region 1 (first convolution's weights, over blocks of a thousand rows): point t loads rows 1000·t … 1000·t + 999 of the
  hidden features and of the scale column and the whole weight matrix, and writes back those rows of the product with
  every row scaled by its scale; the ten blocks tile the rows, so the result array ends holding the scaled product of
  the whole arrays.
-/
import proofs.«139987_j50337016709803_2_alg».proof.Proof.Gen.KernelIdeal.Frame
import proofs.«139987_j50337016709803_2_alg».proof.Proof.KerBody
import proofs.«139987_j50337016709803_2_alg».proof.Proof.LibGcnRows

set_option maxRecDepth 16384

noncomputable section

namespace Cert.KernelIdeal.Region1

open Cert.KernelIdeal Cert.KernelIdeal.Gen Cert.KernelIdeal.Body
open Idealize.ShloMosaic Idealize.ShloMosaic.TcCoe Idealize.ShloMosaic.ValueIdx Idealize.SL.Sem
open Cert.DenseLib Cert.LayoutLib Cert.Sage Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: which blocks move down the rows with the result's block, and which stay. -/
theorem idx_facts : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) ≤ 9 :=
  (by decide +kernel : ∀ t : Fin grid1.N, _)

/-- Every block of rows is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What the array ends holding. -/
abbrev G (c : Dev nD) : Mat 10000 256 := scaleRows (colVec (V c main_v15)) (mm (M := 10000) (V c main_v17) (V c main_arg5))

/-- WHAT POINT t WRITES BACK is block t of that function of the whole arrays. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 (F := Ideal) V c).after 3 t) = _
  rw [after1_3]
  unfold out1_3
  rw [View.canon_unit_zero hz]
  simp only [View.ld_unit_zero (S := S1000x256) hz, View.ld_unit_zero (S := S256x256) hz, View.ld_unit_zero (S := S1000x1) hz]
  rw [pay1_eq]
  obtain ⟨e00, e01, e10, e11, e20, e21, e31, -⟩ := idx_facts t
  funext j
  show scaleRows (colVec (N := 1000) (iblk1 V c 2 t)) (mm (M := 1000) (iblk1 V c 0 t) (iblk1 V c 1 t)) j
    = G V c (((cfg1.win 3).blk t).view.emb j)
  refine scaleMm_eq_of_row _ _ _ _ _ _ j _ ?_ ?_ ?_ ?_
  · funext y
    show V c main_arg5 (((cfg1.win 1).blk t).view.emb y) = V c main_arg5 y
    refine congrArg _ (funext fun a => Fin.ext ?_)
    match a with
    | ⟨0, _⟩ => show win1_1.index t (0 : Fin 2) * 256 + 1 * (y 0).val = (y 0).val; omega
    | ⟨1, _⟩ => show win1_1.index t (1 : Fin 2) * 256 + 1 * (y 1).val = (y 1).val; omega
  · show (j 1).val = win1_3.index t (1 : Fin 2) * 256 + 1 * (j 1).val
    omega
  · show V c main_v15 (((cfg1.win 2).blk t).view.emb (ix2 (j 0) (0 : Fin 1))) = V c main_v15 (ix2 ((((cfg1.win 3).blk t).view.emb j) 0) (0 : Fin 1))
    refine congrArg _ (funext fun a => Fin.ext ?_)
    match a with
    | ⟨0, _⟩ => show win1_2.index t (0 : Fin 2) * 1000 + 1 * (j 0).val = win1_3.index t (0 : Fin 2) * 1000 + 1 * (j 0).val; omega
    | ⟨1, _⟩ => show win1_2.index t (1 : Fin 2) * 1 + 1 * 0 = 0; omega
  · intro k
    show V c main_v17 (((cfg1.win 0).blk t).view.emb (ix2 (j 0) k)) = V c main_v17 (ix2 ((((cfg1.win 3).blk t).view.emb j) 0) k)
    refine congrArg _ (funext fun a => Fin.ext ?_)
    match a with
    | ⟨0, _⟩ => show win1_0.index t (0 : Fin 2) * 1000 + 1 * (j 0).val = win1_3.index t (0 : Fin 2) * 1000 + 1 * (j 0).val; omega
    | ⟨1, _⟩ => show win1_0.index t (1 : Fin 2) * 256 + 1 * k.val = k.val; omega

/-- An index of the array is in point t's block iff each coordinate is in the block's range on its axis. -/
theorem mem_blk (t : Fin cfg1.N) (i : S10000x256.Idx) :
    i ∈ ((cfg1.win 3).blk t).view.set ↔ ∀ a : Fin 2, win1_3.index t a * S1000x256.size a ≤ (i a).val ∧ (i a).val < win1_3.index t a * S1000x256.size a + S1000x256.size a := by
  show i ∈ ((View.whole main_v18).slice (win1_3.rect t)).set ↔ _
  rw [View.set_slice_whole, Rect.mem_set_unit]
  exact Iff.rfl

/-- The blocks tile the array: row r is in the block of point r / 1000. -/
theorem cover (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  obtain ⟨t, ht⟩ := idx_onto ⟨(i 0).val / 1000, by omega⟩
  have q0 : win1_3.index t (0 : Fin 2) = (i 0).val / 1000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 256 ≤ (i 1).val ∧ (i 1).val < win1_3.index t (1 : Fin 2) * 256 + 256; omega

/-- THE RESULT ARRAY after the region: that function of the arrays the region finds. -/
theorem final (c : Dev nD) : (dat1 (F := Ideal) V c).arrAt 3 cfg1.N = G V c :=
  (dat1 (F := Ideal) V c).arrAt_eq_of_cover 3 (G V c) (fun t _ => flushed_eq V c t) (cover)

end Cert.KernelIdeal.Region1

end
-- ==== Proof.KerRegion2.lean ====
/-
  Region 2 (first convolution's epilogue, over blocks of a thousand rows): point t loads rows 1000·t … 1000·t + 999 of
  the aggregate and of the scale column and the one-row bias, and writes back those rows scaled, shifted by the bias
  and cut at zero; the ten blocks tile the rows, so the result array is that function of the whole arrays.
-/
import proofs.«139987_j50337016709803_2_alg».proof.Proof.Gen.KernelIdeal.Frame
import proofs.«139987_j50337016709803_2_alg».proof.Proof.KerBody
import proofs.«139987_j50337016709803_2_alg».proof.Proof.LibGcnRows

set_option maxRecDepth 16384

noncomputable section

namespace Cert.KernelIdeal.Region2

open Cert.KernelIdeal Cert.KernelIdeal.Gen Cert.KernelIdeal.Body
open Idealize.ShloMosaic Idealize.ShloMosaic.TcCoe Idealize.ShloMosaic.ValueIdx Idealize.SL.Sem
open Cert.DenseLib Cert.LayoutLib Cert.Sage Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: which blocks move down the rows with the result's block, and which stay. -/
theorem idx_facts : ∀ t : Fin cfg2.N, win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every block of rows is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What the array ends holding. -/
abbrev G (c : Dev nD) : Mat 10000 256 := relu (plus (scaleRows (colVec (V c main_v15)) (V c main_v28 : Mat 10000 256)) (vrows (M := 10000) (rowVec (V c main_v29))))

/-- WHAT POINT t WRITES BACK is block t of that function of the whole arrays. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 (F := Ideal) V c).after 3 t) = _
  rw [after2_3]
  unfold out2_3
  rw [View.canon_unit_zero hz]
  simp only [View.ld_unit_zero (S := S1000x256) hz, View.ld_unit_zero (S := S1000x1) hz, View.ld_unit_zero (S := S1x256) hz]
  rw [pay2_eq]
  obtain ⟨e00, e01, e10, e11, e20, e21, e31, -⟩ := idx_facts t
  funext j
  show relu (plus (scaleRows (colVec (N := 1000) (iblk2 V c 1 t)) (iblk2 V c 0 t : Mat 1000 256)) (vrows (M := 1000) (rowVec (iblk2 V c 2 t)))) j
    = G V c (((cfg2.win 3).blk t).view.emb j)
  refine scaleBiasRelu_eq_of_entry _ _ _ _ _ _ j _ ?_ ?_ ?_ ?_
  · funext q
    show V c main_v29 (((cfg2.win 2).blk t).view.emb (ix2 (0 : Fin 1) (q 0))) = V c main_v29 (ix2 (0 : Fin 1) (q 0))
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * (q 0).val = (q 0).val; omega
  · show (j 1).val = win2_3.index t (1 : Fin 2) * 256 + 1 * (j 1).val
    omega
  · show V c main_v15 (((cfg2.win 1).blk t).view.emb (ix2 (j 0) (0 : Fin 1))) = V c main_v15 (ix2 ((((cfg2.win 3).blk t).view.emb j) 0) (0 : Fin 1))
    refine congrArg _ (funext fun a => Fin.ext ?_)
    match a with
    | ⟨0, _⟩ => show win2_1.index t (0 : Fin 2) * 1000 + 1 * (j 0).val = win2_3.index t (0 : Fin 2) * 1000 + 1 * (j 0).val; omega
    | ⟨1, _⟩ => show win2_1.index t (1 : Fin 2) * 1 + 1 * 0 = 0; omega
  · show V c main_v28 (((cfg2.win 0).blk t).view.emb j) = V c main_v28 (((cfg2.win 3).blk t).view.emb j)
    refine congrArg _ (funext fun a => Fin.ext ?_)
    match a with
    | ⟨0, _⟩ => show win2_0.index t (0 : Fin 2) * 1000 + 1 * (j 0).val = win2_3.index t (0 : Fin 2) * 1000 + 1 * (j 0).val; omega
    | ⟨1, _⟩ => show win2_0.index t (1 : Fin 2) * 256 + 1 * (j 1).val = win2_3.index t (1 : Fin 2) * 256 + 1 * (j 1).val; omega

/-- An index of the array is in point t's block iff each coordinate is in the block's range on its axis. -/
theorem mem_blk (t : Fin cfg2.N) (i : S10000x256.Idx) :
    i ∈ ((cfg2.win 3).blk t).view.set ↔ ∀ a : Fin 2, win2_3.index t a * S1000x256.size a ≤ (i a).val ∧ (i a).val < win2_3.index t a * S1000x256.size a + S1000x256.size a := by
  show i ∈ ((View.whole main_v30).slice (win2_3.rect t)).set ↔ _
  rw [View.set_slice_whole, Rect.mem_set_unit]
  exact Iff.rfl

/-- The blocks tile the array: row r is in the block of point r / 1000. -/
theorem cover (i : S10000x256.Idx) :
    ∃ t : Fin cfg2.N, (cfg2.win 3).flush t = true ∧ i ∈ ((cfg2.win 3).blk t).view.set := by
  have hi0 : (i 0).val < 10000 := (i 0).isLt
  have hi1 : (i 1).val < 256 := (i 1).isLt
  obtain ⟨t, ht⟩ := idx_onto ⟨(i 0).val / 1000, by omega⟩
  have q0 : win2_3.index t (0 : Fin 2) = (i 0).val / 1000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 256 ≤ (i 1).val ∧ (i 1).val < win2_3.index t (1 : Fin 2) * 256 + 256; omega

/-- THE RESULT ARRAY after the region: that function of the arrays the region finds. -/
theorem final (c : Dev nD) : (dat2 (F := Ideal) V c).arrAt 3 cfg2.N = G V c :=
  (dat2 (F := Ideal) V c).arrAt_eq_of_cover 3 (G V c) (fun t _ => flushed_eq V c t) (cover)

end Cert.KernelIdeal.Region2

end
-- ==== Proof.KerRegion3.lean ====
/-
  Region 3 (second convolution's weights, over blocks of a thousand rows): as for the first convolution, the result
  array ends holding the product of the whole hidden features with the weights, every row scaled by its scale.
-/
import proofs.«139987_j50337016709803_2_alg».proof.Proof.Gen.KernelIdeal.Frame
import proofs.«139987_j50337016709803_2_alg».proof.Proof.KerBody
import proofs.«139987_j50337016709803_2_alg».proof.Proof.LibGcnRows

set_option maxRecDepth 16384

noncomputable section

namespace Cert.KernelIdeal.Region3

open Cert.KernelIdeal Cert.KernelIdeal.Gen Cert.KernelIdeal.Body
open Idealize.ShloMosaic Idealize.ShloMosaic.TcCoe Idealize.ShloMosaic.ValueIdx Idealize.SL.Sem
open Cert.DenseLib Cert.LayoutLib Cert.Sage Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: which blocks move down the rows with the result's block, and which stay. -/
theorem idx_facts : ∀ t : Fin cfg3.N, win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = win3_3.index t (0 : Fin 2) ∧ win3_2.index t (1 : Fin 2) = 0
    ∧ win3_3.index t (1 : Fin 2) = 0 ∧ win3_3.index t (0 : Fin 2) ≤ 9 :=
  (by decide +kernel : ∀ t : Fin grid3.N, _)

/-- Every block of rows is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

/-- What the array ends holding. -/
abbrev G (c : Dev nD) : Mat 10000 256 := scaleRows (colVec (V c main_v15)) (mm (M := 10000) (V c main_v30) (V c main_arg7))

/-- WHAT POINT t WRITES BACK is block t of that function of the whole arrays. -/
theorem flushed_eq (c : Dev nD) (t : Fin cfg3.N) :
    (dat3 (F := Ideal) V c).flushed 3 t = ((cfg3.win 3).blk t).view.read (Elt Ideal) (G V c) := by
  show (cfg3.win 3).cut (grid3.coords t) ((dat3 (F := Ideal) V c).after 3 t) = _
  rw [after3_3]
  unfold out3_3
  rw [View.canon_unit_zero hz]
  simp only [View.ld_unit_zero (S := S1000x256) hz, View.ld_unit_zero (S := S256x256) hz, View.ld_unit_zero (S := S1000x1) hz]
  rw [pay3_eq]
  obtain ⟨e00, e01, e10, e11, e20, e21, e31, -⟩ := idx_facts t
  funext j
  show scaleRows (colVec (N := 1000) (iblk3 V c 2 t)) (mm (M := 1000) (iblk3 V c 0 t) (iblk3 V c 1 t)) j
    = G V c (((cfg3.win 3).blk t).view.emb j)
  refine scaleMm_eq_of_row _ _ _ _ _ _ j _ ?_ ?_ ?_ ?_
  · funext y
    show V c main_arg7 (((cfg3.win 1).blk t).view.emb y) = V c main_arg7 y
    refine congrArg _ (funext fun a => Fin.ext ?_)
    match a with
    | ⟨0, _⟩ => show win3_1.index t (0 : Fin 2) * 256 + 1 * (y 0).val = (y 0).val; omega
    | ⟨1, _⟩ => show win3_1.index t (1 : Fin 2) * 256 + 1 * (y 1).val = (y 1).val; omega
  · show (j 1).val = win3_3.index t (1 : Fin 2) * 256 + 1 * (j 1).val
    omega
  · show V c main_v15 (((cfg3.win 2).blk t).view.emb (ix2 (j 0) (0 : Fin 1))) = V c main_v15 (ix2 ((((cfg3.win 3).blk t).view.emb j) 0) (0 : Fin 1))
    refine congrArg _ (funext fun a => Fin.ext ?_)
    match a with
    | ⟨0, _⟩ => show win3_2.index t (0 : Fin 2) * 1000 + 1 * (j 0).val = win3_3.index t (0 : Fin 2) * 1000 + 1 * (j 0).val; omega
    | ⟨1, _⟩ => show win3_2.index t (1 : Fin 2) * 1 + 1 * 0 = 0; omega
  · intro k
    show V c main_v30 (((cfg3.win 0).blk t).view.emb (ix2 (j 0) k)) = V c main_v30 (ix2 ((((cfg3.win 3).blk t).view.emb j) 0) k)
    refine congrArg _ (funext fun a => Fin.ext ?_)
    match a with
    | ⟨0, _⟩ => show win3_0.index t (0 : Fin 2) * 1000 + 1 * (j 0).val = win3_3.index t (0 : Fin 2) * 1000 + 1 * (j 0).val; omega
    | ⟨1, _⟩ => show win3_0.index t (1 : Fin 2) * 256 + 1 * k.val = k.val; omega

/-- An index of the array is in point t's block iff each coordinate is in the block's range on its axis. -/
theorem mem_blk (t : Fin cfg3.N) (i : S10000x256.Idx) :
    i ∈ ((cfg3.win 3).blk t).view.set ↔ ∀ a : Fin 2, win3_3.index t a * S1000x256.size a ≤ (i a).val ∧ (i a).val < win3_3.index t a * S1000x256.size a + S1000x256.size a := by
  show i ∈ ((View.whole main_v31).slice (win3_3.rect t)).set ↔ _
  rw [View.set_slice_whole, Rect.mem_set_unit]
  exact Iff.rfl

/-- The blocks tile the array: row r is in the block of point r / 1000. -/
theorem cover (i : S10000x256.Idx) :
    ∃ t : Fin cfg3.N, (cfg3.win 3).flush t = true ∧ i ∈ ((cfg3.win 3).blk t).view.set := by
  have hi0 : (i 0).val < 10000 := (i 0).isLt
  have hi1 : (i 1).val < 256 := (i 1).isLt
  obtain ⟨t, ht⟩ := idx_onto ⟨(i 0).val / 1000, by omega⟩
  have q0 : win3_3.index t (0 : Fin 2) = (i 0).val / 1000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 1000 ≤ (i 0).val ∧ (i 0).val < win3_3.index t (0 : Fin 2) * 1000 + 1000; omega
  | ⟨1, _⟩ => show win3_3.index t (1 : Fin 2) * 256 ≤ (i 1).val ∧ (i 1).val < win3_3.index t (1 : Fin 2) * 256 + 256; omega

/-- THE RESULT ARRAY after the region: that function of the arrays the region finds. -/
theorem final (c : Dev nD) : (dat3 (F := Ideal) V c).arrAt 3 cfg3.N = G V c :=
  (dat3 (F := Ideal) V c).arrAt_eq_of_cover 3 (G V c) (fun t _ => flushed_eq V c t) (cover)

end Cert.KernelIdeal.Region3

end
-- ==== Proof.KerRegion4.lean ====
/-
  Region 4 (second convolution's epilogue, over blocks of a thousand rows): as for the first convolution, the result
  array ends holding the aggregate scaled per row, shifted by the bias and cut at zero.
-/
import proofs.«139987_j50337016709803_2_alg».proof.Proof.Gen.KernelIdeal.Frame
import proofs.«139987_j50337016709803_2_alg».proof.Proof.KerBody
import proofs.«139987_j50337016709803_2_alg».proof.Proof.LibGcnRows

set_option maxRecDepth 16384

noncomputable section

namespace Cert.KernelIdeal.Region4

open Cert.KernelIdeal Cert.KernelIdeal.Gen Cert.KernelIdeal.Body
open Idealize.ShloMosaic Idealize.ShloMosaic.TcCoe Idealize.ShloMosaic.ValueIdx Idealize.SL.Sem
open Cert.DenseLib Cert.LayoutLib Cert.Sage Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: which blocks move down the rows with the result's block, and which stay. -/
theorem idx_facts : ∀ t : Fin cfg4.N, win4_0.index t (0 : Fin 2) = win4_3.index t (0 : Fin 2) ∧ win4_0.index t (1 : Fin 2) = 0
    ∧ win4_1.index t (0 : Fin 2) = win4_3.index t (0 : Fin 2) ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every block of rows is some point's. -/
theorem idx_onto : ∀ q0 : Fin 10, ∃ t : Fin cfg4.N, win4_3.index t = ![q0.val, 0] :=
  (by decide +kernel : ∀ q0 : Fin 10, ∃ t : Fin grid4.N, win4_3.index t = ![q0.val, 0])

/-- What the array ends holding. -/
abbrev G (c : Dev nD) : Mat 10000 256 := relu (plus (scaleRows (colVec (V c main_v15)) (V c main_v41 : Mat 10000 256)) (vrows (M := 10000) (rowVec (V c main_v42))))

/-- WHAT POINT t WRITES BACK is block t of that function of the whole arrays. -/
theorem flushed_eq (c : Dev nD) (t : Fin cfg4.N) :
    (dat4 (F := Ideal) V c).flushed 3 t = ((cfg4.win 3).blk t).view.read (Elt Ideal) (G V c) := by
  show (cfg4.win 3).cut (grid4.coords t) ((dat4 (F := Ideal) V c).after 3 t) = _
  rw [after4_3]
  unfold out4_3
  rw [View.canon_unit_zero hz]
  simp only [View.ld_unit_zero (S := S1000x256) hz, View.ld_unit_zero (S := S1000x1) hz, View.ld_unit_zero (S := S1x256) hz]
  rw [pay4_eq]
  obtain ⟨e00, e01, e10, e11, e20, e21, e31, -⟩ := idx_facts t
  funext j
  show relu (plus (scaleRows (colVec (N := 1000) (iblk4 V c 1 t)) (iblk4 V c 0 t : Mat 1000 256)) (vrows (M := 1000) (rowVec (iblk4 V c 2 t)))) j
    = G V c (((cfg4.win 3).blk t).view.emb j)
  refine scaleBiasRelu_eq_of_entry _ _ _ _ _ _ j _ ?_ ?_ ?_ ?_
  · funext q
    show V c main_v42 (((cfg4.win 2).blk t).view.emb (ix2 (0 : Fin 1) (q 0))) = V c main_v42 (ix2 (0 : Fin 1) (q 0))
    refine congrArg _ (funext fun a => Fin.ext ?_)
    match a with
    | ⟨0, _⟩ => show win4_2.index t (0 : Fin 2) * 1 + 1 * 0 = 0; omega
    | ⟨1, _⟩ => show win4_2.index t (1 : Fin 2) * 256 + 1 * (q 0).val = (q 0).val; omega
  · show (j 1).val = win4_3.index t (1 : Fin 2) * 256 + 1 * (j 1).val
    omega
  · show V c main_v15 (((cfg4.win 1).blk t).view.emb (ix2 (j 0) (0 : Fin 1))) = V c main_v15 (ix2 ((((cfg4.win 3).blk t).view.emb j) 0) (0 : Fin 1))
    refine congrArg _ (funext fun a => Fin.ext ?_)
    match a with
    | ⟨0, _⟩ => show win4_1.index t (0 : Fin 2) * 1000 + 1 * (j 0).val = win4_3.index t (0 : Fin 2) * 1000 + 1 * (j 0).val; omega
    | ⟨1, _⟩ => show win4_1.index t (1 : Fin 2) * 1 + 1 * 0 = 0; omega
  · show V c main_v41 (((cfg4.win 0).blk t).view.emb j) = V c main_v41 (((cfg4.win 3).blk t).view.emb j)
    refine congrArg _ (funext fun a => Fin.ext ?_)
    match a with
    | ⟨0, _⟩ => show win4_0.index t (0 : Fin 2) * 1000 + 1 * (j 0).val = win4_3.index t (0 : Fin 2) * 1000 + 1 * (j 0).val; omega
    | ⟨1, _⟩ => show win4_0.index t (1 : Fin 2) * 256 + 1 * (j 1).val = win4_3.index t (1 : Fin 2) * 256 + 1 * (j 1).val; omega

/-- An index of the array is in point t's block iff each coordinate is in the block's range on its axis. -/
theorem mem_blk (t : Fin cfg4.N) (i : S10000x256.Idx) :
    i ∈ ((cfg4.win 3).blk t).view.set ↔ ∀ a : Fin 2, win4_3.index t a * S1000x256.size a ≤ (i a).val ∧ (i a).val < win4_3.index t a * S1000x256.size a + S1000x256.size a := by
  show i ∈ ((View.whole main_v43).slice (win4_3.rect t)).set ↔ _
  rw [View.set_slice_whole, Rect.mem_set_unit]
  exact Iff.rfl

/-- The blocks tile the array: row r is in the block of point r / 1000. -/
theorem cover (i : S10000x256.Idx) :
    ∃ t : Fin cfg4.N, (cfg4.win 3).flush t = true ∧ i ∈ ((cfg4.win 3).blk t).view.set := by
  have hi0 : (i 0).val < 10000 := (i 0).isLt
  have hi1 : (i 1).val < 256 := (i 1).isLt
  obtain ⟨t, ht⟩ := idx_onto ⟨(i 0).val / 1000, by omega⟩
  have q0 : win4_3.index t (0 : Fin 2) = (i 0).val / 1000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 1000 ≤ (i 0).val ∧ (i 0).val < win4_3.index t (0 : Fin 2) * 1000 + 1000; omega
  | ⟨1, _⟩ => show win4_3.index t (1 : Fin 2) * 256 ≤ (i 1).val ∧ (i 1).val < win4_3.index t (1 : Fin 2) * 256 + 256; omega

/-- THE RESULT ARRAY after the region: that function of the arrays the region finds. -/
theorem final (c : Dev nD) : (dat4 (F := Ideal) V c).arrAt 3 cfg4.N = G V c :=
  (dat4 (F := Ideal) V c).arrAt_eq_of_cover 3 (G V c) (fun t _ => flushed_eq V c t) (cover)

end Cert.KernelIdeal.Region4

end
-- ==== Proof.KerRegion5.lean ====
/-
  Region 5 (the head on the pooled features): the grid has one point, whose blocks are the whole arrays; the result
  array ends holding the product of the pooled features with the weights plus the bias along every row.
-/
import proofs.«139987_j50337016709803_2_alg».proof.Proof.Gen.KernelIdeal.Frame
import proofs.«139987_j50337016709803_2_alg».proof.Proof.KerBody
import proofs.«139987_j50337016709803_2_alg».proof.Proof.LibGcnRows

set_option maxRecDepth 16384

noncomputable section

namespace Cert.KernelIdeal.Region5

open Cert.KernelIdeal Cert.KernelIdeal.Gen Cert.KernelIdeal.Body
open Idealize.ShloMosaic Idealize.ShloMosaic.TcCoe Idealize.ShloMosaic.ValueIdx Idealize.SL.Sem
open Cert.DenseLib Cert.LayoutLib Cert.Sage Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: which blocks move down the rows with the result's block, and which stay. -/
theorem idx_facts : ∀ t : Fin cfg5.N, win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) ≤ 0 :=
  (by decide +kernel : ∀ t : Fin grid5.N, _)

/-- Every block of rows is some point's. -/
theorem idx_onto : ∀ q0 : Fin 1, ∃ t : Fin cfg5.N, win5_3.index t = ![q0.val, 0] :=
  (by decide +kernel : ∀ q0 : Fin 1, ∃ t : Fin grid5.N, win5_3.index t = ![q0.val, 0])

/-- What the array ends holding. -/
abbrev G (c : Dev nD) : Mat 64 256 := head (G := 64) (V c main_v55) (V c main_arg9) (rowVec (V c main_v56))

/-- WHAT POINT t WRITES BACK is block t of that function of the whole arrays. -/
theorem flushed_eq (c : Dev nD) (t : Fin cfg5.N) :
    (dat5 (F := Ideal) V c).flushed 3 t = ((cfg5.win 3).blk t).view.read (Elt Ideal) (G V c) := by
  show (cfg5.win 3).cut (grid5.coords t) ((dat5 (F := Ideal) V c).after 3 t) = _
  rw [after5_3]
  unfold out5_3
  rw [View.canon_unit_zero hz]
  simp only [View.ld_unit_zero (S := S64x256) hz, View.ld_unit_zero (S := S256x256) hz, View.ld_unit_zero (S := S1x256) hz]
  rw [pay5_eq]
  obtain ⟨e00, e01, e10, e11, e20, e21, e31, -⟩ := idx_facts t
  funext j
  show head (G := 64) (iblk5 V c 0 t) (iblk5 V c 1 t) (rowVec (iblk5 V c 2 t)) j
    = G V c (((cfg5.win 3).blk t).view.emb j)
  refine head_eq_of_row _ _ _ _ _ _ j _ ?_ ?_ ?_ ?_
  · funext y
    show V c main_arg9 (((cfg5.win 1).blk t).view.emb y) = V c main_arg9 y
    refine congrArg _ (funext fun a => Fin.ext ?_)
    match a with
    | ⟨0, _⟩ => show win5_1.index t (0 : Fin 2) * 256 + 1 * (y 0).val = (y 0).val; omega
    | ⟨1, _⟩ => show win5_1.index t (1 : Fin 2) * 256 + 1 * (y 1).val = (y 1).val; omega
  · funext q
    show V c main_v56 (((cfg5.win 2).blk t).view.emb (ix2 (0 : Fin 1) (q 0))) = V c main_v56 (ix2 (0 : Fin 1) (q 0))
    refine congrArg _ (funext fun a => Fin.ext ?_)
    match a with
    | ⟨0, _⟩ => show win5_2.index t (0 : Fin 2) * 1 + 1 * 0 = 0; omega
    | ⟨1, _⟩ => show win5_2.index t (1 : Fin 2) * 256 + 1 * (q 0).val = (q 0).val; omega
  · show (j 1).val = win5_3.index t (1 : Fin 2) * 256 + 1 * (j 1).val
    omega
  · intro k
    show V c main_v55 (((cfg5.win 0).blk t).view.emb (ix2 (j 0) k)) = V c main_v55 (ix2 ((((cfg5.win 3).blk t).view.emb j) 0) k)
    refine congrArg _ (funext fun a => Fin.ext ?_)
    match a with
    | ⟨0, _⟩ => show win5_0.index t (0 : Fin 2) * 64 + 1 * (j 0).val = win5_3.index t (0 : Fin 2) * 64 + 1 * (j 0).val; omega
    | ⟨1, _⟩ => show win5_0.index t (1 : Fin 2) * 256 + 1 * k.val = k.val; omega

/-- An index of the array is in point t's block iff each coordinate is in the block's range on its axis. -/
theorem mem_blk (t : Fin cfg5.N) (i : S64x256.Idx) :
    i ∈ ((cfg5.win 3).blk t).view.set ↔ ∀ a : Fin 2, win5_3.index t a * S64x256.size a ≤ (i a).val ∧ (i a).val < win5_3.index t a * S64x256.size a + S64x256.size a := by
  show i ∈ ((View.whole main_v57).slice (win5_3.rect t)).set ↔ _
  rw [View.set_slice_whole, Rect.mem_set_unit]
  exact Iff.rfl

/-- The blocks tile the array: row r is in the block of point r / 64. -/
theorem cover (i : S64x256.Idx) :
    ∃ t : Fin cfg5.N, (cfg5.win 3).flush t = true ∧ i ∈ ((cfg5.win 3).blk t).view.set := by
  have hi0 : (i 0).val < 64 := (i 0).isLt
  have hi1 : (i 1).val < 256 := (i 1).isLt
  obtain ⟨t, ht⟩ := idx_onto ⟨(i 0).val / 64, by omega⟩
  have q0 : win5_3.index t (0 : Fin 2) = (i 0).val / 64 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 64 ≤ (i 0).val ∧ (i 0).val < win5_3.index t (0 : Fin 2) * 64 + 64; omega
  | ⟨1, _⟩ => show win5_3.index t (1 : Fin 2) * 256 ≤ (i 1).val ∧ (i 1).val < win5_3.index t (1 : Fin 2) * 256 + 256; omega

/-- THE RESULT ARRAY after the region: that function of the arrays the region finds. -/
theorem final (c : Dev nD) : (dat5 (F := Ideal) V c).arrAt 3 cfg5.N = G V c :=
  (dat5 (F := Ideal) V c).arrAt_eq_of_cover 3 (G V c) (fun t _ => flushed_eq V c t) (cover)

end Cert.KernelIdeal.Region5

end
-- ==== Proof.KerFold.lean ====
/-
  The contents of the idealized kernel's buffers at each of @main's twelve segment boundaries, walked from the launch
  memory to the result: the host stretches are read operation by operation, a region leaves its result array at its
  stage of the network applied to the arrays it found, and a buffer that a segment does not write is carried across
  it. At the last boundary the result array holds the network in its second arrangement (every row weighted by its
  node's scale before it is carried along the edges and again after the carried rows are summed) applied to the
  argument arrays.
-/
import proofs.«139987_j50337016709803_2_alg».proof.Proof.Gen.KernelIdeal.Frame
import proofs.«139987_j50337016709803_2_alg».proof.Proof.KerRegion0
import proofs.«139987_j50337016709803_2_alg».proof.Proof.KerRegion1
import proofs.«139987_j50337016709803_2_alg».proof.Proof.KerRegion2
import proofs.«139987_j50337016709803_2_alg».proof.Proof.KerRegion3
import proofs.«139987_j50337016709803_2_alg».proof.Proof.KerRegion4
import proofs.«139987_j50337016709803_2_alg».proof.Proof.KerRegion5
import proofs.«139987_j50337016709803_2_alg».proof.Proof.LibGcnNet
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem
open Cert.DenseLib Cert.LayoutLib Cert.RowsLib Cert.Sage Cert.Gcn

/-! ## The host terms over this program's own records -/

abbrev hN : 0 < 10000 := by decide
/-- The source indices followed by the nodes' own. -/
abbrev sE (x1 : IVec S2x320000 32) : IVc 330000 :=
  extIdx (E := 320000) (N := 10000) (R := 330000) 0 slices_S2x320000_S1x320000_0_0 shapeCasts_S1x320000_S320000 concatenates_S320000_S10000_S330000_d0 x1
/-- The destination indices followed by the nodes' own. -/
abbrev dE (x1 : IVec S2x320000 32) : IVc 330000 :=
  extIdx (E := 320000) (N := 10000) (R := 330000) 1 slices_S2x320000_S1x320000_1_0 shapeCasts_S1x320000_S320000 concatenates_S320000_S10000_S330000_d0 x1
abbrev srcw (x1 : IVec S2x320000 32) : ICol 330000 := wrapCol bcast_S330000_S330000x1_0 bcast_S_S330000 10000#32 (sE x1)
abbrev dstw (x1 : IVec S2x320000 32) : ICol 330000 := wrapCol bcast_S330000_S330000x1_0 bcast_S_S330000 10000#32 (dE x1)
abbrev dst (x1 : IVec S2x320000 32) : ICol 330000 := rawCol bcast_S330000_S330000x1_0 (dE x1)
/-- The scale: the reciprocal root of the degree. -/
abbrev dinv (x1 : IVec S2x320000 32) : Vc 10000 :=
  dinvOf bcast_S_S10000 (degOf scatter_S10000_S330000x1_S330000_n_0_0_1 bcast_S_S10000 bcast_S_S330000 (dst x1))
abbrev bcol (x2 : IVec S10000 32) : ICol 10000 := rawCol bcast_S10000_S10000x1_0 x2
/-- The graph sizes, at least one. -/
abbrev cnt (x2 : IVec S10000 32) : Vc 64 := cntOf scatter_S64_S10000x1_S10000_n_0_0_1 bcast_S_S64 bcast_S_S10000 (bcol x2)

/-- A vector recast as one row, read back as a vector, is the vector. -/
theorem rowVec_shapeCast {C : ℕ} (b : Vc C) (h : (⟨1, ![C]⟩ : Shape).ShapeCasts ⟨2, ![1, C]⟩) :
    rowVec (shapeCast ⟨2, ![1, C]⟩ b h) = b := by
  funext j
  obtain ⟨q, rfl⟩ : ∃ q : Fin C, j = ix1 q := ⟨j 0, eq_ix1 j⟩
  exact Cert.RowBlocks.shapeCast_vecRow_apply b h 0 q

/-- A vector recast as one column, read back as a vector, is the vector. -/
theorem colVec_shapeCast {N : ℕ} (d : Vc N) (h : (⟨1, ![N]⟩ : Shape).ShapeCasts ⟨2, ![N, 1]⟩) :
    colVec (shapeCast ⟨2, ![N, 1]⟩ d h) = d := by
  funext j
  obtain ⟨p, rfl⟩ : ∃ p : Fin N, j = ix1 p := ⟨j 0, eq_ix1 j⟩
  exact shapeCast_col_apply d h p 0

variable (m : (ℓ : Loc nD τ sig) → Buf (Elt Ideal) ℓ) (ρ : Dev nD → PrngReg)

/-! ## Buffers carried across segments that do not write them -/

theorem W0_arg1 (c : Dev nD) : W0 m ρ c (Proc.devRef .tc main_arg1) = m ((c.tc : Thread nD τ).loc main_arg1) :=
  rfl

theorem W2_arg4 (c : Dev nD) : W2 m ρ c (Proc.devRef .tc main_arg4) = m ((c.tc : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg4) := rfl

theorem W3_arg0 (c : Dev nD) : W3 m ρ c (Proc.devRef .tc main_arg0) = m ((c.tc : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl

theorem W3_arg3 (c : Dev nD) : W3 m ρ c (Proc.devRef .tc main_arg3) = m ((c.tc : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl

theorem W4_arg5 (c : Dev nD) : W4 m ρ c (Proc.devRef .tc main_arg5) = m ((c.tc : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg5) := rfl

theorem W5_arg6 (c : Dev nD) : W5 m ρ c (Proc.devRef .tc main_arg6) = m ((c.tc : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg6) := rfl

theorem W7_arg7 (c : Dev nD) : W7 m ρ c (Proc.devRef .tc main_arg7) = m ((c.tc : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg7) := rfl

theorem W8_arg8 (c : Dev nD) : W8 m ρ c (Proc.devRef .tc main_arg8) = m ((c.tc : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg8) := rfl

theorem W10_arg2 (c : Dev nD) : W10 m ρ c (Proc.devRef .tc main_arg2) = m ((c.tc : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

theorem W10_arg10 (c : Dev nD) : W10 m ρ c (Proc.devRef .tc main_arg10) = m ((c.tc : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg10) := rfl

theorem W11_arg9 (c : Dev nD) : W11 m ρ c (Proc.devRef .tc main_arg9) = m ((c.tc : Thread nD τ).loc main_arg9) :=
  calc W11 m ρ c (Proc.devRef .tc main_arg9)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg9) := rfl

theorem W5_v5_of_W1 (c : Dev nD) : W5 m ρ c (Proc.devRef .tc main_v5) = W1 m ρ c (Proc.devRef .tc main_v5) :=
  calc W5 m ρ c (Proc.devRef .tc main_v5)
    _ = W4 m ρ c (Proc.devRef .tc main_v5) := W5_of_ne m ρ c main_v5 (by decide)
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := StableHlo.after_of_forall_not_mem (b := Proc.devRef .tc main_v5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_v6_of_W1 (c : Dev nD) : W5 m ρ c (Proc.devRef .tc main_v6) = W1 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_v5_of_W5 (c : Dev nD) : W8 m ρ c (Proc.devRef .tc main_v5) = W5 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := W7_of_ne m ρ c main_v5 (by decide)
    _ = W5 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_v6_of_W5 (c : Dev nD) : W8 m ρ c (Proc.devRef .tc main_v6) = W5 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := W7_of_ne m ρ c main_v6 (by decide)
    _ = W5 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_v15_of_W3 (c : Dev nD) : W4 m ρ c (Proc.devRef .tc main_v15) = W3 m ρ c (Proc.devRef .tc main_v15) :=
  calc W4 m ρ c (Proc.devRef .tc main_v15)
    _ = W3 m ρ c (Proc.devRef .tc main_v15) := W4_of_ne m ρ c main_v15 (by decide)

theorem W6_v15_of_W4 (c : Dev nD) : W6 m ρ c (Proc.devRef .tc main_v15) = W4 m ρ c (Proc.devRef .tc main_v15) :=
  calc W6 m ρ c (Proc.devRef .tc main_v15)
    _ = W5 m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v15) := (W5_arr m ρ c 2).trans (((dat1 (V4 m ρ) c).arrAt_in 2 rfl _).trans (A_eq1 (V4 m ρ) c 2))

theorem W7_v15_of_W6 (c : Dev nD) : W7 m ρ c (Proc.devRef .tc main_v15) = W6 m ρ c (Proc.devRef .tc main_v15) :=
  calc W7 m ρ c (Proc.devRef .tc main_v15)
    _ = W6 m ρ c (Proc.devRef .tc main_v15) := (W7_arr m ρ c 1).trans (((dat2 (V6 m ρ) c).arrAt_in 1 rfl _).trans (A_eq2 (V6 m ρ) c 1))

theorem W9_v15_of_W7 (c : Dev nD) : W9 m ρ c (Proc.devRef .tc main_v15) = W7 m ρ c (Proc.devRef .tc main_v15) :=
  calc W9 m ρ c (Proc.devRef .tc main_v15)
    _ = W8 m ρ c (Proc.devRef .tc main_v15) := StableHlo.after_of_forall_not_mem (b := Proc.devRef .tc main_v15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v15) := (W8_arr m ρ c 2).trans (((dat3 (V7 m ρ) c).arrAt_in 2 rfl _).trans (A_eq3 (V7 m ρ) c 2))

/-! ## The index vectors and the scale, from the first three host stretches -/

theorem W1_v5 (c : Dev nD) : W1 m ρ c (Proc.devRef .tc main_v5) = sE (m ((c.tc : Thread nD τ).loc main_arg1)) := by
  show StableHlo.after hostOps0 (W0 m ρ c) (Proc.devRef .tc main_v5) = _
  after_results
  rfl

theorem W1_v6 (c : Dev nD) : W1 m ρ c (Proc.devRef .tc main_v6) = dE (m ((c.tc : Thread nD τ).loc main_arg1)) := by
  show StableHlo.after hostOps0 (W0 m ρ c) (Proc.devRef .tc main_v6) = _
  after_results
  rfl

theorem W1_v12 (c : Dev nD) : W1 m ρ c (Proc.devRef .tc main_v12)
    = cmpf (F := Ideal) .ogt (degOf scatter_S10000_S330000x1_S330000_n_0_0_1 bcast_S_S10000 bcast_S_S330000 (dst (m ((c.tc : Thread nD τ).loc main_arg1))) : FVec Ideal S10000 .f32)
        (broadcastInDim S10000 ![] bcast_S_S10000 (constant (F := Ideal) S_ .f32 0x00000000#32)) := by
  show StableHlo.after hostOps0 (W0 m ρ c) (Proc.devRef .tc main_v12) = _
  after_results
  rfl

theorem W1_v13 (c : Dev nD) : W1 m ρ c (Proc.devRef .tc main_v13)
    = Host.rsqrt (F := Ideal) (φ := .f32) (degOf scatter_S10000_S330000x1_S330000_n_0_0_1 bcast_S_S10000 bcast_S_S330000 (dst (m ((c.tc : Thread nD τ).loc main_arg1))) : FVec Ideal S10000 .f32) := by
  show StableHlo.after hostOps0 (W0 m ρ c) (Proc.devRef .tc main_v13) = _
  after_results
  rfl

theorem W1_cst2 (c : Dev nD) : W1 m ρ c (Proc.devRef .tc main_cst_2) = constant (F := Ideal) S_ .f32 0x00000000#32 := by
  show StableHlo.after hostOps0 (W0 m ρ c) (Proc.devRef .tc main_cst_2) = _
  after_results

theorem W2_v14 (c : Dev nD) : W2 m ρ c (Proc.devRef .tc main_v14)
    = dinv (m ((c.tc : Thread nD τ).loc main_arg1)) := by
  have e1 := W1_v12 m ρ c
  have e2 := W1_v13 m ρ c
  have e3 := W1_cst2 m ρ c
  generalize hR : (dinv (m ((c.tc : Thread nD τ).loc main_arg1))) = R
  show StableHlo.after hostOps0_1 (W1 m ρ c) (Proc.devRef .tc main_v14) = R
  generalize W1 m ρ c = Wp at e1 e2 e3 ⊢
  after_results
  rw [e1, e2, e3, ← hR]
  simp only [StableHlo.TRef.toBuf, StableHlo.TRef.ofBuf, cast_eq, id_eq]
  rfl

theorem W3_v15 (c : Dev nD) : W3 m ρ c (Proc.devRef .tc main_v15)
    = shapeCast S10000x1 (dinv (m ((c.tc : Thread nD τ).loc main_arg1))) shapeCasts_S10000_S10000x1 := by
  have e1 := W2_v14 m ρ c
  generalize hR : (shapeCast S10000x1 (dinv (m ((c.tc : Thread nD τ).loc main_arg1))) shapeCasts_S10000_S10000x1) = R
  show StableHlo.after hostOps0_2 (W2 m ρ c) (Proc.devRef .tc main_v15) = R
  generalize W2 m ρ c = Wp at e1 ⊢
  after_results
  rw [e1, ← hR]
  rfl

theorem W3_v16 (c : Dev nD) : W3 m ρ c (Proc.devRef .tc main_v16)
    = shapeCast S1x256 (m ((c.tc : Thread nD τ).loc main_arg4)) shapeCasts_S256_S1x256 := by
  have e1 := W2_arg4 m ρ c
  generalize hR : (shapeCast S1x256 (m ((c.tc : Thread nD τ).loc main_arg4)) shapeCasts_S256_S1x256) = R
  show StableHlo.after hostOps0_2 (W2 m ρ c) (Proc.devRef .tc main_v16) = R
  generalize W2 m ρ c = Wp at e1 ⊢
  after_results
  rw [e1, ← hR]
  rfl

/-! ## The layers -/

/-- The input layer of the features. -/
abbrev H0 (c : Dev nD) : Mat 10000 256 := layer0 (N := 10000) (m ((c.tc : Thread nD τ).loc main_arg0)) (m ((c.tc : Thread nD τ).loc main_arg3)) (m ((c.tc : Thread nD τ).loc main_arg4))

theorem W4_v17 (c : Dev nD) : W4 m ρ c (Proc.devRef .tc main_v17) = H0 m c :=
  (W4_arr m ρ c 3).trans ((Region0.final (V3 m ρ) c).trans (by
    show layer0 (N := 10000) (W3 m ρ c (Proc.devRef .tc main_arg0)) (W3 m ρ c (Proc.devRef .tc main_arg3)) (rowVec (W3 m ρ c (Proc.devRef .tc main_v16))) = _
    rw [W3_arg0, W3_arg3, W3_v16, rowVec_shapeCast]))

theorem W4_v15 (c : Dev nD) : W4 m ρ c (Proc.devRef .tc main_v15) = shapeCast S10000x1 (dinv (m ((c.tc : Thread nD τ).loc main_arg1))) shapeCasts_S10000_S10000x1 :=
  (W4_v15_of_W3 m ρ c).trans (W3_v15 m ρ c)
theorem W6_v15 (c : Dev nD) : W6 m ρ c (Proc.devRef .tc main_v15) = shapeCast S10000x1 (dinv (m ((c.tc : Thread nD τ).loc main_arg1))) shapeCasts_S10000_S10000x1 :=
  (W6_v15_of_W4 m ρ c).trans (W4_v15 m ρ c)
theorem W7_v15 (c : Dev nD) : W7 m ρ c (Proc.devRef .tc main_v15) = shapeCast S10000x1 (dinv (m ((c.tc : Thread nD τ).loc main_arg1))) shapeCasts_S10000_S10000x1 :=
  (W7_v15_of_W6 m ρ c).trans (W6_v15 m ρ c)
theorem W9_v15 (c : Dev nD) : W9 m ρ c (Proc.devRef .tc main_v15) = shapeCast S10000x1 (dinv (m ((c.tc : Thread nD τ).loc main_arg1))) shapeCasts_S10000_S10000x1 :=
  (W9_v15_of_W7 m ρ c).trans (W7_v15 m ρ c)
theorem W5_v5 (c : Dev nD) : W5 m ρ c (Proc.devRef .tc main_v5) = sE (m ((c.tc : Thread nD τ).loc main_arg1)) := (W5_v5_of_W1 m ρ c).trans (W1_v5 m ρ c)
theorem W5_v6 (c : Dev nD) : W5 m ρ c (Proc.devRef .tc main_v6) = dE (m ((c.tc : Thread nD τ).loc main_arg1)) := (W5_v6_of_W1 m ρ c).trans (W1_v6 m ρ c)
theorem W8_v5 (c : Dev nD) : W8 m ρ c (Proc.devRef .tc main_v5) = sE (m ((c.tc : Thread nD τ).loc main_arg1)) := (W8_v5_of_W5 m ρ c).trans (W5_v5 m ρ c)
theorem W8_v6 (c : Dev nD) : W8 m ρ c (Proc.devRef .tc main_v6) = dE (m ((c.tc : Thread nD τ).loc main_arg1)) := (W8_v6_of_W5 m ρ c).trans (W5_v6 m ρ c)

/-- The hidden features times the first convolution's weights, every row scaled. -/
theorem W5_v18 (c : Dev nD) : W5 m ρ c (Proc.devRef .tc main_v18) = scaleRows (dinv (m ((c.tc : Thread nD τ).loc main_arg1))) (mm (M := 10000) (H0 m c) (m ((c.tc : Thread nD τ).loc main_arg5))) :=
  (W5_arr m ρ c 3).trans ((Region1.final (V4 m ρ) c).trans (by
    show scaleRows (colVec (W4 m ρ c (Proc.devRef .tc main_v15))) (mm (M := 10000) (W4 m ρ c (Proc.devRef .tc main_v17)) (W4 m ρ c (Proc.devRef .tc main_arg5))) = _
    rw [W4_v15, W4_v17, W4_arg5, colVec_shapeCast]))

/-- The scaled rows carried along the edges and summed per destination. -/
theorem W6_v28 (c : Dev nD) : W6 m ρ c (Proc.devRef .tc main_v28)
    = segSum (N := 10000) (dst (m ((c.tc : Thread nD τ).loc main_arg1))) (takeRows hN (srcw (m ((c.tc : Thread nD τ).loc main_arg1))) (scaleRows (dinv (m ((c.tc : Thread nD τ).loc main_arg1))) (mm (M := 10000) (H0 m c) (m ((c.tc : Thread nD τ).loc main_arg5))))) := by
  have e1 := W5_v18 m ρ c
  have e2 := W5_v5 m ρ c
  have e3 := W5_v6 m ρ c
  generalize hR : (segSum (N := 10000) (dst (m ((c.tc : Thread nD τ).loc main_arg1))) (takeRows hN (srcw (m ((c.tc : Thread nD τ).loc main_arg1))) (scaleRows (dinv (m ((c.tc : Thread nD τ).loc main_arg1))) (mm (M := 10000) (H0 m c) (m ((c.tc : Thread nD τ).loc main_arg5)))))) = R
  show StableHlo.after hostOps2 (W5 m ρ c) (Proc.devRef .tc main_v28) = R
  generalize W5 m ρ c = Wp at e1 e2 e3 ⊢
  after_results
  rw [e1, e2, e3, ← hR]
  exact hostCarry_eq hN gather_S10000x256_S330000x1_S330000x256_1_0_n_n_0_1_1256.wf _ rfl
    scatter_S10000x256_S330000x1_S330000x256_1_0_0_1.wf _ rfl bcast_S_S10000x256 _ (srcw (m ((c.tc : Thread nD τ).loc main_arg1))) (dst (m ((c.tc : Thread nD τ).loc main_arg1)))

theorem W6_v29 (c : Dev nD) : W6 m ρ c (Proc.devRef .tc main_v29) = shapeCast S1x256 (m ((c.tc : Thread nD τ).loc main_arg6)) shapeCasts_S256_S1x256 := by
  show StableHlo.after hostOps2 (W5 m ρ c) (Proc.devRef .tc main_v29) = _
  after_results
  rw [W5_arg6]
  rfl

/-- The first convolution. -/
abbrev H1 (c : Dev nD) : Mat 10000 256 := convNode hN (srcw (m ((c.tc : Thread nD τ).loc main_arg1))) (dst (m ((c.tc : Thread nD τ).loc main_arg1))) (dinv (m ((c.tc : Thread nD τ).loc main_arg1))) (H0 m c) (m ((c.tc : Thread nD τ).loc main_arg5)) (m ((c.tc : Thread nD τ).loc main_arg6))

theorem W7_v30 (c : Dev nD) : W7 m ρ c (Proc.devRef .tc main_v30) = H1 m c :=
  (W7_arr m ρ c 3).trans ((Region2.final (V6 m ρ) c).trans (by
    show relu (plus (scaleRows (colVec (W6 m ρ c (Proc.devRef .tc main_v15))) (W6 m ρ c (Proc.devRef .tc main_v28) : Mat 10000 256)) (vrows (M := 10000) (rowVec (W6 m ρ c (Proc.devRef .tc main_v29))))) = _
    rw [W6_v15, W6_v28, W6_v29, colVec_shapeCast, rowVec_shapeCast]
    rfl))

theorem W8_v31 (c : Dev nD) : W8 m ρ c (Proc.devRef .tc main_v31) = scaleRows (dinv (m ((c.tc : Thread nD τ).loc main_arg1))) (mm (M := 10000) (H1 m c) (m ((c.tc : Thread nD τ).loc main_arg7))) :=
  (W8_arr m ρ c 3).trans ((Region3.final (V7 m ρ) c).trans (by
    show scaleRows (colVec (W7 m ρ c (Proc.devRef .tc main_v15))) (mm (M := 10000) (W7 m ρ c (Proc.devRef .tc main_v30)) (W7 m ρ c (Proc.devRef .tc main_arg7))) = _
    rw [W7_v15, W7_v30, W7_arg7, colVec_shapeCast]))

theorem W9_v41 (c : Dev nD) : W9 m ρ c (Proc.devRef .tc main_v41)
    = segSum (N := 10000) (dst (m ((c.tc : Thread nD τ).loc main_arg1))) (takeRows hN (srcw (m ((c.tc : Thread nD τ).loc main_arg1))) (scaleRows (dinv (m ((c.tc : Thread nD τ).loc main_arg1))) (mm (M := 10000) (H1 m c) (m ((c.tc : Thread nD τ).loc main_arg7))))) := by
  have e1 := W8_v31 m ρ c
  have e2 := W8_v5 m ρ c
  have e3 := W8_v6 m ρ c
  generalize hR : (segSum (N := 10000) (dst (m ((c.tc : Thread nD τ).loc main_arg1))) (takeRows hN (srcw (m ((c.tc : Thread nD τ).loc main_arg1))) (scaleRows (dinv (m ((c.tc : Thread nD τ).loc main_arg1))) (mm (M := 10000) (H1 m c) (m ((c.tc : Thread nD τ).loc main_arg7)))))) = R
  show StableHlo.after hostOps4 (W8 m ρ c) (Proc.devRef .tc main_v41) = R
  generalize W8 m ρ c = Wp at e1 e2 e3 ⊢
  after_results
  rw [e1, e2, e3, ← hR]
  exact hostCarry_eq hN gather_S10000x256_S330000x1_S330000x256_1_0_n_n_0_1_1256.wf _ rfl
    scatter_S10000x256_S330000x1_S330000x256_1_0_0_1.wf _ rfl bcast_S_S10000x256 _ (srcw (m ((c.tc : Thread nD τ).loc main_arg1))) (dst (m ((c.tc : Thread nD τ).loc main_arg1)))

theorem W9_v42 (c : Dev nD) : W9 m ρ c (Proc.devRef .tc main_v42) = shapeCast S1x256 (m ((c.tc : Thread nD τ).loc main_arg8)) shapeCasts_S256_S1x256 := by
  show StableHlo.after hostOps4 (W8 m ρ c) (Proc.devRef .tc main_v42) = _
  after_results
  rw [W8_arg8]
  rfl

/-- The second convolution. -/
abbrev H2 (c : Dev nD) : Mat 10000 256 := convNode hN (srcw (m ((c.tc : Thread nD τ).loc main_arg1))) (dst (m ((c.tc : Thread nD τ).loc main_arg1))) (dinv (m ((c.tc : Thread nD τ).loc main_arg1))) (H1 m c) (m ((c.tc : Thread nD τ).loc main_arg7)) (m ((c.tc : Thread nD τ).loc main_arg8))

theorem W10_v43 (c : Dev nD) : W10 m ρ c (Proc.devRef .tc main_v43) = H2 m c :=
  (W10_arr m ρ c 3).trans ((Region4.final (V9 m ρ) c).trans (by
    show relu (plus (scaleRows (colVec (W9 m ρ c (Proc.devRef .tc main_v15))) (W9 m ρ c (Proc.devRef .tc main_v41) : Mat 10000 256)) (vrows (M := 10000) (rowVec (W9 m ρ c (Proc.devRef .tc main_v42))))) = _
    rw [W9_v15, W9_v41, W9_v42, colVec_shapeCast, rowVec_shapeCast]
    rfl))

/-- The mean over graphs. -/
theorem W11_v55 (c : Dev nD) : W11 m ρ c (Proc.devRef .tc main_v55)
    = pool (G := 64) (bcol (m ((c.tc : Thread nD τ).loc main_arg2))) (cnt (m ((c.tc : Thread nD τ).loc main_arg2))) (H2 m c) := by
  have e1 := W10_v43 m ρ c
  have e2 := W10_arg2 m ρ c
  generalize hR : (pool (G := 64) (bcol (m ((c.tc : Thread nD τ).loc main_arg2))) (cnt (m ((c.tc : Thread nD τ).loc main_arg2))) (H2 m c)) = R
  show StableHlo.after hostOps5 (W10 m ρ c) (Proc.devRef .tc main_v55) = R
  generalize W10 m ρ c = Wp at e1 e2 ⊢
  after_results
  rw [e1, e2, ← hR]
  exact hostPool_eq scatter_S64x256_S10000x1_S10000x256_1_0_0_1.wf _ rfl bcast_S_S64x256 bcast_S64_S64x1_0 bcast_S64x1_S64x256_0_1
    (bcol (m ((c.tc : Thread nD τ).loc main_arg2))) (cnt (m ((c.tc : Thread nD τ).loc main_arg2))) (H2 m c)

theorem W11_v56 (c : Dev nD) : W11 m ρ c (Proc.devRef .tc main_v56) = shapeCast S1x256 (m ((c.tc : Thread nD τ).loc main_arg10)) shapeCasts_S256_S1x256 := by
  show StableHlo.after hostOps5 (W10 m ρ c) (Proc.devRef .tc main_v56) = _
  after_results
  rw [W10_arg10]
  rfl

/-- THE RESULT at the last boundary: the network, second arrangement, of the argument arrays. -/
theorem W12_v57 (c : Dev nD) : W12 m ρ c (Proc.devRef .tc main_v57)
    = netNode hN (srcw (m ((c.tc : Thread nD τ).loc main_arg1))) (dst (m ((c.tc : Thread nD τ).loc main_arg1))) (dinv (m ((c.tc : Thread nD τ).loc main_arg1))) (bcol (m ((c.tc : Thread nD τ).loc main_arg2))) (cnt (m ((c.tc : Thread nD τ).loc main_arg2)))
        (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W12_arr m ρ c 3).trans ((Region5.final (V11 m ρ) c).trans (by
    show head (G := 64) (W11 m ρ c (Proc.devRef .tc main_v55)) (W11 m ρ c (Proc.devRef .tc main_arg9)) (rowVec (W11 m ρ c (Proc.devRef .tc main_v56))) = _
    rw [W11_v55, W11_arg9, W11_v56, rowVec_shapeCast]
    rfl))

end Cert.KernelIdeal.Fold

end
-- ==== Proof.RefRun.lean ====
/-
  The reference program's run, read back: its @main is a list of 149 host operations (an outlined function's
  operations standing in its call's place), every weakly fair execution of it terminates, and the result buffer ends
  at the operations' composed term of the argument arrays while the arguments end unchanged. The composed term is
  named `refTerm`, a function of the eleven argument arrays. The float comparison that selects the reciprocal root of
  the degree carries its float instance explicitly: its operands are built from constants only, so nothing else
  determines it.
-/
import proofs.«139987_j50337016709803_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 149 operations, in order (a called function's operations stand in its call's place, spelt `TRef.…`). -/
abbrev ops : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    binary main_arg0 main_arg3 main_v4 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    unary main_arg4 main_v5 (broadcastInDim S1x256 ![1] bcast_S256_S1x256_1 : (⟨S256, .f32⟩ : BufTy).Contents (Elt F) → (⟨S1x256, .f32⟩ : BufTy).Contents (Elt F)),
    unary main_v5 main_v6 (broadcastInDim S10000x256 ![0, 1] bcast_S1x256_S10000x256_0_1 : (⟨S1x256, .f32⟩ : BufTy).Contents (Elt F) → (⟨S10000x256, .f32⟩ : BufTy).Contents (Elt F)),
    binary main_v4 main_v6 main_v7 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x256, .f32⟩) main_call0_v0) (broadcastInDim S10000x256 ![] bcast_S_S10000x256),
    TRef.binary (TRef.of (T := ⟨S10000x256, .f32⟩) main_v7) (TRef.of (T := ⟨S10000x256, .f32⟩) main_call0_v0) (TRef.of (T := ⟨S10000x256, .f32⟩) main_v8) maximumf,
    binary main_v8 main_arg5 main_v9 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    nullary main_v10 (iotaInDim S10000 32 0),
    binary main_v1 main_v10 main_v11 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    binary main_v3 main_v10 main_v12 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    nullary main_cst (constant S_ .f32 0x3F800000#32),
    unary main_cst main_v13 (broadcastInDim S330000 ![] bcast_S_S330000 : (⟨S_, .f32⟩ : BufTy).Contents (Elt F) → (⟨S330000, .f32⟩ : BufTy).Contents (Elt F)),
    nullary main_cst_0 (constant S_ .f32 0x00000000#32),
    unary main_cst_0 main_v14 (broadcastInDim S10000 ![] bcast_S_S10000 : (⟨S_, .f32⟩ : BufTy).Contents (Elt F) → (⟨S10000, .f32⟩ : BufTy).Contents (Elt F)),
    unary main_v12 main_v15 (broadcastInDim S330000x1 ![0] bcast_S330000_S330000x1_0 : (⟨S330000, .i32⟩ : BufTy).Contents (Elt F) → (⟨S330000x1, .i32⟩ : BufTy).Contents (Elt F)),
    ternary main_v14 main_v15 main_v13 main_v16 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_1 (constant S_ .f32 0x00000000#32),
    unary main_cst_1 main_v17 (broadcastInDim S10000 ![] bcast_S_S10000 : (⟨S_, .f32⟩ : BufTy).Contents (Elt F) → (⟨S10000, .f32⟩ : BufTy).Contents (Elt F)),
    binary main_v16 main_v17 main_v18 (cmpf .ogt : (⟨S10000, .f32⟩ : BufTy).Contents (Elt F) → (⟨S10000, .f32⟩ : BufTy).Contents (Elt F) → (⟨S10000, .i1⟩ : BufTy).Contents (Elt F)),
    unary main_v16 main_v19 (Host.rsqrt : (⟨S10000, .f32⟩ : BufTy).Contents (Elt F) → (⟨S10000, .f32⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S10000, .f32⟩) main_call1_v1) (broadcastInDim S10000 ![] bcast_S_S10000),
    TRef.ternary (TRef.of (T := ⟨S10000, .i1⟩) main_v18) (TRef.of (T := ⟨S10000, .f32⟩) main_v19) (TRef.of (T := ⟨S10000, .f32⟩) main_call1_v1) (TRef.of (T := ⟨S10000, .f32⟩) main_v20) select,
    nullary main_c (constantI S_ 32 0#32),
    unary main_c main_v21 (broadcastInDim S330000 ![] bcast_S_S330000 : (⟨S_, .i32⟩ : BufTy).Contents (Elt F) → (⟨S330000, .i32⟩ : BufTy).Contents (Elt F)),
    binary main_v11 main_v21 main_v22 (cmpi .slt : (⟨S330000, .i32⟩ : BufTy).Contents (Elt F) → (⟨S330000, .i32⟩ : BufTy).Contents (Elt F) → (⟨S330000, .i1⟩ : BufTy).Contents (Elt F)),
    nullary main_c_3 (constantI S_ 32 10000#32),
    unary main_c_3 main_v23 (broadcastInDim S330000 ![] bcast_S_S330000 : (⟨S_, .i32⟩ : BufTy).Contents (Elt F) → (⟨S330000, .i32⟩ : BufTy).Contents (Elt F)),
    binary main_v11 main_v23 main_v24 (addi : (⟨S330000, .i32⟩ : BufTy).Contents (Elt F) → (⟨S330000, .i32⟩ : BufTy).Contents (Elt F) → (⟨S330000, .i32⟩ : BufTy).Contents (Elt F)),
    ternary main_v22 main_v24 main_v11 main_v25 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v25 main_v26 (broadcastInDim S330000x1 ![0] bcast_S330000_S330000x1_0 : (⟨S330000, .i32⟩ : BufTy).Contents (Elt F) → (⟨S330000x1, .i32⟩ : BufTy).Contents (Elt F)),
    binary main_v20 main_v26 main_v27 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_4 (constantI S_ 32 0#32),
    unary main_c_4 main_v28 (broadcastInDim S330000 ![] bcast_S_S330000 : (⟨S_, .i32⟩ : BufTy).Contents (Elt F) → (⟨S330000, .i32⟩ : BufTy).Contents (Elt F)),
    binary main_v12 main_v28 main_v29 (cmpi .slt : (⟨S330000, .i32⟩ : BufTy).Contents (Elt F) → (⟨S330000, .i32⟩ : BufTy).Contents (Elt F) → (⟨S330000, .i1⟩ : BufTy).Contents (Elt F)),
    nullary main_c_5 (constantI S_ 32 10000#32),
    unary main_c_5 main_v30 (broadcastInDim S330000 ![] bcast_S_S330000 : (⟨S_, .i32⟩ : BufTy).Contents (Elt F) → (⟨S330000, .i32⟩ : BufTy).Contents (Elt F)),
    binary main_v12 main_v30 main_v31 (addi : (⟨S330000, .i32⟩ : BufTy).Contents (Elt F) → (⟨S330000, .i32⟩ : BufTy).Contents (Elt F) → (⟨S330000, .i32⟩ : BufTy).Contents (Elt F)),
    ternary main_v29 main_v31 main_v12 main_v32 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v32 main_v33 (broadcastInDim S330000x1 ![0] bcast_S330000_S330000x1_0 : (⟨S330000, .i32⟩ : BufTy).Contents (Elt F) → (⟨S330000x1, .i32⟩ : BufTy).Contents (Elt F)),
    binary main_v20 main_v33 main_v34 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v27 main_v34 main_v35 (mulf : (⟨S330000, .f32⟩ : BufTy).Contents (Elt F) → (⟨S330000, .f32⟩ : BufTy).Contents (Elt F) → (⟨S330000, .f32⟩ : BufTy).Contents (Elt F)),
    nullary main_c_6 (constantI S_ 32 0#32),
    unary main_c_6 main_v36 (broadcastInDim S330000 ![] bcast_S_S330000 : (⟨S_, .i32⟩ : BufTy).Contents (Elt F) → (⟨S330000, .i32⟩ : BufTy).Contents (Elt F)),
    binary main_v11 main_v36 main_v37 (cmpi .slt : (⟨S330000, .i32⟩ : BufTy).Contents (Elt F) → (⟨S330000, .i32⟩ : BufTy).Contents (Elt F) → (⟨S330000, .i1⟩ : BufTy).Contents (Elt F)),
    nullary main_c_7 (constantI S_ 32 10000#32),
    unary main_c_7 main_v38 (broadcastInDim S330000 ![] bcast_S_S330000 : (⟨S_, .i32⟩ : BufTy).Contents (Elt F) → (⟨S330000, .i32⟩ : BufTy).Contents (Elt F)),
    binary main_v11 main_v38 main_v39 (addi : (⟨S330000, .i32⟩ : BufTy).Contents (Elt F) → (⟨S330000, .i32⟩ : BufTy).Contents (Elt F) → (⟨S330000, .i32⟩ : BufTy).Contents (Elt F)),
    ternary main_v37 main_v39 main_v11 main_v40 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v40 main_v41 (broadcastInDim S330000x1 ![0] bcast_S330000_S330000x1_0 : (⟨S330000, .i32⟩ : BufTy).Contents (Elt F) → (⟨S330000x1, .i32⟩ : BufTy).Contents (Elt F)),
    binary main_v9 main_v41 main_v42 ((fun x i => Host.gather gather_S10000x256_S330000x1_S330000x256_1_0_n_n_0_1_1256 x i) : (⟨S10000x256, .f32⟩ : BufTy).Contents (Elt F) → (⟨S330000x1, .i32⟩ : BufTy).Contents (Elt F) → (⟨S330000x256, .f32⟩ : BufTy).Contents (Elt F)),
    unary main_v35 main_v43 (broadcastInDim S330000x1 ![0] bcast_S330000_S330000x1_0 : (⟨S330000, .f32⟩ : BufTy).Contents (Elt F) → (⟨S330000x1, .f32⟩ : BufTy).Contents (Elt F)),
    unary main_v43 main_v44 (broadcastInDim S330000x256 ![0, 1] bcast_S330000x1_S330000x256_0_1 : (⟨S330000x1, .f32⟩ : BufTy).Contents (Elt F) → (⟨S330000x256, .f32⟩ : BufTy).Contents (Elt F)),
    binary main_v42 main_v44 main_v45 (mulf : (⟨S330000x256, .f32⟩ : BufTy).Contents (Elt F) → (⟨S330000x256, .f32⟩ : BufTy).Contents (Elt F) → (⟨S330000x256, .f32⟩ : BufTy).Contents (Elt F)),
    nullary main_cst_8 (constant S_ .f32 0x00000000#32),
    unary main_cst_8 main_v46 (broadcastInDim S10000x256 ![] bcast_S_S10000x256 : (⟨S_, .f32⟩ : BufTy).Contents (Elt F) → (⟨S10000x256, .f32⟩ : BufTy).Contents (Elt F)),
    unary main_v12 main_v47 (broadcastInDim S330000x1 ![0] bcast_S330000_S330000x1_0 : (⟨S330000, .i32⟩ : BufTy).Contents (Elt F) → (⟨S330000x1, .i32⟩ : BufTy).Contents (Elt F)),
    ternary main_v46 main_v47 main_v45 main_v48 ((fun x i u => Host.scatterAdd scatter_S10000x256_S330000x1_S330000x256_1_0_0_1 x i u) : (⟨S10000x256, .f32⟩ : BufTy).Contents (Elt F) → (⟨S330000x1, .i32⟩ : BufTy).Contents (Elt F) → (⟨S330000x256, .f32⟩ : BufTy).Contents (Elt F) → (⟨S10000x256, .f32⟩ : BufTy).Contents (Elt F)),
    unary main_arg6 main_v49 (broadcastInDim S1x256 ![1] bcast_S256_S1x256_1 : (⟨S256, .f32⟩ : BufTy).Contents (Elt F) → (⟨S1x256, .f32⟩ : BufTy).Contents (Elt F)),
    unary main_v49 main_v50 (broadcastInDim S10000x256 ![0, 1] bcast_S1x256_S10000x256_0_1 : (⟨S1x256, .f32⟩ : BufTy).Contents (Elt F) → (⟨S10000x256, .f32⟩ : BufTy).Contents (Elt F)),
    binary main_v48 main_v50 main_v51 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x256, .f32⟩) main_call2_v0) (broadcastInDim S10000x256 ![] bcast_S_S10000x256),
    TRef.binary (TRef.of (T := ⟨S10000x256, .f32⟩) main_v51) (TRef.of (T := ⟨S10000x256, .f32⟩) main_call2_v0) (TRef.of (T := ⟨S10000x256, .f32⟩) main_v52) maximumf,
    binary main_v52 main_arg7 main_v53 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    nullary main_v54 (iotaInDim S10000 32 0),
    binary main_v1 main_v54 main_v55 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    binary main_v3 main_v54 main_v56 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    nullary main_cst_9 (constant S_ .f32 0x3F800000#32),
    unary main_cst_9 main_v57 (broadcastInDim S330000 ![] bcast_S_S330000 : (⟨S_, .f32⟩ : BufTy).Contents (Elt F) → (⟨S330000, .f32⟩ : BufTy).Contents (Elt F)),
    nullary main_cst_10 (constant S_ .f32 0x00000000#32),
    unary main_cst_10 main_v58 (broadcastInDim S10000 ![] bcast_S_S10000 : (⟨S_, .f32⟩ : BufTy).Contents (Elt F) → (⟨S10000, .f32⟩ : BufTy).Contents (Elt F)),
    unary main_v56 main_v59 (broadcastInDim S330000x1 ![0] bcast_S330000_S330000x1_0 : (⟨S330000, .i32⟩ : BufTy).Contents (Elt F) → (⟨S330000x1, .i32⟩ : BufTy).Contents (Elt F)),
    ternary main_v58 main_v59 main_v57 main_v60 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_11 (constant S_ .f32 0x00000000#32),
    unary main_cst_11 main_v61 (broadcastInDim S10000 ![] bcast_S_S10000 : (⟨S_, .f32⟩ : BufTy).Contents (Elt F) → (⟨S10000, .f32⟩ : BufTy).Contents (Elt F)),
    binary main_v60 main_v61 main_v62 (cmpf .ogt : (⟨S10000, .f32⟩ : BufTy).Contents (Elt F) → (⟨S10000, .f32⟩ : BufTy).Contents (Elt F) → (⟨S10000, .i1⟩ : BufTy).Contents (Elt F)),
    unary main_v60 main_v63 (Host.rsqrt : (⟨S10000, .f32⟩ : BufTy).Contents (Elt F) → (⟨S10000, .f32⟩ : BufTy).Contents (Elt F)),
    nullary main_cst_12 (constant S_ .f32 0x00000000#32),
    TRef.unary (TRef.of (T := ⟨S_, .f32⟩) main_cst_12) (TRef.of (T := ⟨S_, .f32⟩) main_call3_v0) id,
    TRef.unary (TRef.of (T := ⟨S_, .f32⟩) main_call3_v0) (TRef.of (T := ⟨S10000, .f32⟩) main_call3_v1) (broadcastInDim S10000 ![] bcast_S_S10000),
    TRef.ternary (TRef.of (T := ⟨S10000, .i1⟩) main_v62) (TRef.of (T := ⟨S10000, .f32⟩) main_v63) (TRef.of (T := ⟨S10000, .f32⟩) main_call3_v1) (TRef.of (T := ⟨S10000, .f32⟩) main_v64) select,
    nullary main_c_13 (constantI S_ 32 0#32),
    unary main_c_13 main_v65 (broadcastInDim S330000 ![] bcast_S_S330000 : (⟨S_, .i32⟩ : BufTy).Contents (Elt F) → (⟨S330000, .i32⟩ : BufTy).Contents (Elt F)),
    binary main_v55 main_v65 main_v66 (cmpi .slt : (⟨S330000, .i32⟩ : BufTy).Contents (Elt F) → (⟨S330000, .i32⟩ : BufTy).Contents (Elt F) → (⟨S330000, .i1⟩ : BufTy).Contents (Elt F)),
    nullary main_c_14 (constantI S_ 32 10000#32),
    unary main_c_14 main_v67 (broadcastInDim S330000 ![] bcast_S_S330000 : (⟨S_, .i32⟩ : BufTy).Contents (Elt F) → (⟨S330000, .i32⟩ : BufTy).Contents (Elt F)),
    binary main_v55 main_v67 main_v68 (addi : (⟨S330000, .i32⟩ : BufTy).Contents (Elt F) → (⟨S330000, .i32⟩ : BufTy).Contents (Elt F) → (⟨S330000, .i32⟩ : BufTy).Contents (Elt F)),
    ternary main_v66 main_v68 main_v55 main_v69 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v69 main_v70 (broadcastInDim S330000x1 ![0] bcast_S330000_S330000x1_0 : (⟨S330000, .i32⟩ : BufTy).Contents (Elt F) → (⟨S330000x1, .i32⟩ : BufTy).Contents (Elt F)),
    binary main_v64 main_v70 main_v71 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_15 (constantI S_ 32 0#32),
    unary main_c_15 main_v72 (broadcastInDim S330000 ![] bcast_S_S330000 : (⟨S_, .i32⟩ : BufTy).Contents (Elt F) → (⟨S330000, .i32⟩ : BufTy).Contents (Elt F)),
    binary main_v56 main_v72 main_v73 (cmpi .slt : (⟨S330000, .i32⟩ : BufTy).Contents (Elt F) → (⟨S330000, .i32⟩ : BufTy).Contents (Elt F) → (⟨S330000, .i1⟩ : BufTy).Contents (Elt F)),
    nullary main_c_16 (constantI S_ 32 10000#32),
    unary main_c_16 main_v74 (broadcastInDim S330000 ![] bcast_S_S330000 : (⟨S_, .i32⟩ : BufTy).Contents (Elt F) → (⟨S330000, .i32⟩ : BufTy).Contents (Elt F)),
    binary main_v56 main_v74 main_v75 (addi : (⟨S330000, .i32⟩ : BufTy).Contents (Elt F) → (⟨S330000, .i32⟩ : BufTy).Contents (Elt F) → (⟨S330000, .i32⟩ : BufTy).Contents (Elt F)),
    ternary main_v73 main_v75 main_v56 main_v76 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v76 main_v77 (broadcastInDim S330000x1 ![0] bcast_S330000_S330000x1_0 : (⟨S330000, .i32⟩ : BufTy).Contents (Elt F) → (⟨S330000x1, .i32⟩ : BufTy).Contents (Elt F)),
    binary main_v64 main_v77 main_v78 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v71 main_v78 main_v79 (mulf : (⟨S330000, .f32⟩ : BufTy).Contents (Elt F) → (⟨S330000, .f32⟩ : BufTy).Contents (Elt F) → (⟨S330000, .f32⟩ : BufTy).Contents (Elt F)),
    nullary main_c_17 (constantI S_ 32 0#32),
    unary main_c_17 main_v80 (broadcastInDim S330000 ![] bcast_S_S330000 : (⟨S_, .i32⟩ : BufTy).Contents (Elt F) → (⟨S330000, .i32⟩ : BufTy).Contents (Elt F)),
    binary main_v55 main_v80 main_v81 (cmpi .slt : (⟨S330000, .i32⟩ : BufTy).Contents (Elt F) → (⟨S330000, .i32⟩ : BufTy).Contents (Elt F) → (⟨S330000, .i1⟩ : BufTy).Contents (Elt F)),
    nullary main_c_18 (constantI S_ 32 10000#32),
    unary main_c_18 main_v82 (broadcastInDim S330000 ![] bcast_S_S330000 : (⟨S_, .i32⟩ : BufTy).Contents (Elt F) → (⟨S330000, .i32⟩ : BufTy).Contents (Elt F)),
    binary main_v55 main_v82 main_v83 (addi : (⟨S330000, .i32⟩ : BufTy).Contents (Elt F) → (⟨S330000, .i32⟩ : BufTy).Contents (Elt F) → (⟨S330000, .i32⟩ : BufTy).Contents (Elt F)),
    ternary main_v81 main_v83 main_v55 main_v84 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v84 main_v85 (broadcastInDim S330000x1 ![0] bcast_S330000_S330000x1_0 : (⟨S330000, .i32⟩ : BufTy).Contents (Elt F) → (⟨S330000x1, .i32⟩ : BufTy).Contents (Elt F)),
    binary main_v53 main_v85 main_v86 ((fun x i => Host.gather gather_S10000x256_S330000x1_S330000x256_1_0_n_n_0_1_1256 x i) : (⟨S10000x256, .f32⟩ : BufTy).Contents (Elt F) → (⟨S330000x1, .i32⟩ : BufTy).Contents (Elt F) → (⟨S330000x256, .f32⟩ : BufTy).Contents (Elt F)),
    unary main_v79 main_v87 (broadcastInDim S330000x1 ![0] bcast_S330000_S330000x1_0 : (⟨S330000, .f32⟩ : BufTy).Contents (Elt F) → (⟨S330000x1, .f32⟩ : BufTy).Contents (Elt F)),
    unary main_v87 main_v88 (broadcastInDim S330000x256 ![0, 1] bcast_S330000x1_S330000x256_0_1 : (⟨S330000x1, .f32⟩ : BufTy).Contents (Elt F) → (⟨S330000x256, .f32⟩ : BufTy).Contents (Elt F)),
    binary main_v86 main_v88 main_v89 (mulf : (⟨S330000x256, .f32⟩ : BufTy).Contents (Elt F) → (⟨S330000x256, .f32⟩ : BufTy).Contents (Elt F) → (⟨S330000x256, .f32⟩ : BufTy).Contents (Elt F)),
    nullary main_cst_19 (constant S_ .f32 0x00000000#32),
    unary main_cst_19 main_v90 (broadcastInDim S10000x256 ![] bcast_S_S10000x256 : (⟨S_, .f32⟩ : BufTy).Contents (Elt F) → (⟨S10000x256, .f32⟩ : BufTy).Contents (Elt F)),
    unary main_v56 main_v91 (broadcastInDim S330000x1 ![0] bcast_S330000_S330000x1_0 : (⟨S330000, .i32⟩ : BufTy).Contents (Elt F) → (⟨S330000x1, .i32⟩ : BufTy).Contents (Elt F)),
    ternary main_v90 main_v91 main_v89 main_v92 ((fun x i u => Host.scatterAdd scatter_S10000x256_S330000x1_S330000x256_1_0_0_1 x i u) : (⟨S10000x256, .f32⟩ : BufTy).Contents (Elt F) → (⟨S330000x1, .i32⟩ : BufTy).Contents (Elt F) → (⟨S330000x256, .f32⟩ : BufTy).Contents (Elt F) → (⟨S10000x256, .f32⟩ : BufTy).Contents (Elt F)),
    unary main_arg8 main_v93 (broadcastInDim S1x256 ![1] bcast_S256_S1x256_1 : (⟨S256, .f32⟩ : BufTy).Contents (Elt F) → (⟨S1x256, .f32⟩ : BufTy).Contents (Elt F)),
    unary main_v93 main_v94 (broadcastInDim S10000x256 ![0, 1] bcast_S1x256_S10000x256_0_1 : (⟨S1x256, .f32⟩ : BufTy).Contents (Elt F) → (⟨S10000x256, .f32⟩ : BufTy).Contents (Elt F)),
    binary main_v92 main_v94 main_v95 (addf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S10000x256, .f32⟩) main_call4_v0) (broadcastInDim S10000x256 ![] bcast_S_S10000x256),
    TRef.binary (TRef.of (T := ⟨S10000x256, .f32⟩) main_v95) (TRef.of (T := ⟨S10000x256, .f32⟩) main_call4_v0) (TRef.of (T := ⟨S10000x256, .f32⟩) main_v96) maximumf,
    nullary main_cst_20 (constant S_ .f32 0x00000000#32),
    unary main_cst_20 main_v97 (broadcastInDim S64x256 ![] bcast_S_S64x256 : (⟨S_, .f32⟩ : BufTy).Contents (Elt F) → (⟨S64x256, .f32⟩ : BufTy).Contents (Elt F)),
    unary main_arg2 main_v98 (broadcastInDim S10000x1 ![0] bcast_S10000_S10000x1_0 : (⟨S10000, .i32⟩ : BufTy).Contents (Elt F) → (⟨S10000x1, .i32⟩ : BufTy).Contents (Elt F)),
    ternary main_v97 main_v98 main_v96 main_v99 ((fun x i u => Host.scatterAdd scatter_S64x256_S10000x1_S10000x256_1_0_0_1 x i u) : (⟨S64x256, .f32⟩ : BufTy).Contents (Elt F) → (⟨S10000x1, .i32⟩ : BufTy).Contents (Elt F) → (⟨S10000x256, .f32⟩ : BufTy).Contents (Elt F) → (⟨S64x256, .f32⟩ : BufTy).Contents (Elt F)),
    nullary main_cst_21 (constant S_ .f32 0x3F800000#32),
    unary main_cst_21 main_v100 (broadcastInDim S10000 ![] bcast_S_S10000 : (⟨S_, .f32⟩ : BufTy).Contents (Elt F) → (⟨S10000, .f32⟩ : BufTy).Contents (Elt F)),
    nullary main_cst_22 (constant S_ .f32 0x00000000#32),
    unary main_cst_22 main_v101 (broadcastInDim S64 ![] bcast_S_S64 : (⟨S_, .f32⟩ : BufTy).Contents (Elt F) → (⟨S64, .f32⟩ : BufTy).Contents (Elt F)),
    unary main_arg2 main_v102 (broadcastInDim S10000x1 ![0] bcast_S10000_S10000x1_0 : (⟨S10000, .i32⟩ : BufTy).Contents (Elt F) → (⟨S10000x1, .i32⟩ : BufTy).Contents (Elt F)),
    ternary main_v101 main_v102 main_v100 main_v103 ((fun x i u => Host.scatterAdd scatter_S64_S10000x1_S10000_n_0_0_1 x i u) : (⟨S64, .f32⟩ : BufTy).Contents (Elt F) → (⟨S10000x1, .i32⟩ : BufTy).Contents (Elt F) → (⟨S10000, .f32⟩ : BufTy).Contents (Elt F) → (⟨S64, .f32⟩ : BufTy).Contents (Elt F)),
    nullary main_cst_23 (constant S_ .f32 0x3F800000#32),
    unary main_cst_23 main_v104 (broadcastInDim S64 ![] bcast_S_S64 : (⟨S_, .f32⟩ : BufTy).Contents (Elt F) → (⟨S64, .f32⟩ : BufTy).Contents (Elt F)),
    binary main_v103 main_v104 main_v105 (maximumf : (⟨S64, .f32⟩ : BufTy).Contents (Elt F) → (⟨S64, .f32⟩ : BufTy).Contents (Elt F) → (⟨S64, .f32⟩ : BufTy).Contents (Elt F)),
    unary main_v105 main_v106 (broadcastInDim S64x1 ![0] bcast_S64_S64x1_0 : (⟨S64, .f32⟩ : BufTy).Contents (Elt F) → (⟨S64x1, .f32⟩ : BufTy).Contents (Elt F)),
    unary main_v106 main_v107 (broadcastInDim S64x256 ![0, 1] bcast_S64x1_S64x256_0_1 : (⟨S64x1, .f32⟩ : BufTy).Contents (Elt F) → (⟨S64x256, .f32⟩ : BufTy).Contents (Elt F)),
    binary main_v99 main_v107 main_v108 (Host.divf : (⟨S64x256, .f32⟩ : BufTy).Contents (Elt F) → (⟨S64x256, .f32⟩ : BufTy).Contents (Elt F) → (⟨S64x256, .f32⟩ : BufTy).Contents (Elt F)),
    binary main_v108 main_arg9 main_v109 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
    unary main_arg10 main_v110 (broadcastInDim S1x256 ![1] bcast_S256_S1x256_1 : (⟨S256, .f32⟩ : BufTy).Contents (Elt F) → (⟨S1x256, .f32⟩ : BufTy).Contents (Elt F)),
    unary main_v110 main_v111 (broadcastInDim S64x256 ![0, 1] bcast_S1x256_S64x256_0_1 : (⟨S1x256, .f32⟩ : BufTy).Contents (Elt F) → (⟨S64x256, .f32⟩ : BufTy).Contents (Elt F)),
    binary main_v109 main_v111 main_v112 (addf : (⟨S64x256, .f32⟩ : BufTy).Contents (Elt F) → (⟨S64x256, .f32⟩ : BufTy).Contents (Elt F) → (⟨S64x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

set_option maxRecDepth 8192 in
/-- The result's composed term of the argument arrays. -/
def refTerm (x0 : (⟨S10000x256, .f32⟩ : BufTy).Contents (Elt F)) (x1 : (⟨S2x320000, .i32⟩ : BufTy).Contents (Elt F)) (x2 : (⟨S10000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S256x256, .f32⟩ : BufTy).Contents (Elt F)) (x10 : (⟨S256, .f32⟩ : BufTy).Contents (Elt F)) : (⟨S64x256, .f32⟩ : BufTy).Contents (Elt F) :=
  addf (Host.dotGeneral dot_S64x256_S256x256_S64x256_1_0_0_1_n_n none (Host.divf (Host.scatterAdd scatter_S64x256_S10000x1_S10000x256_1_0_0_1 (broadcastInDim S64x256 ![] bcast_S_S64x256 (constant S_ .f32 0x00000000#32)) (broadcastInDim S10000x1 ![0] bcast_S10000_S10000x1_0 x2) (maximumf (addf (Host.scatterAdd scatter_S10000x256_S330000x1_S330000x256_1_0_0_1 (broadcastInDim S10000x256 ![] bcast_S_S10000x256 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (mulf (Host.gather gather_S10000x256_S330000x1_S330000x256_1_0_n_n_0_1_1256 (Host.dotGeneral dot_S10000x256_S256x256_S10000x256_1_0_0_1_n_n none (maximumf (addf (Host.scatterAdd scatter_S10000x256_S330000x1_S330000x256_1_0_0_1 (broadcastInDim S10000x256 ![] bcast_S_S10000x256 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (mulf (Host.gather gather_S10000x256_S330000x1_S330000x256_1_0_n_n_0_1_1256 (Host.dotGeneral dot_S10000x256_S256x256_S10000x256_1_0_0_1_n_n none (maximumf (addf (Host.dotGeneral dot_S10000x256_S256x256_S10000x256_1_0_0_1_n_n none x0 x3) (broadcastInDim S10000x256 ![0, 1] bcast_S1x256_S10000x256_0_1 (broadcastInDim S1x256 ![1] bcast_S256_S1x256_1 x4))) (broadcastInDim S10000x256 ![] bcast_S_S10000x256 (constant S_ .f32 0x00000000#32))) x5) (broadcastInDim S330000x1 ![0] bcast_S330000_S330000x1_0 (select (cmpi .slt (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0)))) (broadcastInDim S330000x256 ![0, 1] bcast_S330000x1_S330000x256_0_1 (broadcastInDim S330000x1 ![0] bcast_S330000_S330000x1_0 (mulf (Host.gather gather_S10000_S330000x1_S330000_n_0_n_n_0_1_1 (select (cmpf (F := F) .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x00000000#32))) (Host.rsqrt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32)))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0)))) (Host.gather gather_S10000_S330000x1_S330000_n_0_n_n_0_1_1 (select (cmpf (F := F) .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x00000000#32))) (Host.rsqrt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32)))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0))))))))) (broadcastInDim S10000x256 ![0, 1] bcast_S1x256_S10000x256_0_1 (broadcastInDim S1x256 ![1] bcast_S256_S1x256_1 x6))) (broadcastInDim S10000x256 ![] bcast_S_S10000x256 (constant S_ .f32 0x00000000#32))) x7) (broadcastInDim S330000x1 ![0] bcast_S330000_S330000x1_0 (select (cmpi .slt (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0)))) (broadcastInDim S330000x256 ![0, 1] bcast_S330000x1_S330000x256_0_1 (broadcastInDim S330000x1 ![0] bcast_S330000_S330000x1_0 (mulf (Host.gather gather_S10000_S330000x1_S330000_n_0_n_n_0_1_1 (select (cmpf (F := F) .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x00000000#32))) (Host.rsqrt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32)))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![0, 0] x1 slices_S2x320000_S1x320000_0_0) shapeCasts_S1x320000_S320000)⟩, ⟨S10000, (iotaInDim S10000 32 0)⟩] concatenates_S320000_S10000_S330000_d0)))) (Host.gather gather_S10000_S330000x1_S330000_n_0_n_n_0_1_1 (select (cmpf (F := F) .ogt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32))) (broadcastInDim S10000 ![] bcast_S_S10000 (constant S_ .f32 0x00000000#32))) (Host.rsqrt (Host.scatterAdd scatter_S10000_S330000x1_S330000_n_0_0_1 (broadcastInDim S10000 ![] bcast_S_S10000 (constant S_ .f32 0x00000000#32)) (broadcastInDim S330000x1 ![0] bcast_S330000_S330000x1_0 (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0)) (broadcastInDim S330000 ![] bcast_S_S330000 (constant S_ .f32 0x3F800000#32)))) (broadcastInDim S10000 ![] bcast_S_S10000 (id (constant S_ .f32 0x00000000#32)))) (broadcastInDim S330000x1 ![0] bcast_S330000_S330000x1_0 (select (cmpi .slt (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0) (broadcastInDim S330000 ![] bcast_S_S330000 (constantI S_ 32 0#32))) (addi (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0) (broadcastInDim S330000 ![] bcast_S_S330000 (constantI S_ 32 10000#32))) (concatenate S330000 0 [⟨S320000, (shapeCast _ (extractStridedSlice S1x320000 ![1, 0] x1 slices_S2x320000_S1x320000_1_0) shapeCasts_S1x320000_S320000)⟩, ⟨S10000, (iotaInDim S10000 32 0)⟩] concatenates_S320000_S10000_S330000_d0))))))))) (broadcastInDim S10000x256 ![0, 1] bcast_S1x256_S10000x256_0_1 (broadcastInDim S1x256 ![1] bcast_S256_S1x256_1 x8))) (broadcastInDim S10000x256 ![] bcast_S_S10000x256 (constant S_ .f32 0x00000000#32)))) (broadcastInDim S64x256 ![0, 1] bcast_S64x1_S64x256_0_1 (broadcastInDim S64x1 ![0] bcast_S64_S64x1_0 (maximumf (Host.scatterAdd scatter_S64_S10000x1_S10000_n_0_0_1 (broadcastInDim S64 ![] bcast_S_S64 (constant S_ .f32 0x00000000#32)) (broadcastInDim S10000x1 ![0] bcast_S10000_S10000x1_0 x2) (broadcastInDim S10000 ![] bcast_S_S10000 (constant S_ .f32 0x3F800000#32))) (broadcastInDim S64 ![] bcast_S_S64 (constant S_ .f32 0x3F800000#32)))))) x9) (broadcastInDim S64x256 ![0, 1] bcast_S1x256_S64x256_0_1 (broadcastInDim S1x256 ![1] bcast_S256_S1x256_1 x10))

set_option maxRecDepth 8192 in
set_option maxHeartbeats 59600000 in
/-- On every device, from any memory with zero counters: every weakly fair execution of @main terminates with the
    result at `refTerm` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v112) = refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v112).trans (by after_results_simp <;> rfl <;> (unfold refTerm; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference program's composed term is the specification's first arrangement. The term is read stage by stage:
  the input layer (a product with the weights, the bias laid along every row, the cut at zero); two convolutions,
  each a product with the weights, the rows carried along the edges, every carried row weighted by the scale at its
  edge's two ends, the weighted rows added per destination into a zero table, the bias laid along every row, the cut
  at zero; the rows added per graph and divided by the graph sizes; the head (a product with the weights plus the
  bias). The index columns (the two rows of the edge table, each followed by the nodes' own indices, raw or with
  negative entries wrapped), the scale (the reciprocal root of the degree where positive, zero elsewhere) and the
  graph sizes are named once, over the program's own shape side conditions, and each stage is the host spelling of
  the specification's stage at the program's literal sizes: 10000 nodes, 330000 extended edges, 256 features,
  64 graphs.
-/
import proofs.«139987_j50337016709803_2_alg».proof.Proof.RefRun
import proofs.«139987_j50337016709803_2_alg».proof.Proof.LibGcnNet

noncomputable section

namespace Cert.ReferenceIdeal.RefValue

open Cert.ReferenceIdeal Cert.ReferenceIdeal.Gen Idealize.ShloMosaic

/-! ## The index columns, the scale and the graph sizes -/

/-- The table has at least one row. -/
abbrev hN : 0 < 10000 := by decide

/-- The sources of the extended edges: row 0 of the edge table, then every node's own index. -/
abbrev sE (x1 : IVec S2x320000 32) : Cert.Gcn.IVc 330000 :=
  Cert.Gcn.extIdx (E := 320000) (N := 10000) (R := 330000) 0 slices_S2x320000_S1x320000_0_0
    shapeCasts_S1x320000_S320000 concatenates_S320000_S10000_S330000_d0 x1

/-- The destinations of the extended edges: row 1 of the edge table, then every node's own index. -/
abbrev dE (x1 : IVec S2x320000 32) : Cert.Gcn.IVc 330000 :=
  Cert.Gcn.extIdx (E := 320000) (N := 10000) (R := 330000) 1 slices_S2x320000_S1x320000_1_0
    shapeCasts_S1x320000_S320000 concatenates_S320000_S10000_S330000_d0 x1

/-- The source column, negative entries increased by the number of nodes. -/
abbrev srcw (x1 : IVec S2x320000 32) : Cert.Sage.ICol 330000 :=
  Cert.Gcn.wrapCol bcast_S330000_S330000x1_0 bcast_S_S330000 10000#32 (sE x1)

/-- The destination column, negative entries increased by the number of nodes. -/
abbrev dstw (x1 : IVec S2x320000 32) : Cert.Sage.ICol 330000 :=
  Cert.Gcn.wrapCol bcast_S330000_S330000x1_0 bcast_S_S330000 10000#32 (dE x1)

/-- The destination column as it stands. -/
abbrev dst (x1 : IVec S2x320000 32) : Cert.Sage.ICol 330000 :=
  Cert.Gcn.rawCol bcast_S330000_S330000x1_0 (dE x1)

/-- The scale: the reciprocal root of the degree (ones added per destination) where positive, zero elsewhere. -/
abbrev dinv (x1 : IVec S2x320000 32) : Cert.Sage.Vc 10000 :=
  Cert.Gcn.dinvOf bcast_S_S10000
    (Cert.Gcn.degOf scatter_S10000_S330000x1_S330000_n_0_0_1 bcast_S_S10000 bcast_S_S330000 (dst x1))

/-- The graph of every node, as a column. -/
abbrev bcol (x2 : IVec S10000 32) : Cert.Sage.ICol 10000 :=
  Cert.Gcn.rawCol bcast_S10000_S10000x1_0 x2

/-- The graph sizes: ones added per graph, raised to at least one. -/
abbrev cnt (x2 : IVec S10000 32) : Cert.Sage.Vc 64 :=
  Cert.Gcn.cntOf scatter_S64_S10000x1_S10000_n_0_0_1 bcast_S_S64 bcast_S_S10000 (bcol x2)

/-! ## The stages -/

open Cert.Gcn Cert.Sage Cert.DenseLib Cert.RowsLib Cert.ScatterLib Cert.GatherVecLib

/-- The input layer as the program writes it. -/
theorem layer0_host (X : FVec Ideal S10000x256 .f32) (W : FVec Ideal S256x256 .f32) (b : FVec Ideal S256 .f32) :
    maximumf (F := Ideal)
        (addf (Host.dotGeneral dot_S10000x256_S256x256_S10000x256_1_0_0_1_n_n none X W)
          (broadcastInDim S10000x256 ![0, 1] bcast_S1x256_S10000x256_0_1 (broadcastInDim S1x256 ![1] bcast_S256_S1x256_1 b)))
        (broadcastInDim S10000x256 ![] bcast_S_S10000x256 (constant (F := Ideal) S_ .f32 0x00000000#32))
      = layer0 X W b :=
  hostLayer0_eq (N := 10000) (K := 256) (C := 256) dot_S10000x256_S256x256_S10000x256_1_0_0_1_n_n rfl
    bcast_S256_S1x256_1 bcast_S1x256_S10000x256_0_1 bcast_S_S10000x256 X W b

/-- One convolution as the program writes it, for any feature table. -/
theorem conv_host (x1 : IVec S2x320000 32) (H : FVec Ideal S10000x256 .f32) (W : FVec Ideal S256x256 .f32)
    (b : FVec Ideal S256 .f32) :
    maximumf (F := Ideal)
        (addf
          (Host.scatterAdd (F := Ideal) scatter_S10000x256_S330000x1_S330000x256_1_0_0_1
            (broadcastInDim S10000x256 ![] bcast_S_S10000x256 (constant (F := Ideal) S_ .f32 0x00000000#32)) (dst x1)
            (mulf
              (Host.gather gather_S10000x256_S330000x1_S330000x256_1_0_n_n_0_1_1256
                (Host.dotGeneral dot_S10000x256_S256x256_S10000x256_1_0_0_1_n_n none H W) (srcw x1))
              (broadcastInDim S330000x256 ![0, 1] bcast_S330000x1_S330000x256_0_1
                (broadcastInDim S330000x1 ![0] bcast_S330000_S330000x1_0
                  (mulf (Host.gather gather_S10000_S330000x1_S330000_n_0_n_n_0_1_1 (dinv x1) (srcw x1))
                    (Host.gather gather_S10000_S330000x1_S330000_n_0_n_n_0_1_1 (dinv x1) (dstw x1)))))))
          (broadcastInDim S10000x256 ![0, 1] bcast_S1x256_S10000x256_0_1 (broadcastInDim S1x256 ![1] bcast_S256_S1x256_1 b)))
        (broadcastInDim S10000x256 ![] bcast_S_S10000x256 (constant (F := Ideal) S_ .f32 0x00000000#32))
      = convEdge hN (srcw x1) (dst x1) (dstw x1) (dinv x1) H W b := by
  rw [hostBiasRelu_eq (N := 10000) (C := 256),
    hostEdge_eq (N := 10000) (C := 256) (R := 330000) hN
      gather_S10000x256_S330000x1_S330000x256_1_0_n_n_0_1_1256_wf
      gather_S10000x256_S330000x1_S330000x256_1_0_n_n_0_1_1256 rfl
      gather_S10000_S330000x1_S330000_n_0_n_n_0_1_1_wf
      gather_S10000_S330000x1_S330000_n_0_n_n_0_1_1 rfl
      scatter_S10000x256_S330000x1_S330000x256_1_0_0_1_wf
      scatter_S10000x256_S330000x1_S330000x256_1_0_0_1 rfl,
    dotGeneral_eq_mm (M := 10000) (K := 256) (N := 256) dot_S10000x256_S256x256_S10000x256_1_0_0_1_n_n rfl]
  rfl

/-- The mean over graphs as the program writes it. -/
theorem pool_host (x2 : IVec S10000 32) (H : FVec Ideal S10000x256 .f32) :
    Host.divf (F := Ideal)
        (Host.scatterAdd (F := Ideal) scatter_S64x256_S10000x1_S10000x256_1_0_0_1
          (broadcastInDim S64x256 ![] bcast_S_S64x256 (constant (F := Ideal) S_ .f32 0x00000000#32)) (bcol x2) H)
        (broadcastInDim S64x256 ![0, 1] bcast_S64x1_S64x256_0_1 (broadcastInDim S64x1 ![0] bcast_S64_S64x1_0 (cnt x2)))
      = pool (bcol x2) (cnt x2) H :=
  hostPool_eq (G := 64) (C := 256) (N := 10000) scatter_S64x256_S10000x1_S10000x256_1_0_0_1_wf
    scatter_S64x256_S10000x1_S10000x256_1_0_0_1 rfl bcast_S_S64x256 bcast_S64_S64x1_0 bcast_S64x1_S64x256_0_1
    (bcol x2) (cnt x2) H

/-- The head as the program writes it. -/
theorem head_host (P : FVec Ideal S64x256 .f32) (W : FVec Ideal S256x256 .f32) (b : FVec Ideal S256 .f32) :
    addf (F := Ideal) (Host.dotGeneral dot_S64x256_S256x256_S64x256_1_0_0_1_n_n none P W)
        (broadcastInDim S64x256 ![0, 1] bcast_S1x256_S64x256_0_1 (broadcastInDim S1x256 ![1] bcast_S256_S1x256_1 b))
      = head P W b :=
  hostHead_eq (G := 64) (K := 256) (C := 256) dot_S64x256_S256x256_S64x256_1_0_0_1_n_n rfl
    bcast_S256_S1x256_1 bcast_S1x256_S64x256_0_1 P W b

/-! ## The whole term -/

/-- THE REFERENCE'S TERM IS THE FIRST ARRANGEMENT: the network's stages, outermost first, are the head, the mean over
    graphs, the two convolutions and the input layer, each in its host spelling; with every stage so spelt the two
    sides are the same term. -/
theorem refTerm_eq
    (x0 : (⟨S10000x256, .f32⟩ : BufTy).Contents (Elt Ideal)) (x1 : (⟨S2x320000, .i32⟩ : BufTy).Contents (Elt Ideal))
    (x2 : (⟨S10000, .i32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) :
    Cert.ReferenceIdeal.RefRun.refTerm (F := Ideal) x0 x1 x2 x3 x4 x5 x6 x7 x8 x9 x10
      = Cert.Gcn.netEdge hN (srcw x1) (dst x1) (dstw x1) (dinv x1) (bcol x2) (cnt x2) x0 x3 x4 x5 x6 x7 x8 x9 x10 := by
  unfold Cert.Gcn.netEdge
  rw [← head_host, ← pool_host x2, ← conv_host x1 _ x7 x8, ← conv_host x1 _ x5 x6, ← layer0_host]
  rfl

end Cert.ReferenceIdeal.RefValue

end
-- ==== Proof.lean ====
/-
  Two programs compute a two-layer graph convolution with symmetric degree normalisation (every node joined to
  itself), a mean over graphs and a linear head. For an edge e from node s(e) to node t(e) and d = deg^(-1/2)
  (zero where the degree is zero), one convolution sends the rows Y = H·W to

      out(v) = relu( Σ_{e : t(e) = v} Y(s(e)) · (d(s(e)) · d(t(e))) + b )          (the reference)
      out(v) = relu( (Σ_{e : t(e) = v} Y(s(e)) · d(s(e))) · d(v) + b )              (the kernel)

  The kernel computes the dense stages (the input layer, Y · d row by row, the epilogue (·) · d + b cut at zero, and
  the head) in six regions over blocks of a thousand rows, and leaves the carrying of rows along the edges and the
  sums per destination to the host, exactly as the reference does; both read source indices clamped into the table
  after negative ones are wrapped, and both drop an edge whose destination index names no node.

  Over the extended reals (a change of float format is the identity, every operation exact) the two are equal for
  EVERY input, finite or not: d is a nonnegative real (a count's reciprocal root, or zero), the product with a
  nonnegative real distributes over any sum of extended reals, products re-associate, and for an edge that lands on
  node v the destination index the reference reads d at names v. So the precondition is never opened.

  The kernel's value is read off its run: a block of rows of every dense stage is the same function of that block
  of rows, the blocks tile the arrays, and the buffers between the regions are walked boundary by boundary from the
  launch memory. The reference's value is its 149 host operations composed. The idealization rewrote nothing, so
  `preserves` is trivial.
-/
import proofs.«139987_j50337016709803_2_alg».proof.Defs
import proofs.«139987_j50337016709803_2_alg».proof.Proof.Gen.Kernel
import proofs.«139987_j50337016709803_2_alg».proof.Proof.Gen.Kernel.Skeleton
import proofs.«139987_j50337016709803_2_alg».proof.Proof.Gen.Kernel.Launch
import proofs.«139987_j50337016709803_2_alg».proof.Proof.Gen.Kernel.Points
import proofs.«139987_j50337016709803_2_alg».proof.Proof.Gen.Kernel.Frame
import proofs.«139987_j50337016709803_2_alg».proof.Proof.Gen.KernelIdeal
import proofs.«139987_j50337016709803_2_alg».proof.Proof.Gen.KernelIdeal.Skeleton
import proofs.«139987_j50337016709803_2_alg».proof.Proof.Gen.KernelIdeal.Launch
import proofs.«139987_j50337016709803_2_alg».proof.Proof.Gen.KernelIdeal.Points
import proofs.«139987_j50337016709803_2_alg».proof.Proof.Gen.KernelIdeal.Frame
import proofs.«139987_j50337016709803_2_alg».proof.Proof.Gen.ReferenceIdeal
import proofs.«139987_j50337016709803_2_alg».proof.Proof.Gen.Pre_finite_inputs
import proofs.«139987_j50337016709803_2_alg».proof.Proof.KerLaunch
import proofs.«139987_j50337016709803_2_alg».proof.Proof.KerFold
import proofs.«139987_j50337016709803_2_alg».proof.Proof.RefRun
import proofs.«139987_j50337016709803_2_alg».proof.Proof.RefValue
import Idealize.ShloMosaic.Adequacy
import Idealize.ShloMosaic.Init

set_option maxRecDepth 16384

noncomputable section

namespace Cert.Proof

open Idealize.ShloMosaic Idealize.SL.Sem Idealize.ShloMosaic.ValueIdx Cert.Gcn

/-- The word-level kernel runs and keeps its arguments. -/
theorem frame_k [Cert.Kernel.Facts] [Cert.Pre_finite_inputs.Facts] : Cert.frame_Kernel :=
  fun m ρ _ => Cert.Kernel.Gen.frame m ρ

/-- The idealized kernel runs and keeps its arguments. -/
theorem frame_ki [Cert.KernelIdeal.Facts] [Cert.Pre_finite_inputs.Facts] : Cert.frame_KernelIdeal :=
  fun m ρ _ => Cert.KernelIdeal.Gen.frame m ρ

/-- The reference runs and keeps its arguments: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RefRun.run (F := Ideal) m ρ)

/-- The scale of the kernel's edge table is a nonnegative real at every node. -/
theorem dinv_nonneg (x1 : IVec Cert.KernelIdeal.S2x320000 32) (i : (⟨1, ![10000]⟩ : Shape).Idx) :
    0 ≤ Cert.KernelIdeal.Fold.dinv x1 i ∧ Cert.KernelIdeal.Fold.dinv x1 i ≠ ⊤ :=
  dinvOf_nonneg Cert.KernelIdeal.Gen.bcast_S_S10000 _
    (fun i => degOf_nonneg Cert.KernelIdeal.scatter_S10000_S330000x1_S330000_n_0_0_1.wf _ rfl
      Cert.KernelIdeal.Gen.bcast_S_S10000 Cert.KernelIdeal.Gen.bcast_S_S330000 _ i) i

/-- At the ideal instance both programs end with the network of the argument arrays: the kernel in the second
    arrangement (its run, then the walk through the segment boundaries), the reference in the first (its run, then its
    composed term read stage by stage), and the two arrangements agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => netNode Cert.KernelIdeal.Fold.hN (Cert.KernelIdeal.Fold.srcw (m ((c.tc : Thread Cert.KernelIdeal.nD Cert.KernelIdeal.τ).loc Cert.KernelIdeal.main_arg1))) (Cert.KernelIdeal.Fold.dst (m ((c.tc : Thread Cert.KernelIdeal.nD Cert.KernelIdeal.τ).loc Cert.KernelIdeal.main_arg1)))
      (Cert.KernelIdeal.Fold.dinv (m ((c.tc : Thread Cert.KernelIdeal.nD Cert.KernelIdeal.τ).loc Cert.KernelIdeal.main_arg1))) (Cert.KernelIdeal.Fold.bcol (m ((c.tc : Thread Cert.KernelIdeal.nD Cert.KernelIdeal.τ).loc Cert.KernelIdeal.main_arg2))) (Cert.KernelIdeal.Fold.cnt (m ((c.tc : Thread Cert.KernelIdeal.nD Cert.KernelIdeal.τ).loc Cert.KernelIdeal.main_arg2)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.W12_v57 m ρ c), (h c).2⟩)
      (Cert.KernelIdeal.Launch.run_result (F := Ideal) m ρ)
  · refine (θ_run Cert.ReferenceIdeal.defs _ _).mono (fun r h c => ⟨(h c).1.trans ?_, (h c).2⟩)
      (Cert.ReferenceIdeal.RefRun.run (F := Ideal) m' ρ')
    obtain ⟨a0, a1, a2, a3, a4, a5, a6, a7, a8, a9, a10⟩ := hagree c
    rw [Cert.ReferenceIdeal.RefValue.refTerm_eq, a0, a1, a2, a3, a4, a5, a6, a7, a8, a9, a10]
    exact netEdge_eq_netNode Cert.KernelIdeal.Fold.hN (Cert.KernelIdeal.Fold.srcw (m ((c.tc : Thread Cert.KernelIdeal.nD Cert.KernelIdeal.τ).loc Cert.KernelIdeal.main_arg1))) (Cert.KernelIdeal.Fold.dst (m ((c.tc : Thread Cert.KernelIdeal.nD Cert.KernelIdeal.τ).loc Cert.KernelIdeal.main_arg1)))
      (Cert.KernelIdeal.Fold.dstw (m ((c.tc : Thread Cert.KernelIdeal.nD Cert.KernelIdeal.τ).loc Cert.KernelIdeal.main_arg1))) (Cert.KernelIdeal.Fold.dinv (m ((c.tc : Thread Cert.KernelIdeal.nD Cert.KernelIdeal.τ).loc Cert.KernelIdeal.main_arg1))) (Cert.KernelIdeal.Fold.bcol (m ((c.tc : Thread Cert.KernelIdeal.nD Cert.KernelIdeal.τ).loc Cert.KernelIdeal.main_arg2)))
      (Cert.KernelIdeal.Fold.cnt (m ((c.tc : Thread Cert.KernelIdeal.nD Cert.KernelIdeal.τ).loc Cert.KernelIdeal.main_arg2))) _ _ _ _ _ _ _ _ _
      (dinv_nonneg _)
      (fun r v h => wrap_names Cert.KernelIdeal.Fold.hN Cert.KernelIdeal.Gen.bcast_S330000_S330000x1_0
        Cert.KernelIdeal.Gen.bcast_S_S330000 10000#32 (Cert.KernelIdeal.Fold.dE (m ((c.tc : Thread Cert.KernelIdeal.nD Cert.KernelIdeal.τ).loc Cert.KernelIdeal.main_arg1))) r v h)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
